-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel

variable [Facts]

def fn {F : FTy → Type} [FloatOps F] (main_arg0 : FVec F S262144x4 .f32) (main_arg1 : FVec F S262144x4 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S262144x4 .f32 := Host.absf main_arg1
  let main_cst_0 : FVec F S_ .f32 := constant S_ .f32 0x7F800000#32
  let main_v5 : FVec F S262144x4 .f32 := broadcastInDim S262144x4 ![] bcast_S_S262144x4 main_cst_0
  let main_v6 : IVec S262144x4 1 := cmpf .olt main_v4 main_v5
  let main_c_1 : IVec S_ 1 := constantI S_ 1 1#1
  let main_v7 : IVec S_ 1 := (fun x v => Host.reduce IntOp.andi x v reducesTo_S262144x4_S_d0_1 h_S_) main_v6 main_c_1
  let main_v8 : IVec S_ 1 := andi main_v3 main_v7
  main_v8
-- ==== Kernel.lean ====
abbrev S262144x4 : Shape := ⟨2, ![262144, 4]⟩
abbrev S262144x3 : Shape := ⟨2, ![262144, 3]⟩
abbrev S_ : Shape := ⟨0, ![]⟩
abbrev S262144x1 : Shape := ⟨2, ![262144, 1]⟩
abbrev S262144 : Shape := ⟨1, ![262144]⟩
abbrev S16777216 : Shape := ⟨1, ![16777216]⟩
abbrev S256x256x256 : Shape := ⟨3, ![256, 256, 256]⟩
abbrev S2x4x256x256 : Shape := ⟨4, ![2, 4, 256, 256]⟩
abbrev S4x256x256 : Shape := ⟨3, ![4, 256, 256]⟩
abbrev S16x256x256 : Shape := ⟨3, ![16, 256, 256]⟩
abbrev S1x4x256x256 : Shape := ⟨4, ![1, 4, 256, 256]⟩
abbrev S4x16x256 : Shape := ⟨3, ![4, 16, 256]⟩
abbrev S1x16x256x256 : Shape := ⟨4, ![1, 16, 256, 256]⟩
abbrev S4x16x256x256 : Shape := ⟨4, ![4, 16, 256, 256]⟩
abbrev S3x4x256x256 : Shape := ⟨4, ![3, 4, 256, 256]⟩

abbrev nBuf : Space → Nat
  | .hbm => 81
  | .vmem => 16
  | .smem => 0
  | _ => 0

abbrev bufTy : (tb : Table) → Fin (tcTables nBuf tb) → BufTy
  | .hbm, ⟨0, _⟩ => ⟨S262144x4, .f32⟩
  | .hbm, ⟨1, _⟩ => ⟨S262144x4, .f32⟩
  | .hbm, ⟨2, _⟩ => ⟨S262144x3, .f32⟩
  | .hbm, ⟨3, _⟩ => ⟨S_, .f32⟩
  | .hbm, ⟨4, _⟩ => ⟨S262144x3, .f32⟩
  | .hbm, ⟨5, _⟩ => ⟨S262144x3, .f32⟩
  | .hbm, ⟨6, _⟩ => ⟨S262144x3, .f32⟩
  | .hbm, ⟨7, _⟩ => ⟨S262144x3, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S262144x3, .i32⟩
  | .hbm, ⟨12, _⟩ => ⟨S262144x3, .i32⟩
  | .hbm, ⟨13, _⟩ => ⟨S_, .i32⟩
  | .hbm, ⟨14, _⟩ => ⟨S262144x3, .i32⟩
  | .hbm, ⟨15, _⟩ => ⟨S262144x3, .i32⟩
  | .hbm, ⟨16, _⟩ => ⟨S262144x1, .f32⟩
  | .hbm, ⟨17, _⟩ => ⟨S262144, .f32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S262144x1, .f32⟩
  | .hbm, ⟨38, _⟩ => ⟨S262144, .f32⟩
  | .hbm, ⟨39, _⟩ => ⟨S_, .f32⟩
  | .hbm, ⟨40, _⟩ => ⟨S16777216, .f32⟩
  | .hbm, ⟨41, _⟩ => ⟨S262144x1, .i32⟩
  | .hbm, ⟨42, _⟩ => ⟨S16777216, .f32⟩
  | .hbm, ⟨43, _⟩ => ⟨S256x256x256, .f32⟩
  | .hbm, ⟨44, _⟩ => ⟨S262144x1, .f32⟩
  | .hbm, ⟨45, _⟩ => ⟨S262144, .f32⟩
  | .hbm, ⟨46, _⟩ => ⟨S_, .f32⟩
  | .hbm, ⟨47, _⟩ => ⟨S16777216, .f32⟩
  | .hbm, ⟨48, _⟩ => ⟨S262144x1, .i32⟩
  | .hbm, ⟨49, _⟩ => ⟨S16777216, .f32⟩
  | .hbm, ⟨50, _⟩ => ⟨S256x256x256, .f32⟩
  | .hbm, ⟨51, _⟩ => ⟨S262144x1, .f32⟩
  | .hbm, ⟨52, _⟩ => ⟨S262144, .f32⟩
  | .hbm, ⟨53, _⟩ => ⟨S_, .f32⟩
  | .hbm, ⟨54, _⟩ => ⟨S16777216, .f32⟩
  | .hbm, ⟨55, _⟩ => ⟨S262144x1, .i32⟩
  | .hbm, ⟨56, _⟩ => ⟨S16777216, .f32⟩
  | .hbm, ⟨57, _⟩ => ⟨S256x256x256, .f32⟩
  | .hbm, ⟨58, _⟩ => ⟨S262144x1, .f32⟩
  | .hbm, ⟨59, _⟩ => ⟨S262144, .f32⟩
  | .hbm, ⟨60, _⟩ => ⟨S_, .f32⟩
  | .hbm, ⟨61, _⟩ => ⟨S16777216, .f32⟩
  | .hbm, ⟨62, _⟩ => ⟨S262144x1, .i32⟩
  | .hbm, ⟨63, _⟩ => ⟨S16777216, .f32⟩
  | .hbm, ⟨64, _⟩ => ⟨S256x256x256, .f32⟩
  | .hbm, ⟨65, _⟩ => ⟨S_, .f32⟩
  | .hbm, ⟨66, _⟩ => ⟨S262144, .f32⟩
  | .hbm, ⟨67, _⟩ => ⟨S_, .f32⟩
  | .hbm, ⟨68, _⟩ => ⟨S16777216, .f32⟩
  | .hbm, ⟨69, _⟩ => ⟨S262144x1, .i32⟩
  | .hbm, ⟨70, _⟩ => ⟨S16777216, .f32⟩
  | .hbm, ⟨71, _⟩ => ⟨S256x256x256, .f32⟩
  | .hbm, ⟨72, _⟩ => ⟨S2x4x256x256, .f32⟩
  | .hbm, ⟨73, _⟩ => ⟨S4x256x256, .f32⟩
  | .hbm, ⟨74, _⟩ => ⟨S4x256x256, .f32⟩
  | .hbm, ⟨75, _⟩ => ⟨S_, .f32⟩
  | .hbm, ⟨76, _⟩ => ⟨S4x256x256, .f32⟩
  | .hbm, ⟨77, _⟩ => ⟨S1x4x256x256, .f32⟩
  | .hbm, ⟨78, _⟩ => ⟨S1x4x256x256, .f32⟩
  | .hbm, ⟨79, _⟩ => ⟨S1x4x256x256, .f32⟩
  | .hbm, ⟨80, _⟩ => ⟨S3x4x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .f32⟩
  | .local _ .vmem, ⟨5, _⟩ => ⟨S16x256x256, .f32⟩
  | .local _ .vmem, ⟨6, _⟩ => ⟨S16x256x256, .f32⟩
  | .local _ .vmem, ⟨7, _⟩ => ⟨S16x256x256, .f32⟩
  | .local _ .vmem, ⟨8, _⟩ => ⟨S16x256x256, .f32⟩
  | .local _ .vmem, ⟨9, _⟩ => ⟨S16x256x256, .f32⟩
  | .local _ .vmem, ⟨10, _⟩ => ⟨S1x4x256x256, .f32⟩
  | .local _ .vmem, ⟨11, _⟩ => ⟨S1x4x256x256, .f32⟩
  | .local _ .vmem, ⟨12, _⟩ => ⟨S4x16x256, .f32⟩
  | .local _ .vmem, ⟨13, _⟩ => ⟨S4x16x256, .f32⟩
  | .local _ .vmem, ⟨14, _⟩ => ⟨S4x16x256, .f32⟩
  | .local _ .vmem, ⟨15, _⟩ => ⟨S4x16x256, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v53_2 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_17 : BitVec 32 := 0#32
  let v25 : BitVec 1 := Scalar.cmpi .ne v24 c0_i32_17
  v25

def k0_cond2 (i : grid0.Coords) : BitVec 1 :=
  let arg1 : BitVec 32 := BitVec.ofNat 32 (i 1).val
  let c0_i32_18 : BitVec 32 := 0#32
  let v26 : BitVec 1 := Scalar.cmpi .ne arg1 c0_i32_18
  let v27 : BitVec 32 := Scalar.extui v26
  let c0_i32_19 : BitVec 32 := 0#32
  let v28 : BitVec 1 := Scalar.cmpi .ne v27 c0_i32_19
  v28

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S262144x4_S262144x3_0_0 : S262144x4.Slices ![0, 0] S262144x3
  bcast_S_S262144x3 : S_.BroadcastsInDim S262144x3 (![] : Fin 0 → Fin S262144x3.rank)
  slices_S262144x4_S262144x1_0_3 : S262144x4.Slices ![0, 3] S262144x1
  shapeCasts_S262144x1_S262144 : S262144x1.ShapeCasts S262144
  bcast_S_S262144 : S_.BroadcastsInDim S262144 (![] : Fin 0 → Fin S262144.rank)
  slices_S262144x3_S262144x1_0_0 : S262144x3.Slices ![0, 0] S262144x1
  slices_S262144x3_S262144x1_0_1 : S262144x3.Slices ![0, 1] S262144x1
  slices_S262144x3_S262144x1_0_2 : S262144x3.Slices ![0, 2] S262144x1
  slices_S262144x4_S262144x1_0_0 : S262144x4.Slices ![0, 0] S262144x1
  bcast_S_S16777216 : S_.BroadcastsInDim S16777216 (![] : Fin 0 → Fin S16777216.rank)
  bcast_S262144_S262144x1_0 : S262144.BroadcastsInDim S262144x1 (![0] : Fin 1 → Fin S262144x1.rank)
  shapeCasts_S16777216_S256x256x256 : S16777216.ShapeCasts S256x256x256
  slices_S262144x4_S262144x1_0_1 : S262144x4.Slices ![0, 1] S262144x1
  slices_S262144x4_S262144x1_0_2 : S262144x4.Slices ![0, 2] S262144x1
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  shapeCasts_S16x256x256_S1x16x256x256 : S16x256x256.ShapeCasts S1x16x256x256
  concatenates_S1x16x256x256_S1x16x256x256_S1x16x256x256_S1x16x256x256_S4x16x256x256_d0 : Shape.Concatenates [S1x16x256x256, S1x16x256x256, S1x16x256x256, S1x16x256x256] S4x16x256x256 0
  broadcasts_S1x16x256x256_S4x16x256x256 : S1x16x256x256.Broadcasts S4x16x256x256
  reduces_S4x16x256x256_S4x256x256 : S4x16x256x256.Reduces [1] S4x256x256
  reduces_S4x16x256x256_S4x16x256 : S4x16x256x256.Reduces [2] S4x16x256
  reduces_S4x16x256x256_S4x16x256_2 : S4x16x256x256.Reduces [3] S4x16x256
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1x4x256x256 : S4x256x256.ShapeCasts S1x4x256x256
  inb_S4x16x256_S4x16x256_0_0_0 : ∀ a, (![0, 0, 0] : Fin 3 → Nat) a + S4x16x256.size a ≤ S4x16x256.size a
  h_S4x16x256 : 0 < S4x16x256.numel
  reducesTo_S2x4x256x256_S4x256x256_d0 : S2x4x256x256.ReducesTo [0] S4x256x256
  h_S_ : 0 < S_.numel
  bcast_S4x256x256_S1x4x256x256_1_2_3 : S4x256x256.BroadcastsInDim S1x4x256x256 (![1, 2, 3] : Fin 3 → Fin S1x4x256x256.rank)
  concatenates_S1x4x256x256_S1x4x256x256_S1x4x256x256_S3x4x256x256_d0 : Shape.Concatenates [S1x4x256x256, S1x4x256x256, S1x4x256x256] S3x4x256x256 0
  scatter_S16777216_S262144x1_S262144_n_0_0_1_wf : ScatterDims.WF S16777216 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S256x256x256.size a
  hwx0_0 : ∀ i : grid0.Coords, EltTy.bits .f32 = 32 ∨ (Rect.block (s := S256x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S256x256x256.size a
  hwx0_1 : ∀ i : grid0.Coords, EltTy.bits .f32 = 32 ∨ (Rect.block (s := S256x256x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S256x256x256.size a
  hwx0_2 : ∀ i : grid0.Coords, EltTy.bits .f32 = 32 ∨ (Rect.block (s := S256x256x256) S16x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S256x256x256.size a
  hwx0_3 : ∀ i : grid0.Coords, EltTy.bits .f32 = 32 ∨ (Rect.block (s := S256x256x256) S16x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S256x256x256.size a
  hwx0_4 : ∀ i : grid0.Coords, EltTy.bits .f32 = 32 ∨ (Rect.block (s := S256x256x256) S16x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x256x256.size a ≤ S2x4x256x256.size a
  hwx0_5 : ∀ i : grid0.Coords, EltTy.bits .f32 = 32 ∨ (Rect.block (s := S2x4x256x256) S1x4x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x16x256.size a ≤ S4x256x256.size a
  hwx0_6 : ∀ i : grid0.Coords, EltTy.bits .f32 = 32 ∨ (Rect.block (s := S4x256x256) S4x16x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x16x256.size a ≤ S4x256x256.size a
  hwx0_7 : ∀ i : grid0.Coords, EltTy.bits .f32 = 32 ∨ (Rect.block (s := S4x256x256) S4x16x256.size (cc0_transform_7 i) (hinb0_7 i)).WholeWords (EltTy.packing .f32)

variable [Facts₀]

def scatter_S16777216_S262144x1_S262144_n_0_0_1 : ScatterDims S16777216 S262144x1 S262144 where
  updateWindowDims := []
  insertedWindowDims := [0]
  scatterDimsToOperandDims := [0]
  indexVectorDim := 1
  wf := scatter_S16777216_S262144x1_S262144_n_0_0_1_wf

abbrev win0_0 : Pipeline.Window sig grid0 :=
  Pipeline.Window.ofSpec (Memref.whole main_v29) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S16x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S16x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S16x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v53_0) S1x4x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v53_1) S4x16x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v53_2) S4x16x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond1 i == 1#1) && !(k0_cond2 i == 1#1) | 6 => fun _ => false | 7 => fun _ => false | ⟨_ + 8, h⟩ => absurd h (Nat.not_lt.2 (Nat.le_add_left _ _))

class Facts : Prop extends Facts₀ where

variable [Facts]
-- ==== ReferenceIdeal.lean ====
abbrev S262144x4 : Shape := ⟨2, ![262144, 4]⟩
abbrev S262144x3 : Shape := ⟨2, ![262144, 3]⟩
abbrev S_ : Shape := ⟨0, ![]⟩
abbrev S262144x1 : Shape := ⟨2, ![262144, 1]⟩
abbrev S262144 : Shape := ⟨1, ![262144]⟩
abbrev S16777216x4 : Shape := ⟨2, ![16777216, 4]⟩
abbrev S16777216x1 : Shape := ⟨2, ![16777216, 1]⟩
abbrev S1x256x256x256x4 : Shape := ⟨5, ![1, 256, 256, 256, 4]⟩
abbrev S1x256x256x4 : Shape := ⟨4, ![1, 256, 256, 4]⟩
abbrev S1x4x256x256 : Shape := ⟨4, ![1, 4, 256, 256]⟩
abbrev S3x4x256x256 : Shape := ⟨4, ![3, 4, 256, 256]⟩

abbrev nBuf : Space → Nat
  | .hbm => 63
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S262144x4, .f32⟩
  | .hbm, ⟨2, _⟩ => ⟨S262144x3, .f32⟩
  | .hbm, ⟨3, _⟩ => ⟨S_, .f32⟩
  | .hbm, ⟨4, _⟩ => ⟨S262144x3, .f32⟩
  | .hbm, ⟨5, _⟩ => ⟨S262144x3, .f32⟩
  | .hbm, ⟨6, _⟩ => ⟨S262144x3, .f32⟩
  | .hbm, ⟨7, _⟩ => ⟨S262144x3, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S262144x3, .i32⟩
  | .hbm, ⟨12, _⟩ => ⟨S262144x3, .i32⟩
  | .hbm, ⟨13, _⟩ => ⟨S_, .i32⟩
  | .hbm, ⟨14, _⟩ => ⟨S262144x3, .i32⟩
  | .hbm, ⟨15, _⟩ => ⟨S262144x3, .i32⟩
  | .hbm, ⟨16, _⟩ => ⟨S262144x1, .f32⟩
  | .hbm, ⟨17, _⟩ => ⟨S262144, .f32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .f32⟩
  | .hbm, ⟨38, _⟩ => ⟨S16777216x4, .f32⟩
  | .hbm, ⟨39, _⟩ => ⟨S262144x1, .i32⟩
  | .hbm, ⟨40, _⟩ => ⟨S16777216x4, .f32⟩
  | .hbm, ⟨41, _⟩ => ⟨S_, .f32⟩
  | .hbm, ⟨42, _⟩ => ⟨S262144x1, .f32⟩
  | .hbm, ⟨43, _⟩ => ⟨S_, .f32⟩
  | .hbm, ⟨44, _⟩ => ⟨S16777216x1, .f32⟩
  | .hbm, ⟨45, _⟩ => ⟨S262144x1, .i32⟩
  | .hbm, ⟨46, _⟩ => ⟨S16777216x1, .f32⟩
  | .hbm, ⟨47, _⟩ => ⟨S_, .f32⟩
  | .hbm, ⟨48, _⟩ => ⟨S16777216x1, .f32⟩
  | .hbm, ⟨49, _⟩ => ⟨S16777216x1, .f32⟩
  | .hbm, ⟨50, _⟩ => ⟨S16777216x4, .f32⟩
  | .hbm, ⟨51, _⟩ => ⟨S16777216x4, .f32⟩
  | .hbm, ⟨52, _⟩ => ⟨S1x256x256x256x4, .f32⟩
  | .hbm, ⟨53, _⟩ => ⟨S_, .f32⟩
  | .hbm, ⟨54, _⟩ => ⟨S1x256x256x4, .f32⟩
  | .hbm, ⟨55, _⟩ => ⟨S_, .f32⟩
  | .hbm, ⟨56, _⟩ => ⟨S1x256x256x4, .f32⟩
  | .hbm, ⟨57, _⟩ => ⟨S_, .f32⟩
  | .hbm, ⟨58, _⟩ => ⟨S1x256x256x4, .f32⟩
  | .hbm, ⟨59, _⟩ => ⟨S1x4x256x256, .f32⟩
  | .hbm, ⟨60, _⟩ => ⟨S1x4x256x256, .f32⟩
  | .hbm, ⟨61, _⟩ => ⟨S1x4x256x256, .f32⟩
  | .hbm, ⟨62, _⟩ => ⟨S3x4x256x256, .f32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  slices_S262144x4_S262144x3_0_0 : S262144x4.Slices ![0, 0] S262144x3
  bcast_S_S262144x3 : S_.BroadcastsInDim S262144x3 (![] : Fin 0 → Fin S262144x3.rank)
  slices_S262144x4_S262144x1_0_3 : S262144x4.Slices ![0, 3] S262144x1
  shapeCasts_S262144x1_S262144 : S262144x1.ShapeCasts S262144
  bcast_S_S262144 : S_.BroadcastsInDim S262144 (![] : Fin 0 → Fin S262144.rank)
  slices_S262144x3_S262144x1_0_0 : S262144x3.Slices ![0, 0] S262144x1
  slices_S262144x3_S262144x1_0_1 : S262144x3.Slices ![0, 1] S262144x1
  slices_S262144x3_S262144x1_0_2 : S262144x3.Slices ![0, 2] S262144x1
  bcast_S_S16777216x4 : S_.BroadcastsInDim S16777216x4 (![] : Fin 0 → Fin S16777216x4.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S_S16777216x1 : S_.BroadcastsInDim S16777216x1 (![] : Fin 0 → Fin S16777216x1.rank)
  bcast_S16777216x1_S16777216x4_0_1 : S16777216x1.BroadcastsInDim S16777216x4 (![0, 1] : Fin 2 → Fin S16777216x4.rank)
  shapeCasts_S16777216x4_S1x256x256x256x4 : S16777216x4.ShapeCasts S1x256x256x256x4
  reducesTo_S1x256x256x256x4_S1x256x256x4_d1 : S1x256x256x256x4.ReducesTo [1] S1x256x256x4
  h_S_ : 0 < S_.numel
  reducesTo_S1x256x256x256x4_S1x256x256x4_d2 : S1x256x256x256x4.ReducesTo [2] S1x256x256x4
  reducesTo_S1x256x256x256x4_S1x256x256x4_d3 : S1x256x256x256x4.ReducesTo [3] S1x256x256x4
  transposes_S1x256x256x4_S1x4x256x256_0_3_1_2 : S1x256x256x4.Transposes [0, 3, 1, 2] S1x4x256x256
  concatenates_S1x4x256x256_S1x4x256x256_S1x4x256x256_S3x4x256x256_d0 : Shape.Concatenates [S1x4x256x256, S1x4x256x256, S1x4x256x256] S3x4x256x256 0
  scatter_S16777216x4_S262144x1_S262144x4_1_0_0_1_wf : ScatterDims.WF S16777216x4 S262144x1 S262144x4 [1] [0] [0] 1
  scatter_S16777216x1_S262144x1_S262144x1_1_0_0_1_wf : ScatterDims.WF S16777216x1 S262144x1 S262144x1 [1] [0] [0] 1

variable [Facts₀]

def scatter_S16777216x4_S262144x1_S262144x4_1_0_0_1 : ScatterDims S16777216x4 S262144x1 S262144x4 where
  updateWindowDims := [1]
  insertedWindowDims := [0]
  scatterDimsToOperandDims := [0]
  indexVectorDim := 1
  wf := scatter_S16777216x4_S262144x1_S262144x4_1_0_0_1_wf
def scatter_S16777216x1_S262144x1_S262144x1_1_0_0_1 : ScatterDims S16777216x1 S262144x1 S262144x1 where
  updateWindowDims := [1]
  insertedWindowDims := [0]
  scatterDimsToOperandDims := [0]
  indexVectorDim := 1
  wf := scatter_S16777216x1_S262144x1_S262144x1_1_0_0_1_wf

class Facts : Prop extends Facts₀ where

variable [Facts]
-- ==== Proof.KernelKit.lean ====
/-
  The launch side of the kernel's run: the host lines before the region leave a valuation of the buffers, the region
  reads five arrays block by block and writes three, and the host lines after it read what it wrote. This module fixes
  the names the per-case runs of the body and the accumulation are stated over: the buffers as the region finds them,
  a window's block at a grid point, the two conditions of the body (first point of a half / later point of a half)
  in closed form, and the staging memrefs at a point.
-/
import proofs.«135331_j13778255086206_2_alg».proof.Proof.Gen.Kernel.Launch
import proofs.«135331_j13778255086206_2_alg».proof.Proof.Gen.Kernel.Skeleton
import proofs.«135331_j13778255086206_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: the launch memory after the host lines before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's eight arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first point of a half (the second grid coordinate is zero), -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- and a later point of a half. -/
abbrev cond0_1 (i : grid0.Coords) : Prop := k0_cond2 i = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-- At every grid coordinate one of the two holds, so the body stores into every output window at every point. -/
theorem live0 : ∀ (w : Fin 8) (i : grid0.Coords), cfg0.idle w i = false := by decide +kernel

/-! ## The staging memrefs at a point -/

abbrev VO0_5 : View sig .tc .vmem S1x4x256x256 .f32 := (Memref.whole cc0_stg5_0 : Memref sig .tc .vmem S1x4x256x256 .f32).view
abbrev VO0_6 : View sig .tc .vmem S4x16x256 .f32 := (Memref.whole cc0_stg6_0 : Memref sig .tc .vmem S4x16x256 .f32).view
abbrev VO0_7 : View sig .tc .vmem S4x16x256 .f32 := (Memref.whole cc0_stg7_0 : Memref sig .tc .vmem S4x16x256 .f32).view
abbrev ms0_0 (t : Fin cfg0.N) : Memref sig .tc .vmem S16x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x16x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x16x256 .f32 := win0_7.stage (cfg0.slots t 7)
abbrev hs0_7 (t : Fin cfg0.N) : (ms0_7 t).IsWhole := hstage0_7 ((cfg0.slots t 7).cast nbuf0_7)

/-- The region's invariant: nothing scoped besides the staging buffers, and the generator register at some state. -/
theorem PhiA0_eq (c : Dev nD) :
    (Pipeline.ΦA spec0 c : sProp 𝕄) = iprop(BI.emp ∗ (∃ r, prngReg c r)) := by
  unfold Pipeline.ΦA; rw [scopedRest0_eq]

end Cert.Kernel.Frame

end
-- ==== Proof.KernelRunA.lean ====
/-
  The body at the first point of a half, on any staging memrefs: the five input blocks are read, the block of voxel means
  and its three axis-maxima computed, and each of the three output buffers is overwritten whole — whatever it held
  is read once and discarded. What the stores leave is recorded as the list of pieces written into each output buffer.
-/
import proofs.«135331_j13778255086206_2_alg».proof.Proof.KernelKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) :
    Σ' (L5 : List (View.Piece (Elt F) S1x4x256x256 .f32)) (L6 : List (View.Piece (Elt F) S4x16x256 .f32)), { L7 : List (View.Piece (Elt F) S4x16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9) K } := by
  refine ⟨?_, ?_, ?_, fun E K => ?run⟩
  case run =>
    simp only [cc0__proj_kernel_eq_skeleton]; unfold cc0__proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel.Frame

end
-- ==== Proof.KernelRunB.lean ====
/-
  The body at a later point of a half, on any staging memrefs: as at the first point, except that the buffer of the
  maximum over h is read at what the point before left in it (`xo5`) and overwritten whole by the elementwise
  maximum of that and this block's own maximum over its 16 rows.
-/
import proofs.«135331_j13778255086206_2_alg».proof.Proof.KernelRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) :
    Σ' (L5 : List (View.Piece (Elt F) S1x4x256x256 .f32)) (L6 : List (View.Piece (Elt F) S4x16x256 .f32)), { L7 : List (View.Piece (Elt F) S4x16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9) K } := by
  refine ⟨?_, ?_, ?_, fun E K => ?run⟩
  case run =>
    simp only [cc0__proj_kernel_eq_skeleton]; unfold cc0__proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel.Frame

end
-- ==== Proof.KernelFrame.lean ====
/-
  The run of the kernel program: what the three output buffers hold after each grid point (by recursion on the point:
  at the first point of a half the block's own maxima, at a later point the maximum over h joined with what the point
  before left), the proof data of the pipeline, the body at a generic point, and the run of @main — the host lines, the
  region, the host lines after it — ending with every array of the region and every other buffer named.
-/
import proofs.«135331_j13778255086206_2_alg».proof.Proof.KernelRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output 5's buffer cover it, -/
theorem cover0_A_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) (y : S1x4x256x256.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x4x256x256.size (by sl_kernel_rfl) y
/-- so what the buffer holds afterwards is the pieces read back. -/
def out0_A_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) : Vec F S1x4x256x256 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- The pieces stored into output 6's buffer cover it, -/
theorem cover0_A_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) (y : S4x16x256.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S4x16x256.size (by sl_kernel_rfl) y
/-- so what the buffer holds afterwards is the pieces read back. -/
def out0_A_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) : Vec F S4x16x256 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4).2.1)

/-- The pieces stored into output 7's buffer cover it, -/
theorem cover0_A_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) (y : S4x16x256.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S4x16x256.size (by sl_kernel_rfl) y
/-- so what the buffer holds afterwards is the pieces read back. -/
def out0_A_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) : Vec F S4x16x256 .f32 :=
  VO0_7.read (Elt F) (VO0_7.writes (Elt F) VO0_7.junk (kernelRun0_A c i arg2 harg2 arg3 harg3 arg4 harg4 arg5 harg5 arg6 harg6 arg7 harg7 arg8 harg8 arg9 harg9 hc0 hc1 x0 x1 x2 x3 x4).2.2.1)

/-- The pieces stored into output 5's buffer cover it, -/
theorem cover0_B_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) (y : S1x4x256x256.Idx) :
    ∃ pc ∈ (kernelRun0_B c i arg2 harg2 arg3 harg3 arg4 harg4 arg5 harg5 arg6 harg6 arg7 harg7 arg8 harg8 arg9 harg9 hc0 hc1 x0 x1 x2 x3 x4 xo5).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo5).1 S1x4x256x256.size (by sl_kernel_rfl) y
/-- so what the buffer holds afterwards is the pieces read back. -/
def out0_B_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) : Vec F S1x4x256x256 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xo5).1)

/-- The pieces stored into output 6's buffer cover it, -/
theorem cover0_B_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) (y : S4x16x256.Idx) :
    ∃ pc ∈ (kernelRun0_B c i arg2 harg2 arg3 harg3 arg4 harg4 arg5 harg5 arg6 harg6 arg7 harg7 arg8 harg8 arg9 harg9 hc0 hc1 x0 x1 x2 x3 x4 xo5).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo5).2.1 S4x16x256.size (by sl_kernel_rfl) y
/-- so what the buffer holds afterwards is the pieces read back. -/
def out0_B_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) : Vec F S4x16x256 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 xo5).2.1)

/-- The pieces stored into output 7's buffer cover it, -/
theorem cover0_B_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) (y : S4x16x256.Idx) :
    ∃ pc ∈ (kernelRun0_B c i arg2 harg2 arg3 harg3 arg4 harg4 arg5 harg5 arg6 harg6 arg7 harg7 arg8 harg8 arg9 harg9 hc0 hc1 x0 x1 x2 x3 x4 xo5).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo5).2.2.1 S4x16x256.size (by sl_kernel_rfl) y
/-- so what the buffer holds afterwards is the pieces read back. -/
def out0_B_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) : Vec F S4x16x256 .f32 :=
  VO0_7.read (Elt F) (VO0_7.writes (Elt F) VO0_7.junk (kernelRun0_B c i arg2 harg2 arg3 harg3 arg4 harg4 arg5 harg5 arg6 harg6 arg7 harg7 arg8 harg8 arg9 harg9 hc0 hc1 x0 x1 x2 x3 x4 xo5).2.2.1)

/-! ## What the outputs hold after each point -/

/-- After the body at position `n`: the buffers of the maximum over h, over w and over z, in this order. -/
def outsAt0 (c : Dev nD) : (n : ℕ) → n < cfg0.N → Vec F S1x4x256x256 .f32 × Vec F S4x16x256 .f32 × Vec F S4x16x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => ((hcond0_1 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => ((hcond0_1 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => ((hcond0_1 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => ((hcond0_1 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => ((hcond0_1 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => ((hcond0_1 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)

theorem outsAt0_A (c : Dev nD) (t : Fin cfg0.N) (h0 : t.val % 8 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point of a half the buffer of the maximum over h holds what the body left at the point before: the
    block's index has not moved, so nothing was written back in between. -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (live0 5) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live0 0 (grid0.coords t)], after0_0]
  rw [show (dats m 0 c).leavesExact 1 t = owns (c : Thread nD τ) (ms0_1 t) fullShare ((dats m 0 c).after 1 t) from by
    unfold Dat.leavesExact; rw [live0 1 (grid0.coords t)], after0_1]
  rw [show (dats m 0 c).leavesExact 2 t = owns (c : Thread nD τ) (ms0_2 t) fullShare ((dats m 0 c).after 2 t) from by
    unfold Dat.leavesExact; rw [live0 2 (grid0.coords t)], after0_2]
  rw [show (dats m 0 c).leavesExact 3 t = owns (c : Thread nD τ) (ms0_3 t) fullShare ((dats m 0 c).after 3 t) from by
    unfold Dat.leavesExact; rw [live0 3 (grid0.coords t)], after0_3]
  rw [show (dats m 0 c).leavesExact 4 t = owns (c : Thread nD τ) (ms0_4 t) fullShare ((dats m 0 c).after 4 t) from by
    unfold Dat.leavesExact; rw [live0 4 (grid0.coords t)], after0_4]
  rw [show (dats m 0 c).leavesExact 5 t = owns (c : Thread nD τ) (ms0_5 t) fullShare ((dats m 0 c).after 5 t) from by
    unfold Dat.leavesExact; rw [live0 5 (grid0.coords t)], after0_5]
  rw [show (dats m 0 c).leavesExact 6 t = owns (c : Thread nD τ) (ms0_6 t) fullShare ((dats m 0 c).after 6 t) from by
    unfold Dat.leavesExact; rw [live0 6 (grid0.coords t)], after0_6]
  rw [show (dats m 0 c).leavesExact 7 t = owns (c : Thread nD τ) (ms0_7 t) fullShare ((dats m 0 c).after 7 t) from by
    unfold Dat.leavesExact; rw [live0 7 (grid0.coords t)], after0_7]
  have hN : t.val < 16 := lt_of_lt_of_eq t.isLt (show cfg0.N = 16 from N_0)
  by_cases h0 : t.val % 8 = 0
  · rw [outsAt0_A m c t h0]
    unfold out0_A_5 out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (fun h => ((hcond0_1 t).mp h) h0) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _)
  · rw [outsAt0_B m c t h0]
    simp only [before0_5_B m c t h0]
    unfold out0_B_5 out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) ((hcond0_1 t).mpr h0) (iblk m c 0 t) (iblk m c 1 t) (iblk m c 2 t) (iblk m c 3 t) (iblk m c 4 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- No host line after the region writes an argument array: both end as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The program runs to the end, nothing faults, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c)⟩) (run_main m ρ)

end Cert.Kernel.Frame

end
-- ==== Proof.KernelIdealKit.lean ====
/-
  The launch side of the kernel's run: the host lines before the region leave a valuation of the buffers, the region
  reads five arrays block by block and writes three, and the host lines after it read what it wrote. This module fixes
  the names the per-case runs of the body and the accumulation are stated over: the buffers as the region finds them,
  a window's block at a grid point, the two conditions of the body (first point of a half / later point of a half)
  in closed form, and the staging memrefs at a point.
-/
import proofs.«135331_j13778255086206_2_alg».proof.Proof.Gen.KernelIdeal.Launch
import proofs.«135331_j13778255086206_2_alg».proof.Proof.Gen.KernelIdeal.Skeleton
import proofs.«135331_j13778255086206_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: the launch memory after the host lines before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's eight arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first point of a half (the second grid coordinate is zero), -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- and a later point of a half. -/
abbrev cond0_1 (i : grid0.Coords) : Prop := k0_cond2 i = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-- At every grid coordinate one of the two holds, so the body stores into every output window at every point. -/
theorem live0 : ∀ (w : Fin 8) (i : grid0.Coords), cfg0.idle w i = false := by decide +kernel

/-! ## The staging memrefs at a point -/

abbrev VO0_5 : View sig .tc .vmem S1x4x256x256 .f32 := (Memref.whole cc0_stg5_0 : Memref sig .tc .vmem S1x4x256x256 .f32).view
abbrev VO0_6 : View sig .tc .vmem S4x16x256 .f32 := (Memref.whole cc0_stg6_0 : Memref sig .tc .vmem S4x16x256 .f32).view
abbrev VO0_7 : View sig .tc .vmem S4x16x256 .f32 := (Memref.whole cc0_stg7_0 : Memref sig .tc .vmem S4x16x256 .f32).view
abbrev ms0_0 (t : Fin cfg0.N) : Memref sig .tc .vmem S16x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x16x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x16x256 .f32 := win0_7.stage (cfg0.slots t 7)
abbrev hs0_7 (t : Fin cfg0.N) : (ms0_7 t).IsWhole := hstage0_7 ((cfg0.slots t 7).cast nbuf0_7)

/-- The region's invariant: nothing scoped besides the staging buffers, and the generator register at some state. -/
theorem PhiA0_eq (c : Dev nD) :
    (Pipeline.ΦA spec0 c : sProp 𝕄) = iprop(BI.emp ∗ (∃ r, prngReg c r)) := by
  unfold Pipeline.ΦA; rw [scopedRest0_eq]

end Cert.KernelIdeal.Frame

end
-- ==== Proof.KernelIdealRunA.lean ====
/-
  The body at the first point of a half, on any staging memrefs: the five input blocks are read, the block of voxel means
  and its three axis-maxima computed, and each of the three output buffers is overwritten whole — whatever it held
  is read once and discarded. What the stores leave is recorded as the list of pieces written into each output buffer.
-/
import proofs.«135331_j13778255086206_2_alg».proof.Proof.KernelIdealKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) :
    Σ' (L5 : List (View.Piece (Elt F) S1x4x256x256 .f32)) (L6 : List (View.Piece (Elt F) S4x16x256 .f32)), { L7 : List (View.Piece (Elt F) S4x16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9) K } := by
  refine ⟨?_, ?_, ?_, fun E K => ?run⟩
  case run =>
    simp only [cc0__proj_kernel_eq_skeleton]; unfold cc0__proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Frame

end
-- ==== Proof.KernelIdealRunB.lean ====
/-
  The body at a later point of a half, on any staging memrefs: as at the first point, except that the buffer of the
  maximum over h is read at what the point before left in it (`xo5`) and overwritten whole by the elementwise
  maximum of that and this block's own maximum over its 16 rows.
-/
import proofs.«135331_j13778255086206_2_alg».proof.Proof.KernelIdealRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) :
    Σ' (L5 : List (View.Piece (Elt F) S1x4x256x256 .f32)) (L6 : List (View.Piece (Elt F) S4x16x256 .f32)), { L7 : List (View.Piece (Elt F) S4x16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__proj_kernel i arg2 harg2 arg3 harg3 arg4 harg4 arg5 harg5 arg6 harg6 arg7 harg7 arg8 harg8 arg9 harg9) K } := by
  refine ⟨?_, ?_, ?_, fun E K => ?run⟩
  case run =>
    simp only [cc0__proj_kernel_eq_skeleton]; unfold cc0__proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Frame

end
-- ==== Proof.KernelIdealFrame.lean ====
/-
  The run of the kernel program: what the three output buffers hold after each grid point (by recursion on the point:
  at the first point of a half the block's own maxima, at a later point the maximum over h joined with what the point
  before left), the proof data of the pipeline, the body at a generic point, and the run of @main — the host lines, the
  region, the host lines after it — ending with every array of the region and every other buffer named.
-/
import proofs.«135331_j13778255086206_2_alg».proof.Proof.KernelIdealRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output 5's buffer cover it, -/
theorem cover0_A_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) (y : S1x4x256x256.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x4x256x256.size (by sl_kernel_rfl) y
/-- so what the buffer holds afterwards is the pieces read back. -/
def out0_A_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) : Vec F S1x4x256x256 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- The pieces stored into output 6's buffer cover it, -/
theorem cover0_A_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) (y : S4x16x256.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S4x16x256.size (by sl_kernel_rfl) y
/-- so what the buffer holds afterwards is the pieces read back. -/
def out0_A_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) : Vec F S4x16x256 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4).2.1)

/-- The pieces stored into output 7's buffer cover it, -/
theorem cover0_A_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) (y : S4x16x256.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S4x16x256.size (by sl_kernel_rfl) y
/-- so what the buffer holds afterwards is the pieces read back. -/
def out0_A_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i)
    (x0 x1 x2 x3 x4 : Vec F S16x256x256 .f32) : Vec F S4x16x256 .f32 :=
  VO0_7.read (Elt F) (VO0_7.writes (Elt F) VO0_7.junk (kernelRun0_A c i arg2 harg2 arg3 harg3 arg4 harg4 arg5 harg5 arg6 harg6 arg7 harg7 arg8 harg8 arg9 harg9 hc0 hc1 x0 x1 x2 x3 x4).2.2.1)

/-- The pieces stored into output 5's buffer cover it, -/
theorem cover0_B_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) (y : S1x4x256x256.Idx) :
    ∃ pc ∈ (kernelRun0_B c i arg2 harg2 arg3 harg3 arg4 harg4 arg5 harg5 arg6 harg6 arg7 harg7 arg8 harg8 arg9 harg9 hc0 hc1 x0 x1 x2 x3 x4 xo5).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo5).1 S1x4x256x256.size (by sl_kernel_rfl) y
/-- so what the buffer holds afterwards is the pieces read back. -/
def out0_B_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) : Vec F S1x4x256x256 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xo5).1)

/-- The pieces stored into output 6's buffer cover it, -/
theorem cover0_B_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) (y : S4x16x256.Idx) :
    ∃ pc ∈ (kernelRun0_B c i arg2 harg2 arg3 harg3 arg4 harg4 arg5 harg5 arg6 harg6 arg7 harg7 arg8 harg8 arg9 harg9 hc0 hc1 x0 x1 x2 x3 x4 xo5).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo5).2.1 S4x16x256.size (by sl_kernel_rfl) y
/-- so what the buffer holds afterwards is the pieces read back. -/
def out0_B_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) : Vec F S4x16x256 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 xo5).2.1)

/-- The pieces stored into output 7's buffer cover it, -/
theorem cover0_B_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) (y : S4x16x256.Idx) :
    ∃ pc ∈ (kernelRun0_B c i arg2 harg2 arg3 harg3 arg4 harg4 arg5 harg5 arg6 harg6 arg7 harg7 arg8 harg8 arg9 harg9 hc0 hc1 x0 x1 x2 x3 x4 xo5).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo5).2.2.1 S4x16x256.size (by sl_kernel_rfl) y
/-- so what the buffer holds afterwards is the pieces read back. -/
def out0_B_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i)
    (x0 x1 x2 x3 x4 : Vec F S16x256x256 .f32) (xo5 : Vec F S1x4x256x256 .f32) : Vec F S4x16x256 .f32 :=
  VO0_7.read (Elt F) (VO0_7.writes (Elt F) VO0_7.junk (kernelRun0_B c i arg2 harg2 arg3 harg3 arg4 harg4 arg5 harg5 arg6 harg6 arg7 harg7 arg8 harg8 arg9 harg9 hc0 hc1 x0 x1 x2 x3 x4 xo5).2.2.1)

/-! ## What the outputs hold after each point -/

/-- After the body at position `n`: the buffers of the maximum over h, over w and over z, in this order. -/
def outsAt0 (c : Dev nD) : (n : ℕ) → n < cfg0.N → Vec F S1x4x256x256 .f32 × Vec F S4x16x256 .f32 × Vec F S4x16x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => ((hcond0_1 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => ((hcond0_1 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => ((hcond0_1 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => ((hcond0_1 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => ((hcond0_1 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => ((hcond0_1 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)

theorem outsAt0_A (c : Dev nD) (t : Fin cfg0.N) (h0 : t.val % 8 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point of a half the buffer of the maximum over h holds what the body left at the point before: the
    block's index has not moved, so nothing was written back in between. -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (live0 5) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live0 0 (grid0.coords t)], after0_0]
  rw [show (dats m 0 c).leavesExact 1 t = owns (c : Thread nD τ) (ms0_1 t) fullShare ((dats m 0 c).after 1 t) from by
    unfold Dat.leavesExact; rw [live0 1 (grid0.coords t)], after0_1]
  rw [show (dats m 0 c).leavesExact 2 t = owns (c : Thread nD τ) (ms0_2 t) fullShare ((dats m 0 c).after 2 t) from by
    unfold Dat.leavesExact; rw [live0 2 (grid0.coords t)], after0_2]
  rw [show (dats m 0 c).leavesExact 3 t = owns (c : Thread nD τ) (ms0_3 t) fullShare ((dats m 0 c).after 3 t) from by
    unfold Dat.leavesExact; rw [live0 3 (grid0.coords t)], after0_3]
  rw [show (dats m 0 c).leavesExact 4 t = owns (c : Thread nD τ) (ms0_4 t) fullShare ((dats m 0 c).after 4 t) from by
    unfold Dat.leavesExact; rw [live0 4 (grid0.coords t)], after0_4]
  rw [show (dats m 0 c).leavesExact 5 t = owns (c : Thread nD τ) (ms0_5 t) fullShare ((dats m 0 c).after 5 t) from by
    unfold Dat.leavesExact; rw [live0 5 (grid0.coords t)], after0_5]
  rw [show (dats m 0 c).leavesExact 6 t = owns (c : Thread nD τ) (ms0_6 t) fullShare ((dats m 0 c).after 6 t) from by
    unfold Dat.leavesExact; rw [live0 6 (grid0.coords t)], after0_6]
  rw [show (dats m 0 c).leavesExact 7 t = owns (c : Thread nD τ) (ms0_7 t) fullShare ((dats m 0 c).after 7 t) from by
    unfold Dat.leavesExact; rw [live0 7 (grid0.coords t)], after0_7]
  have hN : t.val < 16 := lt_of_lt_of_eq t.isLt (show cfg0.N = 16 from N_0)
  by_cases h0 : t.val % 8 = 0
  · rw [outsAt0_A m c t h0]
    unfold out0_A_5 out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (fun h => ((hcond0_1 t).mp h) h0) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _)
  · rw [outsAt0_B m c t h0]
    simp only [before0_5_B m c t h0]
    unfold out0_B_5 out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) ((hcond0_1 t).mpr h0) (iblk m c 0 t) (iblk m c 1 t) (iblk m c 2 t) (iblk m c 3 t) (iblk m c 4 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- No host line after the region writes an argument array: both end as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The program runs to the end, nothing faults, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c)⟩) (run_main m ρ)

end Cert.KernelIdeal.Frame

end
-- ==== Proof.KernelIdealOuts.lean ====
/-
  What each case of the body leaves in the three output buffers, as values of the input blocks: at the first point of a
  half the block's own maxima; at a later point the same, except that the maximum over h is joined with the contents
  the buffer had.
-/
import proofs.«135331_j13778255086206_2_alg».proof.Proof.KernelIdealFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out_A_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i) (x0 x1 x2 x3 x4 : Vec F S16x256x256 .f32) :
    out0_A_5 c i arg2 harg2 arg3 harg3 arg4 harg4 arg5 harg5 arg6 harg6 arg7 harg7 arg8 harg8 arg9 harg9 hc0 hc1 x0 x1 x2 x3 x4 = k0_pay5 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  rw [View.canon_unit_zero hz4]
  simp only [View.readAt_eq_ld, harg2.read_unread, harg3.read_unread, harg4.read_unread, harg5.read_unread, harg6.read_unread, View.ld_unit_zero (S := S16x256x256) hz3]

theorem out_A_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i) (x0 x1 x2 x3 x4 : Vec F S16x256x256 .f32) :
    out0_A_6 c i arg2 harg2 arg3 harg3 arg4 harg4 arg5 harg5 arg6 harg6 arg7 harg7 arg8 harg8 arg9 harg9 hc0 hc1 x0 x1 x2 x3 x4 = k0_pay3 x0 x1 x2 x3 x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S16x256x256) hz3]

theorem out_A_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : cond0_0 i) (hc1 : ¬cond0_1 i) (x0 x1 x2 x3 x4 : Vec F S16x256x256 .f32) :
    out0_A_7 c i arg2 harg2 arg3 harg3 arg4 harg4 arg5 harg5 arg6 harg6 arg7 harg7 arg8 harg8 arg9 harg9 hc0 hc1 x0 x1 x2 x3 x4 = k0_pay4 x0 x1 x2 x3 x4 := by
  unfold out0_A_7
  rw [View.read_writes_eq_canon _ _ _ (cover0_A_7 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S16x256x256) hz3]

theorem out_B_5 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i) (x0 x1 x2 x3 x4 : Vec F S16x256x256 .f32) (xo5 : Vec F S1x4x256x256 .f32) :
    out0_B_5 c i arg2 harg2 arg3 harg3 arg4 harg4 arg5 harg5 arg6 harg6 arg7 harg7 arg8 harg8 arg9 harg9 hc0 hc1 x0 x1 x2 x3 x4 xo5 = k0_pay6 x0 x1 x2 x3 x4 xo5 := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xo5)]
  unfold kernelRun0_B
  dsimp only
  rw [View.canon_unit_zero hz4]
  simp only [View.readAt_eq_ld, harg2.read_unread, harg3.read_unread, harg4.read_unread, harg5.read_unread, harg6.read_unread, harg7.read_unread, View.ld_unit_zero (S := S1x4x256x256) hz4, View.ld_unit_zero (S := S16x256x256) hz3]

theorem out_B_6 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i) (x0 x1 x2 x3 x4 : Vec F S16x256x256 .f32) (xo5 : Vec F S1x4x256x256 .f32) :
    out0_B_6 c i arg2 harg2 arg3 harg3 arg4 harg4 arg5 harg5 arg6 harg6 arg7 harg7 arg8 harg8 arg9 harg9 hc0 hc1 x0 x1 x2 x3 x4 xo5 = k0_pay3 x0 x1 x2 x3 x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 xo5)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S16x256x256) hz3]
theorem out_B_7 (c : Dev nD) (i : grid0.Coords) (arg2 : Memref sig .tc .vmem S16x256x256 .f32) (harg2 : arg2.IsWhole) (arg3 : Memref sig .tc .vmem S16x256x256 .f32) (harg3 : arg3.IsWhole) (arg4 : Memref sig .tc .vmem S16x256x256 .f32) (harg4 : arg4.IsWhole) (arg5 : Memref sig .tc .vmem S16x256x256 .f32) (harg5 : arg5.IsWhole) (arg6 : Memref sig .tc .vmem S16x256x256 .f32) (harg6 : arg6.IsWhole) (arg7 : Memref sig .tc .vmem S1x4x256x256 .f32) (harg7 : arg7.IsWhole) (arg8 : Memref sig .tc .vmem S4x16x256 .f32) (harg8 : arg8.IsWhole) (arg9 : Memref sig .tc .vmem S4x16x256 .f32) (harg9 : arg9.IsWhole) (hc0 : ¬cond0_0 i) (hc1 : cond0_1 i) (x0 x1 x2 x3 x4 : Vec F S16x256x256 .f32) (xo5 : Vec F S1x4x256x256 .f32) :
    out0_B_7 c i arg2 harg2 arg3 harg3 arg4 harg4 arg5 harg5 arg6 harg6 arg7 harg7 arg8 harg8 arg9 harg9 hc0 hc1 x0 x1 x2 x3 x4 xo5 = k0_pay4 x0 x1 x2 x3 x4 := by
  unfold out0_B_7
  rw [View.read_writes_eq_canon _ _ _ (cover0_B_7 c i arg2 harg2 arg3 harg3 arg4 harg4 arg5 harg5 arg6 harg6 arg7 harg7 arg8 harg8 arg9 harg9 hc0 hc1 x0 x1 x2 x3 x4 xo5)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S16x256x256) hz3]

end Cert.KernelIdeal.Frame

end
-- ==== Proof.KernelIdealValueA.lean ====
/-
  The run's named pieces, read as values at the exact instance: block t of each of the five arrays the region reads is
  rows 16t … 16t+15 of that array; and after point t the three output buffers hold the payloads of the blocks at t —
  the maximum over h joined, at a later point of a half, with what the point before left.
-/
import proofs.«135331_j13778255086206_2_alg».proof.Proof.KernelIdealOuts
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem idxIn0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem iblk0_apply (c : Dev nD) (t : Fin cfg0.N) (hl : Fin 16) (w z : Fin 256) :
    (iblk m c 0 t : Vec Ideal S16x256x256 .f32) (ix3 hl w z)
      = (V m c main_v29 : S256x256x256.Idx → EReal) (ix3 ⟨t.val * 16 + hl.val, by have := t.isLt; have : cfg0.N = 16 := N_0; have := hl.isLt; omega⟩ w z) := by
  obtain ⟨e0, e1, e2⟩ := idxIn0 t
  unfold iblk
  rw [View.read_apply]
  show (V m c main_v29 : S256x256x256.Idx → EReal) _ = _
  congr 1
  funext a
  apply Fin.ext
  match a with
  | ⟨0, _⟩ => show win0_0.index t 0 * 16 + 1 * hl.val = t.val * 16 + hl.val; rw [e0]; omega
  | ⟨1, _⟩ => show win0_0.index t 1 * 256 + 1 * w.val = w.val; rw [e1]; omega
  | ⟨2, _⟩ => show win0_0.index t 2 * 256 + 1 * z.val = z.val; rw [e2]; omega

theorem idxIn1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem iblk1_apply (c : Dev nD) (t : Fin cfg0.N) (hl : Fin 16) (w z : Fin 256) :
    (iblk m c 1 t : Vec Ideal S16x256x256 .f32) (ix3 hl w z)
      = (V m c main_v35 : S256x256x256.Idx → EReal) (ix3 ⟨t.val * 16 + hl.val, by have := t.isLt; have : cfg0.N = 16 := N_0; have := hl.isLt; omega⟩ w z) := by
  obtain ⟨e0, e1, e2⟩ := idxIn1 t
  unfold iblk
  rw [View.read_apply]
  show (V m c main_v35 : S256x256x256.Idx → EReal) _ = _
  congr 1
  funext a
  apply Fin.ext
  match a with
  | ⟨0, _⟩ => show win0_1.index t 0 * 16 + 1 * hl.val = t.val * 16 + hl.val; rw [e0]; omega
  | ⟨1, _⟩ => show win0_1.index t 1 * 256 + 1 * w.val = w.val; rw [e1]; omega
  | ⟨2, _⟩ => show win0_1.index t 2 * 256 + 1 * z.val = z.val; rw [e2]; omega

theorem idxIn2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem iblk2_apply (c : Dev nD) (t : Fin cfg0.N) (hl : Fin 16) (w z : Fin 256) :
    (iblk m c 2 t : Vec Ideal S16x256x256 .f32) (ix3 hl w z)
      = (V m c main_v41 : S256x256x256.Idx → EReal) (ix3 ⟨t.val * 16 + hl.val, by have := t.isLt; have : cfg0.N = 16 := N_0; have := hl.isLt; omega⟩ w z) := by
  obtain ⟨e0, e1, e2⟩ := idxIn2 t
  unfold iblk
  rw [View.read_apply]
  show (V m c main_v41 : S256x256x256.Idx → EReal) _ = _
  congr 1
  funext a
  apply Fin.ext
  match a with
  | ⟨0, _⟩ => show win0_2.index t 0 * 16 + 1 * hl.val = t.val * 16 + hl.val; rw [e0]; omega
  | ⟨1, _⟩ => show win0_2.index t 1 * 256 + 1 * w.val = w.val; rw [e1]; omega
  | ⟨2, _⟩ => show win0_2.index t 2 * 256 + 1 * z.val = z.val; rw [e2]; omega

theorem idxIn3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem iblk3_apply (c : Dev nD) (t : Fin cfg0.N) (hl : Fin 16) (w z : Fin 256) :
    (iblk m c 3 t : Vec Ideal S16x256x256 .f32) (ix3 hl w z)
      = (V m c main_v47 : S256x256x256.Idx → EReal) (ix3 ⟨t.val * 16 + hl.val, by have := t.isLt; have : cfg0.N = 16 := N_0; have := hl.isLt; omega⟩ w z) := by
  obtain ⟨e0, e1, e2⟩ := idxIn3 t
  unfold iblk
  rw [View.read_apply]
  show (V m c main_v47 : S256x256x256.Idx → EReal) _ = _
  congr 1
  funext a
  apply Fin.ext
  match a with
  | ⟨0, _⟩ => show win0_3.index t 0 * 16 + 1 * hl.val = t.val * 16 + hl.val; rw [e0]; omega
  | ⟨1, _⟩ => show win0_3.index t 1 * 256 + 1 * w.val = w.val; rw [e1]; omega
  | ⟨2, _⟩ => show win0_3.index t 2 * 256 + 1 * z.val = z.val; rw [e2]; omega

theorem idxIn4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem iblk4_apply (c : Dev nD) (t : Fin cfg0.N) (hl : Fin 16) (w z : Fin 256) :
    (iblk m c 4 t : Vec Ideal S16x256x256 .f32) (ix3 hl w z)
      = (V m c main_v52 : S256x256x256.Idx → EReal) (ix3 ⟨t.val * 16 + hl.val, by have := t.isLt; have : cfg0.N = 16 := N_0; have := hl.isLt; omega⟩ w z) := by
  obtain ⟨e0, e1, e2⟩ := idxIn4 t
  unfold iblk
  rw [View.read_apply]
  show (V m c main_v52 : S256x256x256.Idx → EReal) _ = _
  congr 1
  funext a
  apply Fin.ext
  match a with
  | ⟨0, _⟩ => show win0_4.index t 0 * 16 + 1 * hl.val = t.val * 16 + hl.val; rw [e0]; omega
  | ⟨1, _⟩ => show win0_4.index t 1 * 256 + 1 * w.val = w.val; rw [e1]; omega
  | ⟨2, _⟩ => show win0_4.index t 2 * 256 + 1 * z.val = z.val; rw [e2]; omega

/-- After every point the buffers of the maxima over w and over z hold the block's own maxima. -/
theorem outs6 (c : Dev nD) (t : Fin cfg0.N) :
    (outsAt0 m c t.val t.isLt).2.1 = k0_pay3 (iblk m c 0 t) (iblk m c 1 t) (iblk m c 2 t) (iblk m c 3 t) (iblk m c 4 t) := by
  by_cases h0 : t.val % 8 = 0
  · rw [outsAt0_A m c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t)
  · rw [outsAt0_B m c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1
theorem outs7 (c : Dev nD) (t : Fin cfg0.N) :
    (outsAt0 m c t.val t.isLt).2.2 = k0_pay4 (iblk m c 0 t) (iblk m c 1 t) (iblk m c 2 t) (iblk m c 3 t) (iblk m c 4 t) := by
  by_cases h0 : t.val % 8 = 0
  · rw [outsAt0_A m c t h0]
    dsimp only
    exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t)
  · rw [outsAt0_B m c t h0]
    dsimp only
    exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1
/-- The buffer of the maximum over h: at the first point of a half the block's own, -/
theorem outs5_A (c : Dev nD) (t : Fin cfg0.N) (h0 : t.val % 8 = 0) :
    (outsAt0 m c t.val t.isLt).1 = k0_pay5 (iblk m c 0 t) (iblk m c 1 t) (iblk m c 2 t) (iblk m c 3 t) (iblk m c 4 t) := by
  rw [outsAt0_A m c t h0]
  dsimp only
  exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => ((hcond0_1 t).mp h) h0) (iblk m c 0 t) (iblk m c 1 t) (iblk m c 2 t) (iblk m c 3 t) (iblk m c 4 t)
/-- at a later point joined with what the point before left. -/
theorem outs5_B (c : Dev nD) (t : Fin cfg0.N) (h0 : ¬t.val % 8 = 0) :
    (outsAt0 m c t.val t.isLt).1 = k0_pay6 (iblk m c 0 t) (iblk m c 1 t) (iblk m c 2 t) (iblk m c 3 t) (iblk m c 4 t) (outsAt0 m c (t.val - 1) (Nat.lt_of_le_of_lt (Nat.sub_le _ _) t.isLt)).1 := by
  rw [outsAt0_B m c t h0]
  dsimp only
  exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h0) (iblk m c 0 t) (iblk m c 1 t) (iblk m c 2 t) (iblk m c 3 t) (iblk m c 4 t) (outsAt0 m c (t.val - 1) (Nat.lt_of_le_of_lt (Nat.sub_le _ _) t.isLt)).1

end Cert.KernelIdeal.Val

end
-- ==== Proof.Spec.lean ====
/-
  WHAT BOTH PROGRAMS COMPUTE, INDEX BY INDEX.

  Points `e` carry a voxel number `idx[e, 0]` (a signed 32-bit word; a point whose number is outside the grid is
  dropped) and four features. For voxel `v` and channel `c` the voxel sum is the sum of feature `c` over the points
  that land in `v`, the count the number of such points; the voxel mean is the sum divided by `max (count, 1)`.
  The voxel grid is 256 × 256 × 256 (voxel `(h, w, z)` has number `h·65536 + w·256 + z`), and the result stacks the
  three axis-maxima of the mean: over `h`, over `w`, over `z`.
-/
import Idealize.ShloMosaic.Lib.ValueIdx
import Idealize.ShloMosaic.PureOps.Ideal

noncomputable section

open scoped BigOperators

namespace Cert.Spec

open Idealize.ShloMosaic Idealize.ShloMosaic.ValueIdx

/-- The float words the programs share: zero, one, minus infinity. -/
abbrev fzero : EReal := Ideal.ofBits .f32 0x00000000#32
abbrev fone : EReal := Ideal.ofBits .f32 0x3F800000#32
abbrev fninf : EReal := Ideal.ofBits .f32 0xFF800000#32

/-- Minus infinity is the least extended real. -/
theorem fninf_eq_bot : fninf = ⊥ := by simp [fninf, Ideal.ofBits, Ideal.ieee]

/-- The sum of `u e` over the points `e` whose voxel number is `v`, on top of zero. -/
def vsum (idx : IVec ⟨2, ![262144, 1]⟩ 32) (u : Fin 262144 → EReal) (v : Fin 16777216) : EReal :=
  fzero + ∑ e : Fin 262144, if (idx (ix2 e (0 : Fin 1))).toInt = (v.val : Int) then u e else 0

/-- The number of voxel `(h, w, z)`. -/
def vox (h w z : Fin 256) : Fin 16777216 := ⟨h.val * 65536 + w.val * 256 + z.val, by omega⟩

/-- The mean of channel `c` in voxel `(h, w, z)`: the sum over the count, the count taken at least one. -/
def mean (idx : IVec ⟨2, ![262144, 1]⟩ 32) (feats : (⟨2, ![262144, 4]⟩ : Shape).Idx → EReal)
    (c : Fin 4) (h w z : Fin 256) : EReal :=
  Ideal.div (vsum idx (fun e => feats (ix2 e c)) (vox h w z)) (max (vsum idx (fun _ => fone) (vox h w z)) fone)

/-- The maximum of a family over `Fin n`, from minus infinity. -/
def fmax {n : Nat} (f : Fin n → EReal) : EReal := (Finset.univ : Finset (Fin n)).fold max fninf f

/-- The three projections, and their stack: slab 0 the maximum over `h`, slab 1 over `w`, slab 2 over `z`. -/
def outAt (idx : IVec ⟨2, ![262144, 1]⟩ 32) (feats : (⟨2, ![262144, 4]⟩ : Shape).Idx → EReal)
    (s : Fin 3) (c : Fin 4) (a b : Fin 256) : EReal :=
  match s with
  | ⟨0, _⟩ => fmax fun h : Fin 256 => mean idx feats c h a b
  | ⟨1, _⟩ => fmax fun w : Fin 256 => mean idx feats c a w b
  | ⟨2, _⟩ => fmax fun z : Fin 256 => mean idx feats c a b z

/-- The result array. -/
def out (idx : IVec ⟨2, ![262144, 1]⟩ 32) (feats : (⟨2, ![262144, 4]⟩ : Shape).Idx → EReal) :
    (⟨4, ![3, 4, 256, 256]⟩ : Shape).Idx → EReal :=
  fun i => outAt idx feats (i 0) (i 1) (i 2) (i 3)

theorem out_ix4 (idx : IVec ⟨2, ![262144, 1]⟩ 32) (feats : (⟨2, ![262144, 4]⟩ : Shape).Idx → EReal)
    (s : Fin 3) (c : Fin 4) (a b : Fin 256) : out idx feats (ix4 s c a b) = outAt idx feats s c a b := rfl

end Cert.Spec

end
-- ==== Proof.LibScatterVec.lean ====
/-
  SCATTERS OF ENTRIES INTO A VECTOR, READ INDEX BY INDEX.

  A scatter takes an operand array, an array of scatter indices and an array of updates; every update element
  has a LANDING INDEX in the operand: on each operand axis, a start read off the scatter indices as a SIGNED
  integer and NOT clamped, plus the element's coordinate inside its window. An update whose landing index
  leaves the operand is dropped.

  ENTRIES INTO A VECTOR. Operand `x : [N]`, scatter indices `idx : [E, 1]`, updates `upd : [E]`; the updates have
  no window axis, the operand's only axis is the scattered (and inserted) axis, the index vector is the indices'
  axis 1. Update element `e` lands at `idx[e, 0]`, and is dropped when `idx[e, 0]` is outside `[0, N)`
  (`resultIdx?_vec`). So the accumulating scatter over the extended reals is, at `r`,

      x[r] + ∑ e, (if idx[e, 0] = r then upd[e] else 0)

  (`hostScatterAdd_vec_apply`).

  The conditions on the dimension numbers (`ScatterDims.WF`) are an argument `wf`: they are decided on the literal
  shapes of a program.
-/
import Idealize.ShloMosaic.Lib.ValueIdx
import Idealize.ShloMosaic.PureOps.Ideal
import Idealize.ShloMosaic.PureOps.ShapeOps

noncomputable section

open scoped BigOperators

namespace Cert.ScatterVec

open Idealize.ShloMosaic Idealize.ShloMosaic.ValueIdx

/-- The dimension numbers of a scatter of entries into a vector: operand `[N]`, scatter indices `[E, 1]`,
    updates `[E]`; no update window axis, inserted operand axis 0, the scatter index component goes to operand
    axis 0, the index vector is axis 1 of the indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec
variable {N E w : Nat} (wf : ScatterDims.WF ⟨1, ![N]⟩ ⟨2, ![E, 1]⟩ ⟨1, ![E]⟩ [] [0] [0] 1)

/-- The window of update element `j` starts at `idx[j₀, 0]`, read signed. -/
theorem start_vec0 (j : (⟨1, ![E]⟩ : Shape).Idx) (idx : IVec ⟨2, ![E, 1]⟩ w) :
    (vecScatterDims N E wf).start j idx 0 = (idx (ix2 (j 0) (0 : Fin 1))).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi] <;> rfl

/-- The operand's axis is inserted: the window coordinate on it is `0`. -/
theorem window_vec0 (j : (⟨1, ![E]⟩ : Shape).Idx) : (vecScatterDims N E wf).window j 0 = 0 := rfl

/-- THE LANDING INDEX OF A VECTOR SCATTER: update element `j = e` lands on operand index `i` exactly when
    `idx[e, 0]`, read signed and not clamped, is `i`'s coordinate. (When `idx[e, 0]` is outside `[0, N)` it lands
    nowhere: no `i` has that coordinate.) -/
theorem resultIdx?_vec (j : (⟨1, ![E]⟩ : Shape).Idx) (idx : IVec ⟨2, ![E, 1]⟩ w)
    (i : (⟨1, ![N]⟩ : Shape).Idx) :
    (vecScatterDims N E wf).resultIdx? j idx = some i ↔
      (idx (ix2 (j 0) (0 : Fin 1))).toInt = ((i 0).val : Int) := by
  have hs0 := start_vec0 wf j idx
  have hw0 := window_vec0 wf j
  have hi0 : (i 0).val < N := (i 0).isLt
  have hN : (⟨1, ![N]⟩ : Shape).size 0 = N := rfl
  unfold ScatterDims.resultIdx?
  split
  · -- the landing index is inside the operand: compare it with `i`
    rename_i h
    rw [Option.some.injEq]
    have h0 := h 0
    rw [hs0, hw0] at h0
    constructor
    · intro hf
      have e0 := congrArg (fun f => (f 0).val) hf
      simp only [hs0, hw0] at e0
      omega
    · intro e0
      funext a
      refine Fin.ext ?_
      match a with
      | ⟨0, _⟩ =>
        show ((vecScatterDims N E wf).start j idx 0 + ((vecScatterDims N E wf).window j 0 : Nat)).toNat
          = (i 0).val
        rw [hs0, hw0]; omega
  · -- it is outside: then `idx[e, 0]` is no coordinate of the operand
    rename_i h
    constructor
    · intro hf; cases hf
    · intro e0
      exfalso; apply h
      refine Fin.forall_fin_one.mpr ?_
      rw [hs0, hw0, hN]; omega

/-- THE ACCUMULATING VECTOR SCATTER AT `r`, over the extended reals: the operand's element plus the sum, over the
    update entries `e` whose scatter index `idx[e, 0]` (signed, not clamped) is `r`, of `upd[e]`. -/
theorem hostScatterAdd_vec_apply (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r) =
      x (ix1 r) +
        ∑ e : Fin E, if (idx (ix2 e (0 : Fin 1))).toInt = (r.val : Int) then upd (ix1 e) else 0 := by
  show x (ix1 r) + ∑ j ∈ Finset.univ.filter
      (fun j => (vecScatterDims N E wf).resultIdx? j idx = some (ix1 r)), upd j = _
  congr 1
  rw [Finset.sum_filter, sum_idx1]
  refine Finset.sum_congr rfl fun e _ => ?_
  have key : ((vecScatterDims N E wf).resultIdx? (ix1 e) idx = some (ix1 r)) ↔
      ((idx (ix2 e (0 : Fin 1))).toInt = (r.val : Int)) := by
    rw [resultIdx?_vec]
    exact Iff.rfl
  simp only [key]

end Vec

end Cert.ScatterVec

end
-- ==== Proof.PreMath.lean ====
/-
  THE HOST LINES BEFORE THE REGION, over the extended reals: what the five arrays the region reads hold, index by
  index.

  The lines turn the coordinates into a voxel number per point (`kIdx`: scale by 256, round down, convert to a
  signed word, clamp to `[0, 255]`, and combine with the batch word as `((b·256 + x)·256 + y)·256 + z` in 32-bit
  arithmetic), then scatter-add each feature column, and a column of ones, into a zero vector of 256³ entries at
  those voxel numbers and reshape the vector to the 256 × 256 × 256 grid. Read at `(h, w, z)` each array is the
  voxel sum of its column at voxel `h·65536 + w·256 + z`.
-/
import proofs.«135331_j13778255086206_2_alg».proof.Proof.Gen.KernelIdeal.Launch
import proofs.«135331_j13778255086206_2_alg».proof.Proof.Spec
import proofs.«135331_j13778255086206_2_alg».proof.Proof.LibScatterVec
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.PreMath

open Idealize.ShloMosaic Idealize.ShloMosaic.TcCoe Idealize.ShloMosaic.ValueIdx
open Cert.KernelIdeal Cert.KernelIdeal.Gen

/-! ## The voxel numbers -/

/-- The clamped integer coordinates: each of the first three columns scaled by 256, rounded down, converted to a
    signed word and clamped to `[0, 255]`. -/
def kClip (a0 : FVec Ideal S262144x4 .f32) : IVec S262144x3 32 :=
  minsi (broadcastInDim S262144x3 ![] bcast_S_S262144x3 (id (constantI S_ 32 255#32)))
    (maxsi (broadcastInDim S262144x3 ![] bcast_S_S262144x3 (id (constantI S_ 32 0#32)))
      (fptosi 32 (Host.floor (mulf (extractStridedSlice S262144x3 ![0, 0] a0 slices_S262144x4_S262144x3_0_0)
        (broadcastInDim S262144x3 ![] bcast_S_S262144x3 (constant (F := Ideal) S_ .f32 0x43800000#32))))))

/-- The voxel number of each point, as a vector: `((b·256 + x)·256 + y)·256 + z` in 32-bit arithmetic, `b` the
    fourth column converted to a signed word. -/
def kFlat (a0 : FVec Ideal S262144x4 .f32) : IVec S262144 32 :=
  addi
    (muli
      (addi
        (muli
          (addi
            (muli
              (fptosi 32 (shapeCast S262144 (extractStridedSlice S262144x1 ![0, 3] a0 slices_S262144x4_S262144x1_0_3)
                shapeCasts_S262144x1_S262144))
              (broadcastInDim S262144 ![] bcast_S_S262144 (constantI S_ 32 256#32)))
            (shapeCast S262144 (extractStridedSlice S262144x1 ![0, 0] (kClip a0) slices_S262144x3_S262144x1_0_0)
              shapeCasts_S262144x1_S262144))
          (broadcastInDim S262144 ![] bcast_S_S262144 (constantI S_ 32 256#32)))
        (shapeCast S262144 (extractStridedSlice S262144x1 ![0, 1] (kClip a0) slices_S262144x3_S262144x1_0_1)
          shapeCasts_S262144x1_S262144))
      (broadcastInDim S262144 ![] bcast_S_S262144 (constantI S_ 32 256#32)))
    (shapeCast S262144 (extractStridedSlice S262144x1 ![0, 2] (kClip a0) slices_S262144x3_S262144x1_0_2)
      shapeCasts_S262144x1_S262144)

/-- The scatter indices: the voxel numbers as a one-column array. -/
def kIdx (a0 : FVec Ideal S262144x4 .f32) : IVec ⟨2, ![262144, 1]⟩ 32 :=
  broadcastInDim S262144x1 ![0] bcast_S262144_S262144x1_0 (kFlat a0)

/-! ## The five arrays as functions of the two arguments -/

/-- The sums of the feature column at offset `o`: the column scatter-added into a zero vector at the voxel numbers,
    as a grid. -/
def kSumAt (a0 a1 : FVec Ideal S262144x4 .f32) (o : Nat) (hs : S262144x4.Slices ![0, o] S262144x1) :
    S256x256x256.Idx → EReal :=
  shapeCast S256x256x256
    (Host.scatterAdd scatter_S16777216_S262144x1_S262144_n_0_0_1
      (broadcastInDim S16777216 ![] bcast_S_S16777216 (constant (F := Ideal) S_ .f32 0x00000000#32)) (kIdx a0)
      (shapeCast S262144 (extractStridedSlice S262144x1 ![0, o] a1 hs) shapeCasts_S262144x1_S262144))
    shapeCasts_S16777216_S256x256x256

/-- Each of the four columns can be sliced out. -/
theorem slices_col (c4 : Fin 4) : S262144x4.Slices ![0, c4.val] S262144x1 :=
  match c4 with
  | ⟨0, _⟩ => slices_S262144x4_S262144x1_0_0
  | ⟨1, _⟩ => slices_S262144x4_S262144x1_0_1
  | ⟨2, _⟩ => slices_S262144x4_S262144x1_0_2
  | ⟨3, _⟩ => slices_S262144x4_S262144x1_0_3

/-- Channel `c4`'s sums. -/
def kSum (a0 a1 : FVec Ideal S262144x4 .f32) (c4 : Fin 4) : S256x256x256.Idx → EReal :=
  kSumAt a0 a1 c4.val (slices_col c4)

/-- The counts: a vector of ones scatter-added into a zero vector at the voxel numbers, as a grid. -/
def kCnt (a0 : FVec Ideal S262144x4 .f32) : S256x256x256.Idx → EReal :=
  shapeCast S256x256x256
    (Host.scatterAdd scatter_S16777216_S262144x1_S262144_n_0_0_1
      (broadcastInDim S16777216 ![] bcast_S_S16777216 (constant (F := Ideal) S_ .f32 0x00000000#32)) (kIdx a0)
      (broadcastInDim S262144 ![] bcast_S_S262144 (constant (F := Ideal) S_ .f32 0x3F800000#32)))
    shapeCasts_S16777216_S256x256x256

/-! ## Index by index -/

/-- Over the extended reals the printed scatter is the accumulating scatter of entries into a vector. -/
theorem scatterAdd_eq (x : FVec Ideal S16777216 .f32) (idx : IVec S262144x1 32) (upd : FVec Ideal S262144 .f32) :
    Host.scatterAdd scatter_S16777216_S262144x1_S262144_n_0_0_1 x idx upd =
      Ideal.hostScatterAdd
        (Cert.ScatterVec.vecScatterDims 16777216 262144 scatter_S16777216_S262144x1_S262144_n_0_0_1_wf) x idx upd := rfl

/-- A broadcast scalar constant read at an index is the constant's word, kept as a word. -/
theorem bcast_const_read (s : Shape) (hb : S_.BroadcastsInDim s ![]) (b : BitVec 32) (j : s.Idx) :
    broadcastInDim s ![] hb (constant (F := Ideal) S_ .f32 b) j = Ideal.ofBits .f32 b := rfl

/-- The grid read at `(h, w, z)` is the vector read at voxel number `h·65536 + w·256 + z`; there the scatter-add into
    the zero vector is the voxel sum of the updates. -/
theorem scat_read (idx : IVec S262144x1 32) (upd : FVec Ideal S262144 .f32) (h w z : Fin 256) :
    shapeCast S256x256x256
        (Host.scatterAdd scatter_S16777216_S262144x1_S262144_n_0_0_1
          (broadcastInDim S16777216 ![] bcast_S_S16777216 (constant (F := Ideal) S_ .f32 0x00000000#32)) idx upd)
        shapeCasts_S16777216_S256x256x256 (ix3 h w z) =
      Cert.Spec.vsum idx (fun e => upd (ix1 e)) (Cert.Spec.vox h w z) := by
  rw [shapeCast_apply _ _ (ix3 h w z) (ix1 (Cert.Spec.vox h w z)) (by
    rw [Shape.rowMajor_val_one, Shape.rowMajor_val_three]
    show h.val * 65536 + w.val * 256 + z.val = (h.val * 256 + w.val) * 256 + z.val
    omega)]
  rw [scatterAdd_eq, Cert.ScatterVec.hostScatterAdd_vec_apply, bcast_const_read]
  rfl

/-- Column `c4` of the features, sliced out and reshaped to a vector, read at point `e`. -/
theorem col_read (o : Nat) (c4 : Fin 4) (ho : c4.val = o) (a1 : FVec Ideal S262144x4 .f32)
    (hs : S262144x4.Slices ![0, o] S262144x1) (e : Fin 262144) :
    shapeCast S262144 (extractStridedSlice S262144x1 ![0, o] a1 hs) shapeCasts_S262144x1_S262144 (ix1 e) =
      a1 (ix2 e c4) := by
  rw [shapeCast_apply _ _ (ix1 e) (ix2 e (0 : Fin 1)) (by
    rw [Shape.rowMajor_val_one, Shape.rowMajor_val_two]
    show e.val * 1 + 0 = e.val
    omega)]
  exact slice2_axis1_apply o a1 hs e 0 c4 (by show c4.val = o + 0; omega)

/-- The sums of the column at offset `o = c4` at `(h, w, z)`. -/
theorem sumAt_read (a0 a1 : FVec Ideal S262144x4 .f32) (o : Nat) (c4 : Fin 4) (ho : c4.val = o)
    (hs : S262144x4.Slices ![0, o] S262144x1) (h w z : Fin 256) :
    kSumAt a0 a1 o hs (ix3 h w z) =
      Cert.Spec.vsum (kIdx a0) (fun e => a1 (ix2 e c4)) (Cert.Spec.vox h w z) := by
  unfold kSumAt
  rw [scat_read]
  congr 1
  funext e
  exact col_read o c4 ho a1 hs e

/-- EACH CHANNEL ARRAY AT `(h, w, z)` is the voxel sum of that feature column. -/
theorem opnd_sum (a0 a1 : FVec Ideal S262144x4 .f32) (c4 : Fin 4) (h w z : Fin 256) :
    kSum a0 a1 c4 (ix3 h w z) =
      Cert.Spec.vsum (kIdx a0) (fun e => a1 (ix2 e c4)) (Cert.Spec.vox h w z) :=
  sumAt_read a0 a1 c4.val c4 rfl (slices_col c4) h w z

/-- THE COUNT ARRAY AT `(h, w, z)` is the voxel sum of ones. -/
theorem opnd_cnt (a0 : FVec Ideal S262144x4 .f32) (h w z : Fin 256) :
    kCnt a0 (ix3 h w z) = Cert.Spec.vsum (kIdx a0) (fun _ => Cert.Spec.fone) (Cert.Spec.vox h w z) := by
  unfold kCnt
  rw [scat_read]
  rfl

/-! ## The arrays when the region is entered -/

variable (m : (ℓ : Loc nD τ sig) → Buf (Elt Ideal) ℓ)

/-- Core `c`'s buffer contents when the region is entered: the launch contents after the host lines before it. -/
abbrev V0 (c : Dev nD) : Valuation τ sig (Elt Ideal) :=
  StableHlo.after (List.flatten [hostOps0 (F := Ideal), hostOps0_1 (F := Ideal), hostOps0_2 (F := Ideal)])
    (fun b => m (c, b))

set_option maxHeartbeats 4000000 in
/-- Channel 0's sums. -/
theorem pre_v29 (c : Dev nD) :
    (V0 m c (Proc.devRef .tc main_v29) : S256x256x256.Idx → EReal) =
      shapeCast S256x256x256
        (Host.scatterAdd scatter_S16777216_S262144x1_S262144_n_0_0_1
          (broadcastInDim S16777216 ![] bcast_S_S16777216 (constant (F := Ideal) S_ .f32 0x00000000#32))
          (kIdx (m ((c : Thread nD τ).loc main_arg0)))
          (shapeCast S262144 (extractStridedSlice S262144x1 ![0, 0] (m ((c : Thread nD τ).loc main_arg1))
            slices_S262144x4_S262144x1_0_0) shapeCasts_S262144x1_S262144))
        shapeCasts_S16777216_S256x256x256 := by
  dsimp only [V0]
  simp only [hostOps0, hostOps0_1, hostOps0_2, List.flatten_cons, List.flatten_nil, List.append_nil, List.cons_append,
    List.nil_append]
  after_results_simp
  rfl

set_option maxHeartbeats 4000000 in
/-- Channel 1's sums. -/
theorem pre_v35 (c : Dev nD) :
    (V0 m c (Proc.devRef .tc main_v35) : S256x256x256.Idx → EReal) =
      shapeCast S256x256x256
        (Host.scatterAdd scatter_S16777216_S262144x1_S262144_n_0_0_1
          (broadcastInDim S16777216 ![] bcast_S_S16777216 (constant (F := Ideal) S_ .f32 0x00000000#32))
          (kIdx (m ((c : Thread nD τ).loc main_arg0)))
          (shapeCast S262144 (extractStridedSlice S262144x1 ![0, 1] (m ((c : Thread nD τ).loc main_arg1))
            slices_S262144x4_S262144x1_0_1) shapeCasts_S262144x1_S262144))
        shapeCasts_S16777216_S256x256x256 := by
  dsimp only [V0]
  simp only [hostOps0, hostOps0_1, hostOps0_2, List.flatten_cons, List.flatten_nil, List.append_nil, List.cons_append,
    List.nil_append]
  after_results_simp
  rfl

set_option maxHeartbeats 4000000 in
/-- Channel 2's sums. -/
theorem pre_v41 (c : Dev nD) :
    (V0 m c (Proc.devRef .tc main_v41) : S256x256x256.Idx → EReal) =
      shapeCast S256x256x256
        (Host.scatterAdd scatter_S16777216_S262144x1_S262144_n_0_0_1
          (broadcastInDim S16777216 ![] bcast_S_S16777216 (constant (F := Ideal) S_ .f32 0x00000000#32))
          (kIdx (m ((c : Thread nD τ).loc main_arg0)))
          (shapeCast S262144 (extractStridedSlice S262144x1 ![0, 2] (m ((c : Thread nD τ).loc main_arg1))
            slices_S262144x4_S262144x1_0_2) shapeCasts_S262144x1_S262144))
        shapeCasts_S16777216_S256x256x256 := by
  dsimp only [V0]
  simp only [hostOps0, hostOps0_1, hostOps0_2, List.flatten_cons, List.flatten_nil, List.append_nil, List.cons_append,
    List.nil_append]
  after_results_simp
  rfl

set_option maxHeartbeats 4000000 in
/-- Channel 3's sums. -/
theorem pre_v47 (c : Dev nD) :
    (V0 m c (Proc.devRef .tc main_v47) : S256x256x256.Idx → EReal) =
      shapeCast S256x256x256
        (Host.scatterAdd scatter_S16777216_S262144x1_S262144_n_0_0_1
          (broadcastInDim S16777216 ![] bcast_S_S16777216 (constant (F := Ideal) S_ .f32 0x00000000#32))
          (kIdx (m ((c : Thread nD τ).loc main_arg0)))
          (shapeCast S262144 (extractStridedSlice S262144x1 ![0, 3] (m ((c : Thread nD τ).loc main_arg1))
            slices_S262144x4_S262144x1_0_3) shapeCasts_S262144x1_S262144))
        shapeCasts_S16777216_S256x256x256 := by
  dsimp only [V0]
  simp only [hostOps0, hostOps0_1, hostOps0_2, List.flatten_cons, List.flatten_nil, List.append_nil, List.cons_append,
    List.nil_append]
  after_results_simp
  rfl

set_option maxHeartbeats 4000000 in
/-- The counts. -/
theorem pre_v52 (c : Dev nD) :
    (V0 m c (Proc.devRef .tc main_v52) : S256x256x256.Idx → EReal) =
      shapeCast S256x256x256
        (Host.scatterAdd scatter_S16777216_S262144x1_S262144_n_0_0_1
          (broadcastInDim S16777216 ![] bcast_S_S16777216 (constant (F := Ideal) S_ .f32 0x00000000#32))
          (kIdx (m ((c : Thread nD τ).loc main_arg0)))
          (broadcastInDim S262144 ![] bcast_S_S262144 (constant (F := Ideal) S_ .f32 0x3F800000#32)))
        shapeCasts_S16777216_S256x256x256 := by
  dsimp only [V0]
  simp only [hostOps0, hostOps0_1, hostOps0_2, List.flatten_cons, List.flatten_nil, List.append_nil, List.cons_append,
    List.nil_append]
  after_results_simp
  rfl

/-! ## The same in terms of `kSum` and `kCnt` -/

theorem pre_sum0 (c : Dev nD) : (V0 m c (Proc.devRef .tc main_v29) : S256x256x256.Idx → EReal) =
    kSum (m ((c : Thread nD τ).loc main_arg0)) (m ((c : Thread nD τ).loc main_arg1)) 0 := pre_v29 m c

theorem pre_sum1 (c : Dev nD) : (V0 m c (Proc.devRef .tc main_v35) : S256x256x256.Idx → EReal) =
    kSum (m ((c : Thread nD τ).loc main_arg0)) (m ((c : Thread nD τ).loc main_arg1)) 1 := pre_v35 m c

theorem pre_sum2 (c : Dev nD) : (V0 m c (Proc.devRef .tc main_v41) : S256x256x256.Idx → EReal) =
    kSum (m ((c : Thread nD τ).loc main_arg0)) (m ((c : Thread nD τ).loc main_arg1)) 2 := pre_v41 m c

theorem pre_sum3 (c : Dev nD) : (V0 m c (Proc.devRef .tc main_v47) : S256x256x256.Idx → EReal) =
    kSum (m ((c : Thread nD τ).loc main_arg0)) (m ((c : Thread nD τ).loc main_arg1)) 3 := pre_v47 m c

theorem pre_cnt (c : Dev nD) : (V0 m c (Proc.devRef .tc main_v52) : S256x256x256.Idx → EReal) =
    kCnt (m ((c : Thread nD τ).loc main_arg0)) := pre_v52 m c

end Cert.PreMath

end
-- ==== Proof.BodyMath.lean ====
/-
  THE BODY'S ARITHMETIC, INDEX BY INDEX.

  A block of 16 h-rows of the four channel sums and of the count goes in; the mean block stacks the four channels and
  divides each by the count taken at least one; the three maxima run over the 16 rows, over w and over z.
-/
import proofs.«135331_j13778255086206_2_alg».proof.Proof.Gen.KernelIdeal.Skeleton
import proofs.«135331_j13778255086206_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.BodyMath

open Idealize.ShloMosaic Idealize.ShloMosaic.ValueIdx
open Cert.KernelIdeal Cert.KernelIdeal.Gen

/-- Channel `c` of the four sum blocks. -/
def sel (c : Fin 4) (x0 x1 x2 x3 : Vec Ideal S16x256x256 .f32) : Vec Ideal S16x256x256 .f32 :=
  match c with
  | ⟨0, _⟩ => x0
  | ⟨1, _⟩ => x1
  | ⟨2, _⟩ => x2
  | ⟨3, _⟩ => x3

/-- The stack of four `[1,16,256,256]` pieces read at `(c, hl, w, z)` is piece `c` at `(0, hl, w, z)`. -/
theorem concat4_apply {α : Type} (y0 y1 y2 y3 : S1x16x256x256.Idx → α)
    (h : Shape.Concatenates [S1x16x256x256, S1x16x256x256, S1x16x256x256, S1x16x256x256] S4x16x256x256 0)
    (c : Fin 4) (hl : Fin 16) (w z : Fin 256) :
    concatenate S4x16x256x256 0 [⟨S1x16x256x256, y0⟩, ⟨S1x16x256x256, y1⟩, ⟨S1x16x256x256, y2⟩, ⟨S1x16x256x256, y3⟩] h (ix4 c hl w z)
      = (match c with
         | ⟨0, _⟩ => y0
         | ⟨1, _⟩ => y1
         | ⟨2, _⟩ => y2
         | ⟨3, _⟩ => y3) (ix4 (0 : Fin 1) hl w z) := by
  match c with
  | ⟨0, _⟩ =>
    exact concatenate_apply_piece (t := S4x16x256x256) (0 : Fin 4) [⟨S1x16x256x256, y0⟩, ⟨S1x16x256x256, y1⟩, ⟨S1x16x256x256, y2⟩, ⟨S1x16x256x256, y3⟩] h _ 0 (by show 0 < 4; omega) S1x16x256x256 y0 rfl rfl 0 rfl
      (ix4 (0 : Fin 1) hl w z) (fun b hb => match b with | ⟨0, _⟩ => absurd rfl hb | ⟨1, _⟩ => rfl | ⟨2, _⟩ => rfl | ⟨3, _⟩ => rfl) rfl
  | ⟨1, _⟩ =>
    exact concatenate_apply_piece (t := S4x16x256x256) (0 : Fin 4) [⟨S1x16x256x256, y0⟩, ⟨S1x16x256x256, y1⟩, ⟨S1x16x256x256, y2⟩, ⟨S1x16x256x256, y3⟩] h _ 1 (by show 1 < 4; omega) S1x16x256x256 y1 rfl rfl 1 rfl
      (ix4 (0 : Fin 1) hl w z) (fun b hb => match b with | ⟨0, _⟩ => absurd rfl hb | ⟨1, _⟩ => rfl | ⟨2, _⟩ => rfl | ⟨3, _⟩ => rfl) rfl
  | ⟨2, _⟩ =>
    exact concatenate_apply_piece (t := S4x16x256x256) (0 : Fin 4) [⟨S1x16x256x256, y0⟩, ⟨S1x16x256x256, y1⟩, ⟨S1x16x256x256, y2⟩, ⟨S1x16x256x256, y3⟩] h _ 2 (by show 2 < 4; omega) S1x16x256x256 y2 rfl rfl 2 rfl
      (ix4 (0 : Fin 1) hl w z) (fun b hb => match b with | ⟨0, _⟩ => absurd rfl hb | ⟨1, _⟩ => rfl | ⟨2, _⟩ => rfl | ⟨3, _⟩ => rfl) rfl
  | ⟨3, _⟩ =>
    exact concatenate_apply_piece (t := S4x16x256x256) (0 : Fin 4) [⟨S1x16x256x256, y0⟩, ⟨S1x16x256x256, y1⟩, ⟨S1x16x256x256, y2⟩, ⟨S1x16x256x256, y3⟩] h _ 3 (by show 3 < 4; omega) S1x16x256x256 y3 rfl rfl 3 rfl
      (ix4 (0 : Fin 1) hl w z) (fun b hb => match b with | ⟨0, _⟩ => absurd rfl hb | ⟨1, _⟩ => rfl | ⟨2, _⟩ => rfl | ⟨3, _⟩ => rfl) rfl

/-- A one-row block `[1,16,256,256]` broadcast over the four channels reads, at `(c, hl, w, z)`, row `(0, hl, w, z)`. -/
theorem bcast4_apply {α : Type} (v : S1x16x256x256.Idx → α) (h : S1x16x256x256.Broadcasts S4x16x256x256)
    (c : Fin 4) (hl : Fin 16) (w z : Fin 256) :
    broadcastTo S4x16x256x256 v h (ix4 c hl w z) = v (ix4 (0 : Fin 1) hl w z) :=
  broadcastTo_apply v h _ _ fun a => match a with
    | ⟨0, _⟩ => rfl
    | ⟨1, _⟩ => rfl
    | ⟨2, _⟩ => rfl
    | ⟨3, _⟩ => rfl

/-- **The mean block at an index**: channel `c`'s sum over the count taken at least one. -/
theorem pay1_apply (x0 x1 x2 x3 x4 : Vec Ideal S16x256x256 .f32) (c : Fin 4) (hl : Fin 16) (w z : Fin 256) :
    k0_pay1 x0 x1 x2 x3 x4 (ix4 c hl w z)
      = Ideal.div (sel c x0 x1 x2 x3 (ix3 hl w z)) (max (x4 (ix3 hl w z)) Cert.Spec.fone) := by
  unfold k0_pay1
  simp only [shapeCast_self]
  rw [divf_apply, concat4_apply, bcast4_apply, shapeCast_abc_1abc_apply, maximumf_apply, broadcast_apply]
  congr 1
  match c with
  | ⟨0, _⟩ => exact (shapeCast_abc_1abc_apply _ _ 0 hl w z).trans (congrFun (shapeCast_self x0 _) _)
  | ⟨1, _⟩ => exact (shapeCast_abc_1abc_apply _ _ 0 hl w z).trans (congrFun (shapeCast_self x1 _) _)
  | ⟨2, _⟩ => exact (shapeCast_abc_1abc_apply _ _ 0 hl w z).trans (congrFun (shapeCast_self x2 _) _)
  | ⟨3, _⟩ => exact (shapeCast_abc_1abc_apply _ _ 0 hl w z).trans (congrFun (shapeCast_self x3 _) _)

/-! ## The three maxima -/

/-- The reduced index `(c, w, z)` with row `k` put back on axis 1 is `(c, k, w, z)`. -/
theorem lift1_ix4 (h : S4x16x256x256.Reduces [1] S4x256x256) (c : Fin 4) (w z : Fin 256) (k : Fin (S4x16x256x256.size 1)) :
    h.lift (ix3 c w z) k = ix4 c (⟨k.val, k.isLt⟩ : Fin 16) w z := by
  funext a; apply Fin.ext
  match a with
  | ⟨0, _⟩ => rfl
  | ⟨1, _⟩ => rfl
  | ⟨2, _⟩ => rfl
  | ⟨3, _⟩ => rfl

/-- The reduced index `(c, hl, z)` with column `k` put back on axis 2 is `(c, hl, k, z)`. -/
theorem lift2_ix4 (h : S4x16x256x256.Reduces [2] S4x16x256) (c : Fin 4) (hl : Fin 16) (z : Fin 256) (k : Fin (S4x16x256x256.size 2)) :
    h.lift (ix3 c hl z) k = ix4 c hl (⟨k.val, k.isLt⟩ : Fin 256) z := by
  funext a; apply Fin.ext
  match a with
  | ⟨0, _⟩ => rfl
  | ⟨1, _⟩ => rfl
  | ⟨2, _⟩ => rfl
  | ⟨3, _⟩ => rfl

/-- The reduced index `(c, hl, w)` with depth `k` put back on axis 3 is `(c, hl, w, k)`. -/
theorem lift3_ix4 (h : S4x16x256x256.Reduces [3] S4x16x256) (c : Fin 4) (hl : Fin 16) (w : Fin 256) (k : Fin (S4x16x256x256.size 3)) :
    h.lift (ix3 c hl w) k = ix4 c hl w (⟨k.val, k.isLt⟩ : Fin 256) := by
  funext a; apply Fin.ext
  match a with
  | ⟨0, _⟩ => rfl
  | ⟨1, _⟩ => rfl
  | ⟨2, _⟩ => rfl
  | ⟨3, _⟩ => rfl

/-- The maximum over the 16 rows, from minus infinity. -/
theorem max_axis1 (src : FVec Ideal S4x16x256x256 .f32) (h : S4x16x256x256.Reduces [1] S4x256x256) (hφ : FKind.Formats .f32)
    (hacc : (0xFF800000#32 : BitVec 32) = FKind.maximumf.neutral .f32 hφ) (c : Fin 4) (w z : Fin 256) :
    multiReduction .maximumf [1] S4x256x256 src 0xFF800000#32 h hφ hacc (ix3 c w z)
      = Cert.Spec.fmax (fun hl : Fin 16 => src (ix4 c hl w z)) := by
  refine (Ideal.multiReduction_maximumf_single src 0xFF800000#32 h hφ hacc (ix3 c w z)).trans ?_
  have hf : (src ∘ h.lift (ix3 c w z)) = fun k : Fin 16 => src (ix4 c k w z) :=
    funext fun k => congrArg src (lift1_ix4 h c w z k)
  exact congrArg (fun f => Finset.fold max (Ideal.ofBits .f32 0xFF800000#32) f (Finset.univ : Finset (Fin 16))) hf

/-- The maximum over `w`, from minus infinity. -/
theorem max_axis2 (src : FVec Ideal S4x16x256x256 .f32) (h : S4x16x256x256.Reduces [2] S4x16x256) (hφ : FKind.Formats .f32)
    (hacc : (0xFF800000#32 : BitVec 32) = FKind.maximumf.neutral .f32 hφ) (c : Fin 4) (hl : Fin 16) (z : Fin 256) :
    multiReduction .maximumf [2] S4x16x256 src 0xFF800000#32 h hφ hacc (ix3 c hl z)
      = Cert.Spec.fmax (fun w : Fin 256 => src (ix4 c hl w z)) := by
  refine (Ideal.multiReduction_maximumf_single src 0xFF800000#32 h hφ hacc (ix3 c hl z)).trans ?_
  have hf : (src ∘ h.lift (ix3 c hl z)) = fun k : Fin 256 => src (ix4 c hl k z) :=
    funext fun k => congrArg src (lift2_ix4 h c hl z k)
  exact congrArg (fun f => Finset.fold max (Ideal.ofBits .f32 0xFF800000#32) f (Finset.univ : Finset (Fin 256))) hf

/-- The maximum over `z`, from minus infinity. -/
theorem max_axis3 (src : FVec Ideal S4x16x256x256 .f32) (h : S4x16x256x256.Reduces [3] S4x16x256) (hφ : FKind.Formats .f32)
    (hacc : (0xFF800000#32 : BitVec 32) = FKind.maximumf.neutral .f32 hφ) (c : Fin 4) (hl : Fin 16) (w : Fin 256) :
    multiReduction .maximumf [3] S4x16x256 src 0xFF800000#32 h hφ hacc (ix3 c hl w)
      = Cert.Spec.fmax (fun z : Fin 256 => src (ix4 c hl w z)) := by
  refine (Ideal.multiReduction_maximumf_single src 0xFF800000#32 h hφ hacc (ix3 c hl w)).trans ?_
  have hf : (src ∘ h.lift (ix3 c hl w)) = fun k : Fin 256 => src (ix4 c hl w k) :=
    funext fun k => congrArg src (lift3_ix4 h c hl w k)
  exact congrArg (fun f => Finset.fold max (Ideal.ofBits .f32 0xFF800000#32) f (Finset.univ : Finset (Fin 256))) hf

/-- **The maximum over the block's 16 rows** of the mean block. -/
theorem pay2_apply (x0 x1 x2 x3 x4 : Vec Ideal S16x256x256 .f32) (c : Fin 4) (w z : Fin 256) :
    k0_pay2 x0 x1 x2 x3 x4 (ix3 c w z) = Cert.Spec.fmax (fun hl : Fin 16 => k0_pay1 x0 x1 x2 x3 x4 (ix4 c hl w z)) :=
  max_axis1 (k0_pay1 x0 x1 x2 x3 x4) _ (.inl rfl) rfl c w z

/-- **The maximum over `w`** of the mean block. -/
theorem pay3_apply (x0 x1 x2 x3 x4 : Vec Ideal S16x256x256 .f32) (c : Fin 4) (hl : Fin 16) (z : Fin 256) :
    k0_pay3 x0 x1 x2 x3 x4 (ix3 c hl z) = Cert.Spec.fmax (fun w : Fin 256 => k0_pay1 x0 x1 x2 x3 x4 (ix4 c hl w z)) :=
  max_axis2 (k0_pay1 x0 x1 x2 x3 x4) _ (.inl rfl) rfl c hl z

/-- **The maximum over `z`** of the mean block. -/
theorem pay4_apply (x0 x1 x2 x3 x4 : Vec Ideal S16x256x256 .f32) (c : Fin 4) (hl : Fin 16) (w : Fin 256) :
    k0_pay4 x0 x1 x2 x3 x4 (ix3 c hl w) = Cert.Spec.fmax (fun z : Fin 256 => k0_pay1 x0 x1 x2 x3 x4 (ix4 c hl w z)) :=
  max_axis3 (k0_pay1 x0 x1 x2 x3 x4) _ (.inl rfl) rfl c hl w

/-! ## What the body stores into the h-maximum's block -/

/-- At the first point of a half the block takes the rows' maximum. -/
theorem pay5_apply (x0 x1 x2 x3 x4 : Vec Ideal S16x256x256 .f32) (c : Fin 4) (w z : Fin 256) :
    k0_pay5 x0 x1 x2 x3 x4 (ix4 (0 : Fin 1) c w z) = k0_pay2 x0 x1 x2 x3 x4 (ix3 c w z) :=
  shapeCast_abc_1abc_apply (k0_pay2 x0 x1 x2 x3 x4) _ 0 c w z

/-- At a later point the block takes the larger of what it holds and the rows' maximum. -/
theorem pay6_apply (x0 x1 x2 x3 x4 : Vec Ideal S16x256x256 .f32) (v31 : Vec Ideal S1x4x256x256 .f32) (c : Fin 4) (w z : Fin 256) :
    k0_pay6 x0 x1 x2 x3 x4 v31 (ix4 (0 : Fin 1) c w z)
      = max (v31 (ix4 (0 : Fin 1) c w z)) (k0_pay2 x0 x1 x2 x3 x4 (ix3 c w z)) := by
  unfold k0_pay6
  refine (shapeCast_abc_1abc_apply _ _ 0 c w z).trans ?_
  rw [maximumf_apply]
  exact congrArg (fun y => max y (k0_pay2 x0 x1 x2 x3 x4 (ix3 c w z))) (shapeCast_1abc_abc_apply v31 _ c w z)

end Cert.BodyMath

end
-- ==== Proof.MaxMath.lean ====
/-
  THE MAXIMUM OVER 256 ROWS, TAKEN BLOCK BY BLOCK.

  The rows are cut into 16 blocks of 16; each half of the rows (8 blocks) is accumulated block by block — the first block's
  maximum, then the larger of what is held and the next block's maximum — and the two halves are joined by a last maximum.
  That is the maximum over all 256 rows.
-/
import proofs.«135331_j13778255086206_2_alg».proof.Proof.Spec
import Mathlib.Order.Interval.Finset.Fin

noncomputable section

namespace Cert.MaxMath

open Cert.Spec

/-- The maximum from minus infinity is the supremum. -/
theorem fmax_eq_sup {n : Nat} (f : Fin n → EReal) : fmax f = Finset.univ.sup f := by
  unfold fmax
  rw [fninf_eq_bot]
  rfl

/-- The maximum of block `blk`'s 16 rows (minus infinity past the last row). -/
def rowsMax (g : Fin 256 → EReal) (blk : Nat) : EReal :=
  fmax fun hl : Fin 16 => if h : blk * 16 + hl.val < 256 then g ⟨blk * 16 + hl.val, h⟩ else ⊥

/-- For a block inside the array every row is there. -/
theorem rowsMax_eq (g : Fin 256 → EReal) (blk : Nat) (hb : blk < 16) :
    rowsMax g blk = fmax fun hl : Fin 16 => g ⟨blk * 16 + hl.val, by have := hl.isLt; omega⟩ := by
  unfold rowsMax
  refine congrArg fmax (funext fun hl => ?_)
  exact dif_pos _

/-- What half `j` holds after its point `i`: the first block's maximum, then the larger of what is held and the next block's. -/
def accmax (g : Fin 256 → EReal) (j : Nat) : Nat → EReal
  | 0 => rowsMax g (8 * j)
  | i + 1 => max (accmax g j i) (rowsMax g (8 * j + (i + 1)))

theorem accmax_zero (g : Fin 256 → EReal) (j : Nat) : accmax g j 0 = rowsMax g (8 * j) := rfl

theorem accmax_succ (g : Fin 256 → EReal) (j i : Nat) :
    accmax g j (i + 1) = max (accmax g j i) (rowsMax g (8 * j + (i + 1))) := rfl

/-- After point `i` a half holds the supremum of its blocks `0 … i`. -/
theorem accmax_eq_sup (g : Fin 256 → EReal) (j i : Nat) :
    accmax g j i = (Finset.range (i + 1)).sup fun i' => rowsMax g (8 * j + i') := by
  induction i with
  | zero => simp [accmax]
  | succ i ih =>
    rw [accmax_succ, ih, Finset.range_add_one (n := i + 1), Finset.sup_insert]
    exact max_comm _ _

/-- **The regrouping**: the maximum over the 256 rows is the maximum over the two halves of what each holds after its
    eighth point. -/
theorem fmax_regroup (g : Fin 256 → EReal) : fmax g = fmax (fun j : Fin 2 => accmax g j.val 7) := by
  rw [fmax_eq_sup, fmax_eq_sup]
  simp only [accmax_eq_sup]
  apply le_antisymm
  · refine Finset.sup_le fun h _ => ?_
    have h1 : h.val / 128 < 2 := by have := h.isLt; omega
    have h3 : h.val % 16 < 16 := Nat.mod_lt _ (by norm_num)
    have e : (8 * (h.val / 128) + (h.val / 16) % 8) * 16 + h.val % 16 = h.val := by have := h.isLt; omega
    refine le_trans ?_ (Finset.le_sup (f := fun j : Fin 2 => (Finset.range (7 + 1)).sup fun i' => rowsMax g (8 * j.val + i'))
      (Finset.mem_univ (⟨h.val / 128, h1⟩ : Fin 2)))
    refine le_trans ?_ (Finset.le_sup (f := fun i' => rowsMax g (8 * (h.val / 128) + i'))
      (Finset.mem_range.2 (by omega : (h.val / 16) % 8 < 7 + 1)))
    show g h ≤ rowsMax g (8 * (h.val / 128) + (h.val / 16) % 8)
    unfold rowsMax
    rw [fmax_eq_sup]
    refine le_trans ?_ (Finset.le_sup
      (f := fun hl : Fin 16 => if hh : (8 * (h.val / 128) + (h.val / 16) % 8) * 16 + hl.val < 256 then g ⟨_, hh⟩ else ⊥)
      (Finset.mem_univ (⟨h.val % 16, h3⟩ : Fin 16)))
    show g h ≤ if hh : (8 * (h.val / 128) + (h.val / 16) % 8) * 16 + h.val % 16 < 256 then g ⟨_, hh⟩ else ⊥
    rw [dif_pos (by rw [e]; exact h.isLt)]
    exact le_of_eq (congrArg g (Fin.ext e.symm))
  · refine Finset.sup_le fun j _ => Finset.sup_le fun i _ => ?_
    unfold rowsMax
    rw [fmax_eq_sup]
    refine Finset.sup_le fun hl _ => ?_
    split
    · exact Finset.le_sup (Finset.mem_univ _)
    · exact bot_le

end Cert.MaxMath

end
-- ==== Proof.LinkMath.lean ====
/-
  THE BODY'S VALUES IN THE SPECIFICATION'S TERMS.

  When the five blocks a point reads are block `t` of the voxel sums and of the count (rows `16 t … 16 t + 15`), the mean
  block is the voxel mean at those rows, its three maxima are the specification's maxima over those rows, over w and over z,
  and what a half accumulates point by point is the block-by-block maximum over its rows.
-/
import proofs.«135331_j13778255086206_2_alg».proof.Proof.BodyMath
import proofs.«135331_j13778255086206_2_alg».proof.Proof.MaxMath
import proofs.«135331_j13778255086206_2_alg».proof.Proof.Spec

noncomputable section

namespace Cert.LinkMath

open Idealize.ShloMosaic Idealize.ShloMosaic.ValueIdx
open Cert.KernelIdeal Cert.KernelIdeal.Gen Cert.Spec Cert.MaxMath

/-- Row `hl` of block `t` (16 rows to a block; the remainder only keeps the row inside the grid for every `t`). -/
abbrev row (t : ℕ) (hl : Fin 16) : Fin 256 := ⟨(t * 16 + hl.val) % 256, Nat.mod_lt _ (by norm_num)⟩

/-- For one of the 16 blocks the row is `16 t + hl`. -/
theorem row_eq (t : ℕ) (ht : t < 16) (hl : Fin 16) : row t hl = ⟨t * 16 + hl.val, by have := hl.isLt; omega⟩ :=
  Fin.ext (Nat.mod_eq_of_lt (by have := hl.isLt; omega))

/-- The five blocks are block `t` of the four channels' voxel sums and of the voxel counts. -/
def IsBlock (idx : IVec ⟨2, ![262144, 1]⟩ 32) (feats : (⟨2, ![262144, 4]⟩ : Shape).Idx → EReal) (t : ℕ)
    (x0 x1 x2 x3 x4 : Vec Ideal S16x256x256 .f32) : Prop :=
  (∀ (c4 : Fin 4) (hl : Fin 16) (w z : Fin 256),
      Cert.BodyMath.sel c4 x0 x1 x2 x3 (ix3 hl w z) = vsum idx (fun e => feats (ix2 e c4)) (vox (row t hl) w z)) ∧
  (∀ (hl : Fin 16) (w z : Fin 256), x4 (ix3 hl w z) = vsum idx (fun _ => fone) (vox (row t hl) w z))

/-- The voxel mean of channel `c4` along h, at fixed `(w, z)`. -/
def meanH (idx : IVec ⟨2, ![262144, 1]⟩ 32) (feats : (⟨2, ![262144, 4]⟩ : Shape).Idx → EReal) (c4 : Fin 4) (w z : Fin 256) :
    Fin 256 → EReal := fun h => mean idx feats c4 h w z

variable {idx : IVec ⟨2, ![262144, 1]⟩ 32} {feats : (⟨2, ![262144, 4]⟩ : Shape).Idx → EReal}

/-- **The mean block** of block `t` is the voxel mean at rows `16 t + hl`. -/
theorem link_pay1 {t : ℕ} {x0 x1 x2 x3 x4 : Vec Ideal S16x256x256 .f32} (hB : IsBlock idx feats t x0 x1 x2 x3 x4) (ht : t < 16)
    (c4 : Fin 4) (hl : Fin 16) (w z : Fin 256) :
    k0_pay1 x0 x1 x2 x3 x4 (ix4 c4 hl w z) = mean idx feats c4 ⟨t * 16 + hl.val, by have := hl.isLt; omega⟩ w z := by
  rw [Cert.BodyMath.pay1_apply, hB.1 c4 hl w z, hB.2 hl w z, row_eq t ht]
  rfl

/-- **The maximum over the block's rows** is the block's maximum of the mean along h. -/
theorem link_pay2 {t : ℕ} {x0 x1 x2 x3 x4 : Vec Ideal S16x256x256 .f32} (hB : IsBlock idx feats t x0 x1 x2 x3 x4) (ht : t < 16)
    (c4 : Fin 4) (w z : Fin 256) :
    k0_pay2 x0 x1 x2 x3 x4 (ix3 c4 w z) = rowsMax (meanH idx feats c4 w z) t := by
  rw [Cert.BodyMath.pay2_apply, rowsMax_eq _ t ht]
  exact congrArg fmax (funext fun hl => link_pay1 hB ht c4 hl w z)

/-- **The maximum over w** at row `16 t + hl`. -/
theorem link_pay3 {t : ℕ} {x0 x1 x2 x3 x4 : Vec Ideal S16x256x256 .f32} (hB : IsBlock idx feats t x0 x1 x2 x3 x4) (ht : t < 16)
    (c4 : Fin 4) (hl : Fin 16) (z : Fin 256) :
    k0_pay3 x0 x1 x2 x3 x4 (ix3 c4 hl z)
      = fmax (fun w : Fin 256 => mean idx feats c4 ⟨t * 16 + hl.val, by have := hl.isLt; omega⟩ w z) := by
  rw [Cert.BodyMath.pay3_apply]
  exact congrArg fmax (funext fun w => link_pay1 hB ht c4 hl w z)

/-- **The maximum over z** at row `16 t + hl`. -/
theorem link_pay4 {t : ℕ} {x0 x1 x2 x3 x4 : Vec Ideal S16x256x256 .f32} (hB : IsBlock idx feats t x0 x1 x2 x3 x4) (ht : t < 16)
    (c4 : Fin 4) (hl : Fin 16) (w : Fin 256) :
    k0_pay4 x0 x1 x2 x3 x4 (ix3 c4 hl w)
      = fmax (fun z : Fin 256 => mean idx feats c4 ⟨t * 16 + hl.val, by have := hl.isLt; omega⟩ w z) := by
  rw [Cert.BodyMath.pay4_apply]
  exact congrArg fmax (funext fun z => link_pay1 hB ht c4 hl w z)

/-- **The accumulation**: a block that takes the rows' maximum at the first point of a half and the larger of what it holds
    and the rows' maximum at every later point holds, after point `n`, the half's block-by-block maximum so far. -/
theorem acc_eq (X : ℕ → Fin 5 → Vec Ideal S16x256x256 .f32)
    (hX : ∀ n, n < 16 → IsBlock idx feats n (X n 0) (X n 1) (X n 2) (X n 3) (X n 4))
    (acc : ℕ → Vec Ideal S1x4x256x256 .f32)
    (hA : ∀ n, n < 16 → n % 8 = 0 → acc n = k0_pay5 (X n 0) (X n 1) (X n 2) (X n 3) (X n 4))
    (hB : ∀ n, n < 16 → ¬ n % 8 = 0 → acc n = k0_pay6 (X n 0) (X n 1) (X n 2) (X n 3) (X n 4) (acc (n - 1))) :
    ∀ n, n < 16 → ∀ (c4 : Fin 4) (w z : Fin 256),
      acc n (ix4 (0 : Fin 1) c4 w z) = accmax (meanH idx feats c4 w z) (n / 8) (n % 8) := by
  intro n
  induction n with
  | zero =>
    intro hn c4 w z
    rw [hA 0 hn rfl, Cert.BodyMath.pay5_apply, link_pay2 (hX 0 hn) hn]
    rfl
  | succ n ih =>
    intro hn c4 w z
    by_cases hm : (n + 1) % 8 = 0
    · rw [hA (n + 1) hn hm, Cert.BodyMath.pay5_apply, link_pay2 (hX (n + 1) hn) hn, hm, accmax_zero]
      congr 1
      omega
    · rw [hB (n + 1) hn hm, Cert.BodyMath.pay6_apply, link_pay2 (hX (n + 1) hn) hn, Nat.add_sub_cancel, ih (by omega)]
      have hq : (n + 1) / 8 = n / 8 := by omega
      have hr : (n + 1) % 8 = n % 8 + 1 := by omega
      rw [hq, hr, accmax_succ]
      congr 2
      omega

end Cert.LinkMath

end
-- ==== Proof.KernelIdealValueC.lean ====
/-
  The array of the maximum over h after the run. The blocks the region reads at point t are rows 16t … 16t+15 of the
  voxel sums and counts; so after point t of half j the buffer holds the maximum of the voxel mean over the rows of the
  half seen so far, and the write-back after the half's last point leaves, in slab j of the array, the maximum over the
  half's 128 rows.
-/
import proofs.«135331_j13778255086206_2_alg».proof.Proof.KernelIdealValueA
import proofs.«135331_j13778255086206_2_alg».proof.Proof.PreMath
import proofs.«135331_j13778255086206_2_alg».proof.Proof.LinkMath

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

open Cert.Spec Cert.MaxMath Cert.LinkMath Cert.BodyMath

/-- The voxel numbers of the points, and the features, as the program reads them off its two arguments. -/
abbrev kidx (c : Dev nD) : IVec ⟨2, ![262144, 1]⟩ 32 := Cert.PreMath.kIdx (m ((c : Thread nD τ).loc main_arg0))
abbrev kfeats (c : Dev nD) : (⟨2, ![262144, 4]⟩ : Shape).Idx → EReal := (m ((c : Thread nD τ).loc main_arg1))

theorem isBlock (c : Dev nD) (t : Fin cfg0.N) :
    IsBlock (kidx m c) (kfeats m c) t.val (iblk m c 0 t) (iblk m c 1 t) (iblk m c 2 t) (iblk m c 3 t) (iblk m c 4 t) := by
  have ht : t.val < 16 := lt_of_lt_of_eq t.isLt (show cfg0.N = 16 from N_0)
  refine ⟨fun c4 hl w z => ?_, fun hl w z => ?_⟩
  · rw [row_eq t.val ht hl]
    match c4 with
    | ⟨0, _⟩ =>
      show (iblk m c 0 t : Vec Ideal S16x256x256 .f32) (ix3 hl w z) = _
      rw [iblk0_apply, show (V m c main_v29 : S256x256x256.Idx → EReal) = _ from Cert.PreMath.pre_sum0 m c, Cert.PreMath.opnd_sum]
      rfl
    | ⟨1, _⟩ =>
      show (iblk m c 1 t : Vec Ideal S16x256x256 .f32) (ix3 hl w z) = _
      rw [iblk1_apply, show (V m c main_v35 : S256x256x256.Idx → EReal) = _ from Cert.PreMath.pre_sum1 m c, Cert.PreMath.opnd_sum]
      rfl
    | ⟨2, _⟩ =>
      show (iblk m c 2 t : Vec Ideal S16x256x256 .f32) (ix3 hl w z) = _
      rw [iblk2_apply, show (V m c main_v41 : S256x256x256.Idx → EReal) = _ from Cert.PreMath.pre_sum2 m c, Cert.PreMath.opnd_sum]
      rfl
    | ⟨3, _⟩ =>
      show (iblk m c 3 t : Vec Ideal S16x256x256 .f32) (ix3 hl w z) = _
      rw [iblk3_apply, show (V m c main_v47 : S256x256x256.Idx → EReal) = _ from Cert.PreMath.pre_sum3 m c, Cert.PreMath.opnd_sum]
      rfl
  · rw [row_eq t.val ht hl, iblk4_apply, show (V m c main_v52 : S256x256x256.Idx → EReal) = _ from Cert.PreMath.pre_cnt m c, Cert.PreMath.opnd_cnt]

/-- After point n the buffer of the maximum over h holds, at (c4, w, z), the maximum of the mean over the rows of the
    point's half up to and including the point's own 16 rows. -/
theorem acc5 (c : Dev nD) : ∀ (n : ℕ) (hn : n < cfg0.N) (c4 : Fin 4) (w z : Fin 256),
    (outsAt0 m c n hn).1 (ix4 (0 : Fin 1) c4 w z) = accmax (meanH (kidx m c) (kfeats m c) c4 w z) (n / 8) (n % 8)
  | 0, hn, c4, w, z => by
    rw [outs5_A m c ⟨0, hn⟩ rfl, pay5_apply, link_pay2 (isBlock m c ⟨0, hn⟩) (by norm_num)]
    rfl
  | n + 1, hn, c4, w, z => by
    have hN : n + 1 < 16 := lt_of_lt_of_eq hn (show cfg0.N = 16 from N_0)
    by_cases h0 : (n + 1) % 8 = 0
    · rw [outs5_A m c ⟨n + 1, hn⟩ h0, pay5_apply, link_pay2 (isBlock m c ⟨n + 1, hn⟩) hN]
      show rowsMax _ (n + 1) = _
      rw [h0, accmax_zero]
      congr 1; omega
    · rw [outs5_B m c ⟨n + 1, hn⟩ h0, pay6_apply, link_pay2 (isBlock m c ⟨n + 1, hn⟩) hN]
      show max ((outsAt0 m c n _).1 (ix4 (0 : Fin 1) c4 w z)) (rowsMax _ (n + 1)) = _
      rw [acc5 c n _ c4 w z]
      have e1 : (n + 1) / 8 = n / 8 := by omega
      have e2 : (n + 1) % 8 = n % 8 + 1 := by omega
      rw [e1, e2, accmax_succ]
      congr 2; omega

/-- What the array of the maximum over h ends holding: in slab j, the maximum over the rows of half j. -/
abbrev G5 (c : Dev nD) : S2x4x256x256.Idx → EReal :=
  fun i => accmax (meanH (kidx m c) (kfeats m c) (i 1) (i 2) (i 3)) (i 0).val 7

theorem idxOut5 : ∀ t : Fin cfg0.N, win0_5.index t 0 = t.val / 8 ∧ win0_5.index t 1 = 0 ∧ win0_5.index t 2 = 0 ∧ win0_5.index t 3 = 0 :=
  (by decide +kernel : ∀ t : Fin grid0.N, win0_5.index t 0 = t.val / 8 ∧ win0_5.index t 1 = 0 ∧ win0_5.index t 2 = 0 ∧ win0_5.index t 3 = 0)

/-- The write-back after the last point of a half writes that slab. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  have hN : t.val < 16 := lt_of_lt_of_eq t.isLt (show cfg0.N = 16 from N_0)
  obtain ⟨e0, e1, e2, e3⟩ := idxOut5 t
  show (cfg0.win 5).cut (grid0.coords t) ((dats m 0 c).after 5 t) = _
  rw [after0_5]
  funext j
  obtain ⟨u, c4, w, z, rfl⟩ : ∃ (u : Fin 1) (c4 : Fin 4) (w z : Fin 256), j = ix4 u c4 w z := ⟨j 0, j 1, j 2, j 3, eq_ix4 j⟩
  obtain rfl : u = 0 := Subsingleton.elim _ _
  show (outsAt0 m c t.val t.isLt).1 (ix4 (0 : Fin 1) c4 w z) = G5 m c (((cfg0.win 5).blk t).view.emb (ix4 (0 : Fin 1) c4 w z))
  rw [acc5 m c t.val t.isLt c4 w z, h7]
  have he : ((cfg0.win 5).blk t).view.emb (ix4 (0 : Fin 1) c4 w z) = ix4 (⟨t.val / 8, by omega⟩ : Fin 2) c4 w z := by
    funext a; apply Fin.ext
    match a with
    | ⟨0, _⟩ => show win0_5.index t 0 * 1 + 1 * 0 = t.val / 8; rw [e0]; omega
    | ⟨1, _⟩ => show win0_5.index t 1 * 4 + 1 * c4.val = c4.val; rw [e1]; omega
    | ⟨2, _⟩ => show win0_5.index t 2 * 256 + 1 * w.val = w.val; rw [e2]; omega
    | ⟨3, _⟩ => show win0_5.index t 3 * 256 + 1 * z.val = z.val; rw [e3]; omega
  rw [he]

theorem mem_blk5 (t : Fin cfg0.N) (i : S2x4x256x256.Idx) :
    i ∈ ((cfg0.win 5).blk t).view.set ↔ ∀ a : Fin 4, win0_5.index t a * S1x4x256x256.size a ≤ (i a).val ∧ (i a).val < win0_5.index t a * S1x4x256x256.size a + S1x4x256x256.size a := by
  show i ∈ ((View.whole main_v53_0).slice (win0_5.rect t)).set ↔ _
  rw [View.set_slice_whole, Rect.mem_set_unit]
  exact Iff.rfl

theorem final5 (c : Dev nD) : (dats m 0 c).arrAt 5 cfg0.N = G5 m c :=
  (dats m 0 c).arrAt_eq_of_cover 5 (G5 m c) (fun t hf => flushed5_eq m c t hf) fun i => by
    have hi0 : (i 0).val < 2 := (i 0).isLt
    have hi1 : (i 1).val < 4 := (i 1).isLt
    have hi2 : (i 2).val < 256 := (i 2).isLt
    have hi3 : (i 3).val < 256 := (i 3).isLt
    have hN : cfg0.N = 16 := N_0
    refine ⟨⟨8 * (i 0).val + 7, by omega⟩, (flush0_5 _).mpr (by show (8 * (i 0).val + 7) % 8 = 7; omega), ?_⟩
    obtain ⟨e0, e1, e2, e3⟩ := idxOut5 ⟨8 * (i 0).val + 7, by omega⟩
    rw [mem_blk5]
    intro a
    match a with
    | ⟨0, _⟩ => show win0_5.index _ 0 * 1 ≤ (i 0).val ∧ (i 0).val < win0_5.index _ 0 * 1 + 1; rw [e0]; show (8 * (i 0).val + 7) / 8 * 1 ≤ _ ∧ _ < (8 * (i 0).val + 7) / 8 * 1 + 1; omega
    | ⟨1, _⟩ => show win0_5.index _ 1 * 4 ≤ (i 1).val ∧ (i 1).val < win0_5.index _ 1 * 4 + 4; rw [e1]; omega
    | ⟨2, _⟩ => show win0_5.index _ 2 * 256 ≤ (i 2).val ∧ (i 2).val < win0_5.index _ 2 * 256 + 256; rw [e2]; omega
    | ⟨3, _⟩ => show win0_5.index _ 3 * 256 ≤ (i 3).val ∧ (i 3).val < win0_5.index _ 3 * 256 + 256; rw [e3]; omega

end Cert.KernelIdeal.Val

end
-- ==== Proof.KernelIdealValueB.lean ====
/-
  The arrays of the maxima over w and over z after the run, index by index: point t writes rows 16t … 16t+15 of each, the
  blocks of the 16 points tile the arrays, and under the hypothesis that the five blocks a point reads are block t of the
  voxel sums and counts, what it writes is the specification's maximum of the voxel mean at those rows.
-/
import proofs.«135331_j13778255086206_2_alg».proof.Proof.KernelIdealValueA
import proofs.«135331_j13778255086206_2_alg».proof.Proof.LinkMath

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The maximum over w -/

/-- The block of the maximum over w that point `t` writes is rows `16 t …` (decided over the grid). -/
theorem idxOut6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)

/-- A `[4,16,256]` block that is rows `16 t + hl` of a function of the array's index, cut to the window's block, is that
    function read through point `t`'s block. -/
theorem cut6_eq (t : Fin cfg0.N) (P : Vec Ideal S4x16x256 .f32) (Gf : S4x256x256.Idx → EReal)
    (h : ∀ (c4 : Fin 4) (hl : Fin 16) (z : Fin 256),
      P (ix3 c4 hl z) = Gf (ix3 c4 (⟨t.val * 16 + hl.val, by have := t.isLt; have : cfg0.N = 16 := N_0; have := hl.isLt; omega⟩ : Fin 256) z)) :
    (cfg0.win 6).cut (grid0.coords t) P = ((cfg0.win 6).blk t).view.read (Elt Ideal) Gf := by
  obtain ⟨e0, e1, e2⟩ := idxOut6 t
  funext j
  rw [View.read_apply]
  have hj0 : (j 0).val < 4 := (j 0).isLt
  have hj1 : (j 1).val < 16 := (j 1).isLt
  have hj2 : (j 2).val < 256 := (j 2).isLt
  have ej : (cfg0.win 6).xinj (grid0.coords t) j
      = ix3 (⟨(j 0).val, hj0⟩ : Fin 4) (⟨(j 1).val, hj1⟩ : Fin 16) (⟨(j 2).val, hj2⟩ : Fin 256) := by
    funext a
    match a with
    | ⟨0, _⟩ => rfl
    | ⟨1, _⟩ => rfl
    | ⟨2, _⟩ => rfl
  show P ((cfg0.win 6).xinj (grid0.coords t) j) = Gf (((cfg0.win 6).blk t).view.emb j)
  rw [ej, h]
  congr 1
  funext a
  apply Fin.ext
  match a with
  | ⟨0, _⟩ => show (j 0).val = win0_6.index t 0 * 4 + 1 * (j 0).val; rw [e0]; omega
  | ⟨1, _⟩ => show t.val * 16 + (j 1).val = win0_6.index t 1 * 16 + 1 * (j 1).val; rw [e1]; omega
  | ⟨2, _⟩ => show (j 2).val = win0_6.index t 2 * 256 + 1 * (j 2).val; rw [e2]; omega

/-- What the array of the maximum over w ends holding: at `(c, h, z)` the maximum over w of the voxel mean. -/
abbrev G6 (idx : IVec ⟨2, ![262144, 1]⟩ 32) (feats : (⟨2, ![262144, 4]⟩ : Shape).Idx → EReal) : S4x256x256.Idx → EReal :=
  fun i => Cert.Spec.fmax (fun w : Fin 256 => Cert.Spec.mean idx feats (i 0) (i 1) w (i 2))

/-- WHAT POINT `t` WRITES BACK is block `t` of `G6`. -/
theorem flushed6_eq (idx : IVec ⟨2, ![262144, 1]⟩ 32) (feats : (⟨2, ![262144, 4]⟩ : Shape).Idx → EReal) (c : Dev nD)
    (hBlk : ∀ t : Fin cfg0.N, Cert.LinkMath.IsBlock idx feats t.val (iblk m c 0 t) (iblk m c 1 t) (iblk m c 2 t) (iblk m c 3 t) (iblk m c 4 t))
    (t : Fin cfg0.N) :
    (dats m 0 c).flushed 6 t = ((cfg0.win 6).blk t).view.read (Elt Ideal) (G6 idx feats) := by
  have ht : t.val < 16 := by have := t.isLt; have : cfg0.N = 16 := N_0; omega
  show (cfg0.win 6).cut (grid0.coords t) ((dats m 0 c).after 6 t) = _
  rw [after0_6, outs6]
  refine cut6_eq t _ _ fun c4 hl z => ?_
  exact Cert.LinkMath.link_pay3 (hBlk t) ht c4 hl z

/-- An index of the array is in point `t`'s block iff each coordinate is in the block's range on its axis. -/
theorem mem_blk6 (t : Fin cfg0.N) (i : S4x256x256.Idx) :
    i ∈ ((cfg0.win 6).blk t).view.set ↔ ∀ a : Fin 3, win0_6.index t a * S4x16x256.size a ≤ (i a).val ∧ (i a).val < win0_6.index t a * S4x16x256.size a + S4x16x256.size a := by
  show i ∈ ((View.whole main_v53_1).slice (win0_6.rect t)).set ↔ _
  rw [View.set_slice_whole, Rect.mem_set_unit]
  exact Iff.rfl

/-- Row `h` of the array is in the block of point `h / 16`, and every point writes its block back. -/
theorem cover6 (i : S4x256x256.Idx) : ∃ t : Fin cfg0.N, (cfg0.win 6).flush t = true ∧ i ∈ ((cfg0.win 6).blk t).view.set := by
  have hi0 : (i 0).val < 4 := (i 0).isLt
  have hi1 : (i 1).val < 256 := (i 1).isLt
  have hi2 : (i 2).val < 256 := (i 2).isLt
  have hN : cfg0.N = 16 := N_0
  obtain ⟨t, ht⟩ : ∃ t : Fin cfg0.N, t.val = (i 1).val / 16 := ⟨⟨(i 1).val / 16, by rw [hN]; omega⟩, rfl⟩
  obtain ⟨e0, e1, e2⟩ := idxOut6 t
  refine ⟨t, flush0_6 t, ?_⟩
  rw [mem_blk6]
  intro a
  match a with
  | ⟨0, _⟩ => show win0_6.index t 0 * 4 ≤ (i 0).val ∧ (i 0).val < win0_6.index t 0 * 4 + 4; rw [e0]; omega
  | ⟨1, _⟩ => show win0_6.index t 1 * 16 ≤ (i 1).val ∧ (i 1).val < win0_6.index t 1 * 16 + 16; rw [e1, ht]; omega
  | ⟨2, _⟩ => show win0_6.index t 2 * 256 ≤ (i 2).val ∧ (i 2).val < win0_6.index t 2 * 256 + 256; rw [e2]; omega

/-- **THE ARRAY of the maximum over w after the run.** -/
theorem final6 (idx : IVec ⟨2, ![262144, 1]⟩ 32) (feats : (⟨2, ![262144, 4]⟩ : Shape).Idx → EReal) (c : Dev nD)
    (hBlk : ∀ t : Fin cfg0.N, Cert.LinkMath.IsBlock idx feats t.val (iblk m c 0 t) (iblk m c 1 t) (iblk m c 2 t) (iblk m c 3 t) (iblk m c 4 t)) :
    (dats m 0 c).arrAt 6 cfg0.N
      = (fun i => Cert.Spec.fmax (fun w : Fin 256 => Cert.Spec.mean idx feats (i 0) (i 1) w (i 2)) : S4x256x256.Idx → EReal) :=
  (dats m 0 c).arrAt_eq_of_cover 6 (G6 idx feats) (fun t _ => flushed6_eq m idx feats c hBlk t) cover6

/-! ## The maximum over z -/

/-- The block of the maximum over z that point `t` writes is rows `16 t …` (decided over the grid). -/
theorem idxOut7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)

/-- A `[4,16,256]` block that is rows `16 t + hl` of a function of the array's index, cut to the window's block, is that
    function read through point `t`'s block. -/
theorem cut7_eq (t : Fin cfg0.N) (P : Vec Ideal S4x16x256 .f32) (Gf : S4x256x256.Idx → EReal)
    (h : ∀ (c4 : Fin 4) (hl : Fin 16) (w : Fin 256),
      P (ix3 c4 hl w) = Gf (ix3 c4 (⟨t.val * 16 + hl.val, by have := t.isLt; have : cfg0.N = 16 := N_0; have := hl.isLt; omega⟩ : Fin 256) w)) :
    (cfg0.win 7).cut (grid0.coords t) P = ((cfg0.win 7).blk t).view.read (Elt Ideal) Gf := by
  obtain ⟨e0, e1, e2⟩ := idxOut7 t
  funext j
  rw [View.read_apply]
  have hj0 : (j 0).val < 4 := (j 0).isLt
  have hj1 : (j 1).val < 16 := (j 1).isLt
  have hj2 : (j 2).val < 256 := (j 2).isLt
  have ej : (cfg0.win 7).xinj (grid0.coords t) j
      = ix3 (⟨(j 0).val, hj0⟩ : Fin 4) (⟨(j 1).val, hj1⟩ : Fin 16) (⟨(j 2).val, hj2⟩ : Fin 256) := by
    funext a
    match a with
    | ⟨0, _⟩ => rfl
    | ⟨1, _⟩ => rfl
    | ⟨2, _⟩ => rfl
  show P ((cfg0.win 7).xinj (grid0.coords t) j) = Gf (((cfg0.win 7).blk t).view.emb j)
  rw [ej, h]
  congr 1
  funext a
  apply Fin.ext
  match a with
  | ⟨0, _⟩ => show (j 0).val = win0_7.index t 0 * 4 + 1 * (j 0).val; rw [e0]; omega
  | ⟨1, _⟩ => show t.val * 16 + (j 1).val = win0_7.index t 1 * 16 + 1 * (j 1).val; rw [e1]; omega
  | ⟨2, _⟩ => show (j 2).val = win0_7.index t 2 * 256 + 1 * (j 2).val; rw [e2]; omega

/-- What the array of the maximum over z ends holding: at `(c, h, w)` the maximum over z of the voxel mean. -/
abbrev G7 (idx : IVec ⟨2, ![262144, 1]⟩ 32) (feats : (⟨2, ![262144, 4]⟩ : Shape).Idx → EReal) : S4x256x256.Idx → EReal :=
  fun i => Cert.Spec.fmax (fun z : Fin 256 => Cert.Spec.mean idx feats (i 0) (i 1) (i 2) z)

/-- WHAT POINT `t` WRITES BACK is block `t` of `G7`. -/
theorem flushed7_eq (idx : IVec ⟨2, ![262144, 1]⟩ 32) (feats : (⟨2, ![262144, 4]⟩ : Shape).Idx → EReal) (c : Dev nD)
    (hBlk : ∀ t : Fin cfg0.N, Cert.LinkMath.IsBlock idx feats t.val (iblk m c 0 t) (iblk m c 1 t) (iblk m c 2 t) (iblk m c 3 t) (iblk m c 4 t))
    (t : Fin cfg0.N) :
    (dats m 0 c).flushed 7 t = ((cfg0.win 7).blk t).view.read (Elt Ideal) (G7 idx feats) := by
  have ht : t.val < 16 := by have := t.isLt; have : cfg0.N = 16 := N_0; omega
  show (cfg0.win 7).cut (grid0.coords t) ((dats m 0 c).after 7 t) = _
  rw [after0_7, outs7]
  refine cut7_eq t _ _ fun c4 hl w => ?_
  exact Cert.LinkMath.link_pay4 (hBlk t) ht c4 hl w

/-- An index of the array is in point `t`'s block iff each coordinate is in the block's range on its axis. -/
theorem mem_blk7 (t : Fin cfg0.N) (i : S4x256x256.Idx) :
    i ∈ ((cfg0.win 7).blk t).view.set ↔ ∀ a : Fin 3, win0_7.index t a * S4x16x256.size a ≤ (i a).val ∧ (i a).val < win0_7.index t a * S4x16x256.size a + S4x16x256.size a := by
  show i ∈ ((View.whole main_v53_2).slice (win0_7.rect t)).set ↔ _
  rw [View.set_slice_whole, Rect.mem_set_unit]
  exact Iff.rfl

/-- Row `h` of the array is in the block of point `h / 16`, and every point writes its block back. -/
theorem cover7 (i : S4x256x256.Idx) : ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 256 := (i 2).isLt
  have hN : cfg0.N = 16 := N_0
  obtain ⟨t, ht⟩ : ∃ t : Fin cfg0.N, t.val = (i 1).val / 16 := ⟨⟨(i 1).val / 16, by rw [hN]; omega⟩, rfl⟩
  obtain ⟨e0, e1, e2⟩ := idxOut7 t
  refine ⟨t, flush0_7 t, ?_⟩
  rw [mem_blk7]
  intro a
  match a with
  | ⟨0, _⟩ => show win0_7.index t 0 * 4 ≤ (i 0).val ∧ (i 0).val < win0_7.index t 0 * 4 + 4; rw [e0]; omega
  | ⟨1, _⟩ => show win0_7.index t 1 * 16 ≤ (i 1).val ∧ (i 1).val < win0_7.index t 1 * 16 + 16; rw [e1, ht]; omega
  | ⟨2, _⟩ => show win0_7.index t 2 * 256 ≤ (i 2).val ∧ (i 2).val < win0_7.index t 2 * 256 + 256; rw [e2]; omega

/-- **THE ARRAY of the maximum over z after the run.** -/
theorem final7 (idx : IVec ⟨2, ![262144, 1]⟩ 32) (feats : (⟨2, ![262144, 4]⟩ : Shape).Idx → EReal) (c : Dev nD)
    (hBlk : ∀ t : Fin cfg0.N, Cert.LinkMath.IsBlock idx feats t.val (iblk m c 0 t) (iblk m c 1 t) (iblk m c 2 t) (iblk m c 3 t) (iblk m c 4 t)) :
    (dats m 0 c).arrAt 7 cfg0.N
      = (fun i => Cert.Spec.fmax (fun z : Fin 256 => Cert.Spec.mean idx feats (i 0) (i 1) (i 2) z) : S4x256x256.Idx → EReal) :=
  (dats m 0 c).arrAt_eq_of_cover 7 (G7 idx feats) (fun t _ => flushed7_eq m idx feats c hBlk t) cover7

end Cert.KernelIdeal.Val

end
-- ==== Proof.TailMath.lean ====
/-
  THE LINES AFTER THE REGION, INDEX BY INDEX.

  The two halves' h-maxima are joined by a maximum from minus infinity; each of the three projections gets a leading unit
  axis; the three are stacked: slab 0 the maximum over h, slab 1 over w, slab 2 over z.
-/
import proofs.«135331_j13778255086206_2_alg».proof.Proof.Gen.KernelIdeal
import proofs.«135331_j13778255086206_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.TailMath

open Idealize.ShloMosaic Idealize.ShloMosaic.ValueIdx
open Cert.KernelIdeal Cert.KernelIdeal.Facts₀

/-- The host lines after the region, as one function of the region's three results. -/
def tailFn (P0 : FVec Ideal S2x4x256x256 .f32) (P1 P2 : FVec Ideal S4x256x256 .f32) : FVec Ideal S3x4x256x256 .f32 :=
  concatenate S3x4x256x256 0
    [⟨S1x4x256x256, broadcastInDim S1x4x256x256 ![1, 2, 3] bcast_S4x256x256_S1x4x256x256_1_2_3
        (Host.reduce (FloatOps.maximumf (F := Ideal)) P0 (constant (F := Ideal) S_ .f32 0xFF800000#32)
          reducesTo_S2x4x256x256_S4x256x256_d0 h_S_)⟩,
     ⟨S1x4x256x256, broadcastInDim S1x4x256x256 ![1, 2, 3] bcast_S4x256x256_S1x4x256x256_1_2_3 P1⟩,
     ⟨S1x4x256x256, broadcastInDim S1x4x256x256 ![1, 2, 3] bcast_S4x256x256_S1x4x256x256_1_2_3 P2⟩]
    concatenates_S1x4x256x256_S1x4x256x256_S1x4x256x256_S3x4x256x256_d0

section Pieces
variable {α : Type}

/-- Slab 0 of a stack of three `[1,4,256,256]` pieces is the first piece. -/
theorem concat3_apply0 (y0 y1 y2 : S1x4x256x256.Idx → α)
    (h : Shape.Concatenates [S1x4x256x256, S1x4x256x256, S1x4x256x256] S3x4x256x256 0) (c : Fin 4) (a b : Fin 256) :
    concatenate S3x4x256x256 0 [⟨S1x4x256x256, y0⟩, ⟨S1x4x256x256, y1⟩, ⟨S1x4x256x256, y2⟩] h (ix4 (0 : Fin 3) c a b)
      = y0 (ix4 (0 : Fin 1) c a b) :=
  concatenate_apply_piece (t := S3x4x256x256) (0 : Fin 4) [⟨S1x4x256x256, y0⟩, ⟨S1x4x256x256, y1⟩, ⟨S1x4x256x256, y2⟩] h _ 0
    (by show 0 < 3; omega) S1x4x256x256 y0 rfl rfl 0 rfl (ix4 (0 : Fin 1) c a b)
    (fun d hd => match d with | ⟨0, _⟩ => absurd rfl hd | ⟨1, _⟩ => rfl | ⟨2, _⟩ => rfl | ⟨3, _⟩ => rfl) rfl

/-- Slab 1 is the second piece. -/
theorem concat3_apply1 (y0 y1 y2 : S1x4x256x256.Idx → α)
    (h : Shape.Concatenates [S1x4x256x256, S1x4x256x256, S1x4x256x256] S3x4x256x256 0) (c : Fin 4) (a b : Fin 256) :
    concatenate S3x4x256x256 0 [⟨S1x4x256x256, y0⟩, ⟨S1x4x256x256, y1⟩, ⟨S1x4x256x256, y2⟩] h (ix4 (1 : Fin 3) c a b)
      = y1 (ix4 (0 : Fin 1) c a b) :=
  concatenate_apply_piece (t := S3x4x256x256) (0 : Fin 4) [⟨S1x4x256x256, y0⟩, ⟨S1x4x256x256, y1⟩, ⟨S1x4x256x256, y2⟩] h _ 1
    (by show 1 < 3; omega) S1x4x256x256 y1 rfl rfl 1 rfl (ix4 (0 : Fin 1) c a b)
    (fun d hd => match d with | ⟨0, _⟩ => absurd rfl hd | ⟨1, _⟩ => rfl | ⟨2, _⟩ => rfl | ⟨3, _⟩ => rfl) rfl

/-- Slab 2 is the third piece. -/
theorem concat3_apply2 (y0 y1 y2 : S1x4x256x256.Idx → α)
    (h : Shape.Concatenates [S1x4x256x256, S1x4x256x256, S1x4x256x256] S3x4x256x256 0) (c : Fin 4) (a b : Fin 256) :
    concatenate S3x4x256x256 0 [⟨S1x4x256x256, y0⟩, ⟨S1x4x256x256, y1⟩, ⟨S1x4x256x256, y2⟩] h (ix4 (2 : Fin 3) c a b)
      = y2 (ix4 (0 : Fin 1) c a b) :=
  concatenate_apply_piece (t := S3x4x256x256) (0 : Fin 4) [⟨S1x4x256x256, y0⟩, ⟨S1x4x256x256, y1⟩, ⟨S1x4x256x256, y2⟩] h _ 2
    (by show 2 < 3; omega) S1x4x256x256 y2 rfl rfl 2 rfl (ix4 (0 : Fin 1) c a b)
    (fun d hd => match d with | ⟨0, _⟩ => absurd rfl hd | ⟨1, _⟩ => rfl | ⟨2, _⟩ => rfl | ⟨3, _⟩ => rfl) rfl

/-- A `[4,256,256]` array given a leading unit axis reads, at `(0, c, a, b)`, the array at `(c, a, b)`. -/
theorem bcastUnit_apply (x : S4x256x256.Idx → α)
    (h : S4x256x256.BroadcastsInDim S1x4x256x256 (![1, 2, 3] : Fin 3 → Fin S1x4x256x256.rank)) (u : Fin 1) (c : Fin 4) (a b : Fin 256) :
    broadcastInDim S1x4x256x256 ![1, 2, 3] h x (ix4 u c a b) = x (ix3 c a b) :=
  broadcastInDim_apply _ h x _ _ fun d => match d with
    | ⟨0, _⟩ => rfl
    | ⟨1, _⟩ => rfl
    | ⟨2, _⟩ => rfl

end Pieces

/-- The reduced index `(c, a, b)` with half `k` put back on axis 0 is `(k, c, a, b)`. -/
theorem lift0_ix4 (h : S2x4x256x256.Reduces [0] S4x256x256) (c : Fin 4) (a b : Fin 256) (k : Fin (S2x4x256x256.size 0)) :
    h.lift (ix3 c a b) k = ix4 (⟨k.val, k.isLt⟩ : Fin 2) c a b := by
  funext d; apply Fin.ext
  match d with
  | ⟨0, _⟩ => rfl
  | ⟨1, _⟩ => rfl
  | ⟨2, _⟩ => rfl
  | ⟨3, _⟩ => rfl

/-- The host's maximum over the two halves, from minus infinity. -/
theorem hostMax_apply (P0 : FVec Ideal S2x4x256x256 .f32) (h' : S2x4x256x256.ReducesTo [0] S4x256x256) (hu : 0 < S_.numel)
    (c : Fin 4) (a b : Fin 256) :
    Host.reduce (FloatOps.maximumf (F := Ideal)) P0 (constant (F := Ideal) S_ .f32 0xFF800000#32) h' hu (ix3 c a b)
      = Cert.Spec.fmax (fun j : Fin 2 => P0 (ix4 j c a b)) := by
  have h : S2x4x256x256.Reduces [0] S4x256x256 := by decide
  rw [Host.reduce_eq_fold_single FloatOps.maximumf P0 _ h' h hu]
  have hf : (P0 ∘ h.lift (ix3 c a b)) = fun k : Fin 2 => P0 (ix4 k c a b) :=
    funext fun k => congrArg P0 (lift0_ix4 h c a b k)
  exact congrArg (fun f => Finset.fold max (Ideal.ofBits .f32 0xFF800000#32) f (Finset.univ : Finset (Fin 2))) hf

/-- **Slab 0**: the maximum over the two halves of the h-maximum. -/
theorem tailFn_apply0 (P0 : FVec Ideal S2x4x256x256 .f32) (P1 P2 : FVec Ideal S4x256x256 .f32) (c : Fin 4) (a b : Fin 256) :
    tailFn P0 P1 P2 (ix4 (0 : Fin 3) c a b) = Cert.Spec.fmax (fun j : Fin 2 => P0 (ix4 j c a b)) := by
  unfold tailFn
  refine (concat3_apply0 _ _ _ _ c a b).trans ?_
  refine (bcastUnit_apply _ _ 0 c a b).trans ?_
  exact hostMax_apply P0 _ _ c a b

/-- **Slab 1**: the maximum over w. -/
theorem tailFn_apply1 (P0 : FVec Ideal S2x4x256x256 .f32) (P1 P2 : FVec Ideal S4x256x256 .f32) (c : Fin 4) (a b : Fin 256) :
    tailFn P0 P1 P2 (ix4 (1 : Fin 3) c a b) = P1 (ix3 c a b) := by
  unfold tailFn
  refine (concat3_apply1 _ _ _ _ c a b).trans ?_
  exact bcastUnit_apply P1 _ 0 c a b

/-- **Slab 2**: the maximum over z. -/
theorem tailFn_apply2 (P0 : FVec Ideal S2x4x256x256 .f32) (P1 P2 : FVec Ideal S4x256x256 .f32) (c : Fin 4) (a b : Fin 256) :
    tailFn P0 P1 P2 (ix4 (2 : Fin 3) c a b) = P2 (ix3 c a b) := by
  unfold tailFn
  refine (concat3_apply2 _ _ _ _ c a b).trans ?_
  exact bcastUnit_apply P2 _ 0 c a b

end Cert.TailMath

end
-- ==== Proof.TailRun.lean ====
/-
  THE HOST LINES AFTER THE REGION, READ BACK.

  Six array operations follow the region: a minus-infinity constant, the maximum of the first result over its two
  halves from that constant, a leading unit axis given to that maximum and to the other two results, and the stack of
  the three. From any buffer contents, the result buffer afterwards holds these operations' composition applied to
  what the region's three result buffers held.
-/
import proofs.«135331_j13778255086206_2_alg».proof.Proof.Gen.KernelIdeal.Launch
import proofs.«135331_j13778255086206_2_alg».proof.Proof.TailMath
import Idealize.ShloMosaic.Lib.StableHlo.Run

noncomputable section

namespace Cert.TailRun

open Cert.KernelIdeal Cert.KernelIdeal.Gen Idealize.ShloMosaic Idealize.ShloMosaic.TcCoe Idealize.ShloMosaic.StableHlo

variable {F : FTy → Type} [FloatOps F]

/-- The first five operations after the region, in order. -/
abbrev ops5 : List (HloOp τ sig (Elt F)) :=
  [ nullary main_cst_10 (constant S_ .f32 0xFF800000#32),
    binary main_v53_0 main_cst_10 main_v54 ((fun x v => Host.reduce FloatOps.maximumf x v reducesTo_S2x4x256x256_S4x256x256_d0 h_S_) : (⟨S2x4x256x256, .f32⟩ : BufTy).Contents (Elt F) → (⟨S_, .f32⟩ : BufTy).Contents (Elt F) → (⟨S4x256x256, .f32⟩ : BufTy).Contents (Elt F)),
    unary main_v54 main_v55 (broadcastInDim S1x4x256x256 ![1, 2, 3] bcast_S4x256x256_S1x4x256x256_1_2_3 : (⟨S4x256x256, .f32⟩ : BufTy).Contents (Elt F) → (⟨S1x4x256x256, .f32⟩ : BufTy).Contents (Elt F)),
    unary main_v53_1 main_v56 (broadcastInDim S1x4x256x256 ![1, 2, 3] bcast_S4x256x256_S1x4x256x256_1_2_3 : (⟨S4x256x256, .f32⟩ : BufTy).Contents (Elt F) → (⟨S1x4x256x256, .f32⟩ : BufTy).Contents (Elt F)),
    unary main_v53_2 main_v57 (broadcastInDim S1x4x256x256 ![1, 2, 3] bcast_S4x256x256_S1x4x256x256_1_2_3 : (⟨S4x256x256, .f32⟩ : BufTy).Contents (Elt F) → (⟨S1x4x256x256, .f32⟩ : BufTy).Contents (Elt F)) ]

/-- The last operation: the three pieces stacked along axis 0. -/
abbrev opLast : HloOp τ sig (Elt F) :=
  nary ![main_v55, main_v56, main_v57] main_v58 (fun u => concatenate S3x4x256x256 0 [⟨S1x4x256x256, u 0⟩, ⟨S1x4x256x256, u 1⟩, ⟨S1x4x256x256, u 2⟩] concatenates_S1x4x256x256_S1x4x256x256_S1x4x256x256_S3x4x256x256_d0)

/-- The whole fold is the last operation's result over the fold of the first five. -/
theorem after_ops (W : Valuation τ sig (Elt Ideal)) :
    after (hostOps1 (F := Ideal)) W = (opLast (F := Ideal)).result (after (ops5 (F := Ideal)) W) := rfl

/-- After the first five operations the first stacked buffer holds the maximum over the halves, with a unit axis. -/
theorem after5_v55 (W : Valuation τ sig (Elt Ideal)) :
    (after (ops5 (F := Ideal)) W (Proc.devRef .tc main_v55) : S1x4x256x256.Idx → EReal) =
      broadcastInDim S1x4x256x256 ![1, 2, 3] bcast_S4x256x256_S1x4x256x256_1_2_3
        (Host.reduce (FloatOps.maximumf (F := Ideal)) (W (Proc.devRef .tc main_v53_0) : S2x4x256x256.Idx → EReal)
          (constant (F := Ideal) S_ .f32 0xFF800000#32) reducesTo_S2x4x256x256_S4x256x256_d0 h_S_) := by
  after_results_simp <;> rfl

/-- The second holds the region's second result with a unit axis. -/
theorem after5_v56 (W : Valuation τ sig (Elt Ideal)) :
    (after (ops5 (F := Ideal)) W (Proc.devRef .tc main_v56) : S1x4x256x256.Idx → EReal) =
      broadcastInDim S1x4x256x256 ![1, 2, 3] bcast_S4x256x256_S1x4x256x256_1_2_3
        (W (Proc.devRef .tc main_v53_1) : S4x256x256.Idx → EReal) := by
  after_results_simp <;> rfl

/-- The third holds the region's third result with a unit axis. -/
theorem after5_v57 (W : Valuation τ sig (Elt Ideal)) :
    (after (ops5 (F := Ideal)) W (Proc.devRef .tc main_v57) : S1x4x256x256.Idx → EReal) =
      broadcastInDim S1x4x256x256 ![1, 2, 3] bcast_S4x256x256_S1x4x256x256_1_2_3
        (W (Proc.devRef .tc main_v53_2) : S4x256x256.Idx → EReal) := by
  after_results_simp <;> rfl

/-- AFTER THE SIX OPERATIONS the result buffer holds their composition applied to the region's three results. -/
theorem tail_v58 (W : Valuation τ sig (Elt Ideal)) :
    (after (hostOps1 (F := Ideal)) W (Proc.devRef .tc main_v58) : S3x4x256x256.Idx → EReal) =
      Cert.TailMath.tailFn (W (Proc.devRef .tc main_v53_0) : S2x4x256x256.Idx → EReal)
        (W (Proc.devRef .tc main_v53_1) : S4x256x256.Idx → EReal)
        (W (Proc.devRef .tc main_v53_2) : S4x256x256.Idx → EReal) := by
  rw [after_ops]
  unfold opLast
  rw [nary_result]
  show concatenate S3x4x256x256 0
      [⟨S1x4x256x256, after (ops5 (F := Ideal)) W (Proc.devRef .tc main_v55)⟩,
       ⟨S1x4x256x256, after (ops5 (F := Ideal)) W (Proc.devRef .tc main_v56)⟩,
       ⟨S1x4x256x256, after (ops5 (F := Ideal)) W (Proc.devRef .tc main_v57)⟩]
      concatenates_S1x4x256x256_S1x4x256x256_S1x4x256x256_S3x4x256x256_d0 = _
  rw [after5_v55, after5_v56, after5_v57]
  rfl

end Cert.TailRun

end
-- ==== Proof.KernelIdealValueD.lean ====
/-
  THE KERNEL'S RESULT. After the region its three result arrays hold, slab by slab of each half, the maximum of the voxel
  mean over the half's rows, and the maxima over w and over z; the lines after the region join the two halves by a
  maximum from minus infinity — the maximum over all 256 rows, regrouped block by block — and stack the three
  projections. So the result buffer ends holding the specification's result array, and the two argument arrays end as
  they started.
-/
import proofs.«135331_j13778255086206_2_alg».proof.Proof.KernelIdealValueC
import proofs.«135331_j13778255086206_2_alg».proof.Proof.KernelIdealValueB
import proofs.«135331_j13778255086206_2_alg».proof.Proof.TailRun
import proofs.«135331_j13778255086206_2_alg».proof.Proof.TailMath
import proofs.«135331_j13778255086206_2_alg».proof.Proof.MaxMath

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

open Cert.Spec Cert.MaxMath Cert.LinkMath

/-- WHAT THE RESULT BUFFER HOLDS after the lines that follow the region: the specification's result array. -/
theorem tail_value (c : Dev nD) :
    (Pipeline.afterTail₀ cfgs (dats m) 0 (V0 m) [hostOps1] c main_v58 : S3x4x256x256.Idx → EReal) =
      Cert.Spec.out (kidx m c) (kfeats m c) := by
  have e5 := (Pipeline.withArrays_arr spec0 launch0.win.arr_inj c (V0 m c)
    (fun w => (dats m 0 c).arrAt w cfg0.N) 5).trans (final5 m c)
  have e6 := (Pipeline.withArrays_arr spec0 launch0.win.arr_inj c (V0 m c)
    (fun w => (dats m 0 c).arrAt w cfg0.N) 6).trans (final6 m (kidx m c) (kfeats m c) c (isBlock m c))
  have e7 := (Pipeline.withArrays_arr spec0 launch0.win.arr_inj c (V0 m c)
    (fun w => (dats m 0 c).arrAt w cfg0.N) 7).trans (final7 m (kidx m c) (kfeats m c) c (isBlock m c))
  unfold Pipeline.afterTail₀
  show StableHlo.after (hostOps1 (F := Ideal)) _ (Proc.devRef .tc main_v58) = _
  rw [Cert.TailRun.tail_v58, e5, e6, e7]
  funext i
  obtain ⟨s, c4, a, b, rfl⟩ : ∃ (s : Fin 3) (c4 : Fin 4) (a b : Fin 256), i = ix4 s c4 a b :=
    ⟨i 0, i 1, i 2, i 3, eq_ix4 i⟩
  rw [Cert.Spec.out_ix4]
  match s with
  | ⟨0, _⟩ =>
    refine (Cert.TailMath.tailFn_apply0 _ _ _ c4 a b).trans ?_
    show fmax (fun j : Fin 2 => accmax (meanH (kidx m c) (kfeats m c) c4 a b) j.val 7) = _
    exact (fmax_regroup _).symm
  | ⟨1, _⟩ => exact Cert.TailMath.tailFn_apply1 _ _ _ c4 a b
  | ⟨2, _⟩ => exact Cert.TailMath.tailFn_apply2 _ _ _ c4 a b

/-- THE RUN, READ AS A VALUE: from any memory with zero counters every weakly fair execution of the program ends with
    the result buffer at the specification's result array of the voxel numbers and the features, and the two argument
    arrays as they started. -/
theorem run : θ_run defs (onTc (τ := τ) (main (F := Ideal))) ⟨m, fun _ => 0, ρ⟩ (fun r => ∀ c : Dev nD,
      r.2.mem ((c.tc : Thread nD τ).loc main_v58) = Cert.Spec.out (kidx m c) (kfeats m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v58 (Pipeline.mem_restRefs_of main_v58 (by decide) (by decide))).trans (tail_value m c),
     ((h c).2 main_arg0 (Pipeline.mem_restRefs_of main_arg0 (by decide) (by decide))).trans (W_main_arg0 m c),
     ((h c).2 main_arg1 (Pipeline.mem_restRefs_of main_arg1 (by decide) (by decide))).trans (W_main_arg1 m c)⟩)
    (run_main m ρ)

end Cert.KernelIdeal.Val

end
-- ==== Proof.RefStages.lean ====
/-
  THE REFERENCE PROGRAM, STAGE BY STAGE, AS FUNCTIONS OF ITS TWO ARGUMENTS.

  The first argument holds, per point, three coordinates in [0, 1) and a batch number; the second the point's four
  features. Each coordinate is multiplied by 256, rounded down, converted to a signed 32-bit integer and clipped to
  [0, 255]; the voxel number of the point is ((batch * 256 + x) * 256 + y) * 256 + z. The features are summed per
  voxel number, the points counted per voxel number, the sum divided by the count (taken at least one), the
  quotient re-laid as a [1, 256, 256, 256, 4] grid, and the maxima of the grid over each of its three spatial axes,
  channel axis moved to the front, are stacked.
-/
import proofs.«135331_j13778255086206_2_alg».proof.Proof.Gen.ReferenceIdeal
import proofs.«135331_j13778255086206_2_alg».proof.Proof.Spec
import Idealize.ShloMosaic.PureOps.Ideal
import Idealize.ShloMosaic.PureOps.ShapeOps
import Idealize.ShloMosaic.PureOps.Contract
import Idealize.ShloMosaic.PureOps.Reduce

noncomputable section

namespace Cert.RefSide

open Cert.ReferenceIdeal Cert.ReferenceIdeal.Gen Idealize.ShloMosaic

/-- The three voxel coordinates of every point: the coordinate times 256, rounded down, as a signed integer,
    clipped below by 0 and above by 255. -/
def refClip (a0 : FVec Ideal S262144x4 .f32) : IVec S262144x3 32 :=
  minsi (broadcastInDim S262144x3 ![] bcast_S_S262144x3 (id (constantI S_ 32 255#32)))
    (maxsi (broadcastInDim S262144x3 ![] bcast_S_S262144x3 (id (constantI S_ 32 0#32)))
      (fptosi 32 (Host.floor (mulf (extractStridedSlice S262144x3 ![0, 0] a0 slices_S262144x4_S262144x3_0_0)
        (broadcastInDim S262144x3 ![] bcast_S_S262144x3 (constant (F := Ideal) S_ .f32 0x43800000#32))))))

/-- The voxel number of every point, as a [262144, 1] array of signed 32-bit words:
    ((batch * 256 + x) * 256 + y) * 256 + z over the clipped coordinates, in wrapping arithmetic. -/
def refIdx (a0 : FVec Ideal S262144x4 .f32) : IVec ⟨2, ![262144, 1]⟩ 32 :=
  broadcastInDim S262144x1 ![0] bcast_S262144_S262144x1_0
    (addi (muli (addi (muli (addi (muli
      (fptosi 32 (shapeCast S262144 (extractStridedSlice S262144x1 ![0, 3] a0 slices_S262144x4_S262144x1_0_3) shapeCasts_S262144x1_S262144))
      (broadcastInDim S262144 ![] bcast_S_S262144 (constantI S_ 32 256#32)))
      (shapeCast S262144 (extractStridedSlice S262144x1 ![0, 0] (refClip a0) slices_S262144x3_S262144x1_0_0) shapeCasts_S262144x1_S262144))
      (broadcastInDim S262144 ![] bcast_S_S262144 (constantI S_ 32 256#32)))
      (shapeCast S262144 (extractStridedSlice S262144x1 ![0, 1] (refClip a0) slices_S262144x3_S262144x1_0_1) shapeCasts_S262144x1_S262144))
      (broadcastInDim S262144 ![] bcast_S_S262144 (constantI S_ 32 256#32)))
      (shapeCast S262144 (extractStridedSlice S262144x1 ![0, 2] (refClip a0) slices_S262144x3_S262144x1_0_2) shapeCasts_S262144x1_S262144))

/-- The per-voxel sums of the four features: the rows of the second argument added into a zero [16777216, 4] array at
    the rows the voxel numbers name. -/
def refSums (a0 a1 : FVec Ideal S262144x4 .f32) : FVec Ideal S16777216x4 .f32 :=
  Host.scatterAdd scatter_S16777216x4_S262144x1_S262144x4_1_0_0_1
    (broadcastInDim S16777216x4 ![] bcast_S_S16777216x4 (constant (F := Ideal) S_ .f32 0x00000000#32)) (refIdx a0) a1

/-- The per-voxel counts: a one per point added into a zero [16777216, 1] array at the rows the voxel numbers name. -/
def refCnt (a0 : FVec Ideal S262144x4 .f32) : FVec Ideal S16777216x1 .f32 :=
  Host.scatterAdd scatter_S16777216x1_S262144x1_S262144x1_1_0_0_1
    (broadcastInDim S16777216x1 ![] bcast_S_S16777216x1 (constant (F := Ideal) S_ .f32 0x00000000#32)) (refIdx a0)
    (broadcastInDim S262144x1 ![] bcast_S_S262144x1 (constant (F := Ideal) S_ .f32 0x3F800000#32))

/-- The per-voxel means, [16777216, 4]: the sums over the counts, each count taken at least one. -/
def refMean (a0 a1 : FVec Ideal S262144x4 .f32) : FVec Ideal S16777216x4 .f32 :=
  Host.divf (refSums a0 a1)
    (broadcastInDim S16777216x4 ![0, 1] bcast_S16777216x1_S16777216x4_0_1
      (maximumf (refCnt a0) (broadcastInDim S16777216x1 ![] bcast_S_S16777216x1 (constant (F := Ideal) S_ .f32 0x3F800000#32))))

/-- The means as a [1, 256, 256, 256, 4] grid. -/
def refGrid (a0 a1 : FVec Ideal S262144x4 .f32) : FVec Ideal S1x256x256x256x4 .f32 :=
  shapeCast S1x256x256x256x4 (refMean a0 a1) shapeCasts_S16777216x4_S1x256x256x256x4

/-- The maximum of the grid over its first spatial axis, from minus infinity, channel axis moved to position 1. -/
def refProj1 (a0 a1 : FVec Ideal S262144x4 .f32) : FVec Ideal S1x4x256x256 .f32 :=
  transpose S1x4x256x256 [0, 3, 1, 2]
    (Host.reduce FloatOps.maximumf (refGrid a0 a1) (constant (F := Ideal) S_ .f32 0xFF800000#32)
      reducesTo_S1x256x256x256x4_S1x256x256x4_d1 h_S_) transposes_S1x256x256x4_S1x4x256x256_0_3_1_2

/-- The maximum of the grid over its second spatial axis. -/
def refProj2 (a0 a1 : FVec Ideal S262144x4 .f32) : FVec Ideal S1x4x256x256 .f32 :=
  transpose S1x4x256x256 [0, 3, 1, 2]
    (Host.reduce FloatOps.maximumf (refGrid a0 a1) (constant (F := Ideal) S_ .f32 0xFF800000#32)
      reducesTo_S1x256x256x256x4_S1x256x256x4_d2 h_S_) transposes_S1x256x256x4_S1x4x256x256_0_3_1_2

/-- The maximum of the grid over its third spatial axis. -/
def refProj3 (a0 a1 : FVec Ideal S262144x4 .f32) : FVec Ideal S1x4x256x256 .f32 :=
  transpose S1x4x256x256 [0, 3, 1, 2]
    (Host.reduce FloatOps.maximumf (refGrid a0 a1) (constant (F := Ideal) S_ .f32 0xFF800000#32)
      reducesTo_S1x256x256x256x4_S1x256x256x4_d3 h_S_) transposes_S1x256x256x4_S1x4x256x256_0_3_1_2

/-- The result: the three projections stacked along axis 0. -/
def refOut (a0 a1 : FVec Ideal S262144x4 .f32) : FVec Ideal S3x4x256x256 .f32 :=
  concatenate S3x4x256x256 0
    [⟨S1x4x256x256, refProj1 a0 a1⟩, ⟨S1x4x256x256, refProj2 a0 a1⟩, ⟨S1x4x256x256, refProj3 a0 a1⟩]
    concatenates_S1x4x256x256_S1x4x256x256_S1x4x256x256_S3x4x256x256_d0

end Cert.RefSide

end
-- ==== Proof.LibScatterRows.lean ====
/-
  SCATTERS OF ROWS, READ INDEX BY INDEX.

  A scatter takes an operand array, an array of scatter indices and an array of updates; every update element
  has a LANDING INDEX in the operand: on each operand axis, a start read off the scatter indices as a SIGNED
  integer and NOT clamped, plus the element's coordinate inside its window. An update whose landing index
  leaves the operand on some axis is dropped. This file computes the landing index for three families of
  dimension numbers and reads the scatter's result at one index.

  1. ROWS INTO A MATRIX. Operand `x : [N, K]`, scatter indices `idx : [E, 1]`, updates `upd : [E, K]`; the update's
     axis 1 is the window axis, the operand's axis 0 is the scattered (and inserted) axis, the index vector is
     the indices' axis 1. Update element `(e, k)` lands at `(idx[e, 0], k)`, and is dropped when `idx[e, 0]` is
     outside `[0, N)` (`resultIdx?_row`). So the accumulating scatter over the extended reals is, at `(r, k)`,

         x[r, k] + ∑ e, (if idx[e, 0] = r then upd[e, k] else 0)

     (`hostScatterAdd_row_apply`): column `k` of the result only sees column `k` of the operand and of the updates.
     In particular column 0 of the `K`-wide scatter is the 1-wide scatter of the two columns 0
     (`hostScatterAdd_row_col0`).

  2. A SCATTER THAT WRITES ("set": the body returns the update) whose landing indices are all inside the operand
     and pairwise distinct reads, at the landing index of update element `j`, that element
     (`scatter_set_apply`): among the update elements taken in row-major order only `j` itself touches that index.

  3. PADDING BY ONE SCATTER INDEX. A column `upd : [M, 1]` written into `x : [M, C]` at the column the single
     scatter index names (`padColDims`: both update axes are window axes, the operand's axis 1 is scattered):
     element `(k, 0)` lands at `(k, c)`, so the result at `(k, c)` is `upd[k, 0]` (`padCol_set_apply`; at the
     zero index, `padCol_set_zero`). And a single entry `upd : [1]` written into `x : [M]` at the position the
     single scatter index names (`padVecDims`): the result there is `upd[0]` (`padVec_set_apply`,
     `padVec_set_zero`).

  The conditions on each family's dimension numbers (`ScatterDims.WF`) are an argument `wf`: they are decided on
  the literal shapes of a program.
-/
import Idealize.ShloMosaic.Lib.ValueIdx
import Idealize.ShloMosaic.PureOps.Ideal
import Idealize.ShloMosaic.PureOps.ShapeOps

noncomputable section

open scoped BigOperators

namespace Cert.ScatterRows

open Idealize.ShloMosaic Idealize.ShloMosaic.ValueIdx

/-! ## 1. Rows into a matrix -/

/-- The dimension numbers of a scatter of rows: operand `[N, K]`, scatter indices `[E, 1]`, updates `[E, K]`;
    update window axis 1, inserted operand axis 0, the scatter index component goes to operand axis 0, the index
    vector is axis 1 of the indices. -/
abbrev rowScatterDims (N K E : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Rows
variable {N K E w : Nat} (wf : ScatterDims.WF ⟨2, ![N, K]⟩ ⟨2, ![E, 1]⟩ ⟨2, ![E, K]⟩ [1] [0] [0] 1)

/-- On the row axis the window of update element `j` starts at `idx[j₀, 0]`, read signed. -/
theorem start_row0 (j : (⟨2, ![E, K]⟩ : Shape).Idx) (idx : IVec ⟨2, ![E, 1]⟩ w) :
    (rowScatterDims N K E wf).start j idx 0 = (idx (ix2 (j 0) (0 : Fin 1))).toInt := by
  unfold ScatterDims.start
  rw [dif_pos (show (0 : Fin 2) ∈ (rowScatterDims N K E wf).scatterDimsToOperandDims from
    List.mem_singleton.mpr rfl)]
  have hsi : (rowScatterDims N K E wf).siIdx j
      ⟨List.idxOf (0 : Fin 2) (rowScatterDims N K E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi] <;> rfl

/-- On the column axis, which no scatter index component names, the window starts at `0`. -/
theorem start_row1 (j : (⟨2, ![E, K]⟩ : Shape).Idx) (idx : IVec ⟨2, ![E, 1]⟩ w) :
    (rowScatterDims N K E wf).start j idx 1 = 0 := by
  unfold ScatterDims.start
  rw [dif_neg (show ¬ (1 : Fin 2) ∈ ([0] : List (Fin 2)) by decide)]

/-- The row axis is inserted: the window coordinate on it is `0`. -/
theorem window_row0 (j : (⟨2, ![E, K]⟩ : Shape).Idx) : (rowScatterDims N K E wf).window j 0 = 0 := rfl

/-- On the column axis the window coordinate of update element `j` is its column `j₁`. -/
theorem window_row1 (j : (⟨2, ![E, K]⟩ : Shape).Idx) : (rowScatterDims N K E wf).window j 1 = (j 1).val := rfl

/-- THE LANDING INDEX OF A ROW SCATTER: update element `j = (e, k)` lands on operand index `i` exactly when
    `idx[e, 0]`, read signed and not clamped, is `i`'s row and `k` is `i`'s column. (When `idx[e, 0]` is outside
    `[0, N)` it lands nowhere: no `i` has that row.) -/
theorem resultIdx?_row (j : (⟨2, ![E, K]⟩ : Shape).Idx) (idx : IVec ⟨2, ![E, 1]⟩ w)
    (i : (⟨2, ![N, K]⟩ : Shape).Idx) :
    (rowScatterDims N K E wf).resultIdx? j idx = some i ↔
      ((idx (ix2 (j 0) (0 : Fin 1))).toInt = ((i 0).val : Int) ∧ (j 1).val = (i 1).val) := by
  have hs0 := start_row0 wf j idx
  have hs1 := start_row1 wf j idx
  have hw0 := window_row0 wf j
  have hw1 := window_row1 wf j
  have hi0 : (i 0).val < N := idx2_lt0 i
  have hi1 : (i 1).val < K := idx2_lt1 i
  have hj1 : (j 1).val < K := idx2_lt1 j
  have hN : (⟨2, ![N, K]⟩ : Shape).size 0 = N := rfl
  have hK : (⟨2, ![N, K]⟩ : Shape).size 1 = K := rfl
  unfold ScatterDims.resultIdx?
  split
  · -- the landing index is inside the operand: compare it with `i` coordinate by coordinate
    rename_i h
    rw [Option.some.injEq]
    have h0 := h 0
    rw [hs0, hw0] at h0
    constructor
    · intro hf
      have e0 := congrArg (fun f => (f 0).val) hf
      have e1 := congrArg (fun f => (f 1).val) hf
      simp only [hs0, hs1, hw0, hw1] at e0 e1
      constructor <;> omega
    · rintro ⟨e0, e1⟩
      funext a
      refine Fin.ext ?_
      match a with
      | ⟨0, _⟩ =>
        show ((rowScatterDims N K E wf).start j idx 0 + ((rowScatterDims N K E wf).window j 0 : Nat)).toNat
          = (i 0).val
        rw [hs0, hw0]; omega
      | ⟨1, _⟩ =>
        show ((rowScatterDims N K E wf).start j idx 1 + ((rowScatterDims N K E wf).window j 1 : Nat)).toNat
          = (i 1).val
        rw [hs1, hw1]; omega
  · -- it is outside: then `idx[e, 0]` is no row of the operand
    rename_i h
    constructor
    · intro hf; cases hf
    · rintro ⟨e0, e1⟩
      exfalso; apply h
      refine Fin.forall_fin_two.mpr ⟨?_, ?_⟩
      · rw [hs0, hw0, hN]; omega
      · rw [hs1, hw1, hK]; omega

/-- THE ACCUMULATING ROW SCATTER AT `(r, k)`, over the extended reals: the operand's element plus the sum, over
    the update rows `e` whose scatter index `idx[e, 0]` (signed, not clamped) is `r`, of `upd[e, k]`. -/
theorem hostScatterAdd_row_apply (x : (⟨2, ![N, K]⟩ : Shape).Idx → EReal) (idx : IVec ⟨2, ![E, 1]⟩ w)
    (upd : (⟨2, ![E, K]⟩ : Shape).Idx → EReal) (r : Fin N) (k : Fin K) :
    Ideal.hostScatterAdd (rowScatterDims N K E wf) x idx upd (ix2 r k) =
      x (ix2 r k) +
        ∑ e : Fin E, if (idx (ix2 e (0 : Fin 1))).toInt = (r.val : Int) then upd (ix2 e k) else 0 := by
  show x (ix2 r k) + ∑ j ∈ Finset.univ.filter
      (fun j => (rowScatterDims N K E wf).resultIdx? j idx = some (ix2 r k)), upd j = _
  congr 1
  -- the sum over the update elements that land on `(r, k)`, as a double sum over rows and columns
  rw [Finset.sum_filter, sum_idx2]
  refine Finset.sum_congr rfl fun e _ => ?_
  have key : ∀ b : Fin K, ((rowScatterDims N K E wf).resultIdx? (ix2 e b) idx = some (ix2 r k)) ↔
      ((idx (ix2 e (0 : Fin 1))).toInt = (r.val : Int) ∧ b = k) := by
    intro b
    rw [resultIdx?_row]
    exact ⟨fun h => ⟨h.1, Fin.ext h.2⟩, fun h => ⟨h.1, congrArg Fin.val h.2⟩⟩
  simp only [key]
  -- in row `e` only column `k` can land on column `k`
  by_cases hA : (idx (ix2 e (0 : Fin 1))).toInt = (r.val : Int)
  · simp [hA]
  · simp [hA]

/-- COLUMN 0 OF THE `K`-WIDE ROW SCATTER IS THE 1-WIDE ROW SCATTER OF THE COLUMNS 0 of the operand and of the
    updates, at the same scatter indices. -/
theorem hostScatterAdd_row_col0 (hK : 0 < K)
    (wf1 : ScatterDims.WF ⟨2, ![N, 1]⟩ ⟨2, ![E, 1]⟩ ⟨2, ![E, 1]⟩ [1] [0] [0] 1)
    (x : (⟨2, ![N, K]⟩ : Shape).Idx → EReal) (idx : IVec ⟨2, ![E, 1]⟩ w)
    (upd : (⟨2, ![E, K]⟩ : Shape).Idx → EReal) (r : Fin N) :
    Ideal.hostScatterAdd (rowScatterDims N K E wf) x idx upd (ix2 r ⟨0, hK⟩) =
      Ideal.hostScatterAdd (rowScatterDims N 1 E wf1) (fun i => x (ix2 (i 0) ⟨0, hK⟩)) idx
        (fun j => upd (ix2 (j 0) ⟨0, hK⟩)) (ix2 r (0 : Fin 1)) := by
  rw [hostScatterAdd_row_apply, hostScatterAdd_row_apply]
  rfl

end Rows

/-! ## 2. A writing scatter with distinct landing indices -/

section SetScatter
variable {α : Type} {s si u : Shape} {w : Nat}

/-- A scatter that WRITES its updates (the body returns the update), every update element `j` landing inside
    the operand at `g j` with `g` injective: at `g j` the result is `upd j`. Taking the update elements in
    row-major order, the running array at `g j` is `upd j` once `j` has been taken and the operand's element
    before, since no other element lands there. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  have key : ∀ (l : List (Fin u.numel)) (r : s.Idx → α),
      (l.foldl (fun r n =>
        match d.resultIdx? (u.rowMajor.symm n) idx with
        | some i => fun i' => if i' = i then (fun _ b => b) (r i) (upd (u.rowMajor.symm n)) else r i'
        | none => r) r) (g j) = if u.rowMajor j ∈ l then upd j else r (g j) := by
    intro l
    induction l with
    | nil => intro r; simp
    | cons n l ih =>
      intro r
      rw [List.foldl_cons, ih]
      by_cases hn : u.rowMajor j = n
      · subst hn
        simp [hg]
      · have hne : ¬ g j = g (u.rowMajor.symm n) := fun h => hn (by rw [hinj h]; simp)
        by_cases hl : u.rowMajor j ∈ l
        · simp [hl]
        · simp [hl, hn, hg, hne]
  have h := key (List.finRange u.numel) x
  rw [if_pos (List.mem_finRange _)] at h
  exact h

end SetScatter

/-! ## 3. Padding by one scatter index -/

section Pad
variable {α : Type} {w : Nat}

/-- The dimension numbers that write a column `[M, 1]` into a matrix `[M, C]` at ONE scatter index (indices of
    shape `[1]`, the index vector their only axis): both update axes are window axes, no operand axis is
    inserted, the scatter index's one component is the start on operand axis 1. -/
abbrev padColDims (M C : Nat)
    (wf : ScatterDims.WF ⟨2, ![M, C]⟩ ⟨1, ![1]⟩ ⟨2, ![M, 1]⟩ [0, 1] [] [1] 0) :
    ScatterDims ⟨2, ![M, C]⟩ ⟨1, ![1]⟩ ⟨2, ![M, 1]⟩ where
  updateWindowDims := [0, 1]
  insertedWindowDims := []
  scatterDimsToOperandDims := [1]
  indexVectorDim := 0
  wf := wf

/-- Update element `(k, 0)` of the column lands at `(k, c)`, `c` the column the scatter index names. -/
theorem resultIdx?_padCol {M C : Nat}
    (wf : ScatterDims.WF ⟨2, ![M, C]⟩ ⟨1, ![1]⟩ ⟨2, ![M, 1]⟩ [0, 1] [] [1] 0)
    (idx : IVec ⟨1, ![1]⟩ w) (c : Fin C) (hidx : (idx (ix1 (0 : Fin 1))).toInt = (c.val : Int))
    (j : (⟨2, ![M, 1]⟩ : Shape).Idx) :
    (padColDims M C wf).resultIdx? j idx = some (ix2 (j 0) c : (⟨2, ![M, C]⟩ : Shape).Idx) := by
  have hs0 : (padColDims M C wf).start j idx 0 = 0 := by
    unfold ScatterDims.start
    rw [dif_neg (show ¬ (0 : Fin 2) ∈ ([1] : List (Fin 2)) by decide)]
  have hs1 : (padColDims M C wf).start j idx 1 = (idx (ix1 (0 : Fin 1))).toInt := by
    unfold ScatterDims.start
    rw [dif_pos (show (1 : Fin 2) ∈ (padColDims M C wf).scatterDimsToOperandDims from
      List.mem_singleton.mpr rfl)]
    have hsi : (padColDims M C wf).siIdx j
        ⟨List.idxOf (1 : Fin 2) (padColDims M C wf).scatterDimsToOperandDims,
          List.idxOf_lt_length_iff.2 (List.mem_singleton.mpr rfl)⟩ = ix1 (0 : Fin 1) := by
      funext b; refine Fin.ext ?_
      match b with
      | ⟨0, _⟩ => rfl
    rw [hsi] <;> rfl
  have hw0 : (padColDims M C wf).window j 0 = (j 0).val := rfl
  have hw1 : (padColDims M C wf).window j 1 = (j 1).val := rfl
  have hj0 : (j 0).val < M := idx2_lt0 j
  have hj1 : (j 1).val < 1 := idx2_lt1 j
  have hc : c.val < C := c.isLt
  have hM : (⟨2, ![M, C]⟩ : Shape).size 0 = M := rfl
  have hC : (⟨2, ![M, C]⟩ : Shape).size 1 = C := rfl
  unfold ScatterDims.resultIdx?
  split
  · rw [Option.some.injEq]
    funext a
    refine Fin.ext ?_
    match a with
    | ⟨0, _⟩ =>
      show ((padColDims M C wf).start j idx 0 + ((padColDims M C wf).window j 0 : Nat)).toNat = (j 0).val
      rw [hs0, hw0]; omega
    | ⟨1, _⟩ =>
      show ((padColDims M C wf).start j idx 1 + ((padColDims M C wf).window j 1 : Nat)).toNat = c.val
      rw [hs1, hw1, hidx]; omega
  · rename_i h
    exfalso; apply h
    refine Fin.forall_fin_two.mpr ⟨?_, ?_⟩
    · rw [hs0, hw0, hM]; omega
    · rw [hs1, hw1, hC, hidx]; omega

/-- THE COLUMN WRITTEN AT COLUMN `c`: the result at `(k, c)` is `upd[k, 0]`, for the scatter index naming `c`. -/
theorem padCol_set_apply {M C : Nat}
    (wf : ScatterDims.WF ⟨2, ![M, C]⟩ ⟨1, ![1]⟩ ⟨2, ![M, 1]⟩ [0, 1] [] [1] 0)
    (x : (⟨2, ![M, C]⟩ : Shape).Idx → α) (idx : IVec ⟨1, ![1]⟩ w) (upd : (⟨2, ![M, 1]⟩ : Shape).Idx → α)
    (c : Fin C) (hidx : (idx (ix1 (0 : Fin 1))).toInt = (c.val : Int)) (k : Fin M) :
    Host.scatter (padColDims M C wf) (fun _ b => b) x idx upd (ix2 k c) = upd (ix2 k (0 : Fin 1)) := by
  have hinj : Function.Injective
      (fun j : (⟨2, ![M, 1]⟩ : Shape).Idx => (ix2 (j 0) c : (⟨2, ![M, C]⟩ : Shape).Idx)) := by
    intro j j' h
    have h0 : j 0 = j' 0 := congrFun h 0
    funext a
    match a with
    | ⟨0, _⟩ => exact h0
    | ⟨1, _⟩ =>
      refine Fin.ext ?_
      have h1 : (j 1).val < 1 := idx2_lt1 j
      have h1' : (j' 1).val < 1 := idx2_lt1 j'
      show (j 1).val = (j' 1).val
      omega
  exact scatter_set_apply (padColDims M C wf) x idx upd
    (fun j => (ix2 (j 0) c : (⟨2, ![M, C]⟩ : Shape).Idx))
    (resultIdx?_padCol wf idx c hidx) hinj (ix2 k (0 : Fin 1))

/-- The same at the zero scatter index: column 0 of the result is the column written. -/
theorem padCol_set_zero {M C : Nat} [NeZero C]
    (wf : ScatterDims.WF ⟨2, ![M, C]⟩ ⟨1, ![1]⟩ ⟨2, ![M, 1]⟩ [0, 1] [] [1] 0)
    (x : (⟨2, ![M, C]⟩ : Shape).Idx → α) (upd : (⟨2, ![M, 1]⟩ : Shape).Idx → α) (k : Fin M) :
    Host.scatter (padColDims M C wf) (fun _ b => b) x (fun _ => 0#32) upd (ix2 k (0 : Fin C)) =
      upd (ix2 k (0 : Fin 1)) :=
  padCol_set_apply wf x (fun _ => 0#32) upd (0 : Fin C) (by simp) k

/-- The dimension numbers that write one entry `[1]` into a vector `[M]` at ONE scatter index (indices of shape
    `[1]`, the index vector their only axis): the update's axis is a window axis, the scatter index's one
    component is the start on the operand's axis. -/
abbrev padVecDims (M : Nat)
    (wf : ScatterDims.WF ⟨1, ![M]⟩ ⟨1, ![1]⟩ ⟨1, ![1]⟩ [0] [] [0] 0) :
    ScatterDims ⟨1, ![M]⟩ ⟨1, ![1]⟩ ⟨1, ![1]⟩ where
  updateWindowDims := [0]
  insertedWindowDims := []
  scatterDimsToOperandDims := [0]
  indexVectorDim := 0
  wf := wf

/-- The one update element lands at the position `m` the scatter index names. -/
theorem resultIdx?_padVec {M : Nat}
    (wf : ScatterDims.WF ⟨1, ![M]⟩ ⟨1, ![1]⟩ ⟨1, ![1]⟩ [0] [] [0] 0)
    (idx : IVec ⟨1, ![1]⟩ w) (m : Fin M) (hidx : (idx (ix1 (0 : Fin 1))).toInt = (m.val : Int))
    (j : (⟨1, ![1]⟩ : Shape).Idx) :
    (padVecDims M wf).resultIdx? j idx = some (ix1 m) := by
  have hs0 : (padVecDims M wf).start j idx 0 = (idx (ix1 (0 : Fin 1))).toInt := by
    unfold ScatterDims.start
    rw [dif_pos (show (0 : Fin 1) ∈ (padVecDims M wf).scatterDimsToOperandDims from
      List.mem_singleton.mpr rfl)]
    have hsi : (padVecDims M wf).siIdx j
        ⟨List.idxOf (0 : Fin 1) (padVecDims M wf).scatterDimsToOperandDims,
          List.idxOf_lt_length_iff.2 (List.mem_singleton.mpr rfl)⟩ = ix1 (0 : Fin 1) := by
      funext b; refine Fin.ext ?_
      match b with
      | ⟨0, _⟩ => rfl
    rw [hsi] <;> rfl
  have hw0 : (padVecDims M wf).window j 0 = (j 0).val := rfl
  have hj0 : (j 0).val < 1 := (j 0).isLt
  have hm : m.val < M := m.isLt
  have hM : (⟨1, ![M]⟩ : Shape).size 0 = M := rfl
  unfold ScatterDims.resultIdx?
  split
  · rw [Option.some.injEq]
    funext a
    refine Fin.ext ?_
    match a with
    | ⟨0, _⟩ =>
      show ((padVecDims M wf).start j idx 0 + ((padVecDims M wf).window j 0 : Nat)).toNat = m.val
      rw [hs0, hw0, hidx]; omega
  · rename_i h
    exfalso; apply h
    refine Fin.forall_fin_one.mpr ?_
    rw [hs0, hw0, hM, hidx]; omega

/-- THE ENTRY WRITTEN AT POSITION `m`: the result at `m` is `upd[0]`, for the scatter index naming `m`. -/
theorem padVec_set_apply {M : Nat}
    (wf : ScatterDims.WF ⟨1, ![M]⟩ ⟨1, ![1]⟩ ⟨1, ![1]⟩ [0] [] [0] 0)
    (x : (⟨1, ![M]⟩ : Shape).Idx → α) (idx : IVec ⟨1, ![1]⟩ w) (upd : (⟨1, ![1]⟩ : Shape).Idx → α)
    (m : Fin M) (hidx : (idx (ix1 (0 : Fin 1))).toInt = (m.val : Int)) :
    Host.scatter (padVecDims M wf) (fun _ b => b) x idx upd (ix1 m) = upd (ix1 (0 : Fin 1)) := by
  have hinj : Function.Injective (fun _ : (⟨1, ![1]⟩ : Shape).Idx => ix1 m) := by
    intro j j' _
    funext a
    match a with
    | ⟨0, _⟩ =>
      refine Fin.ext ?_
      have h0 : (j 0).val < 1 := (j 0).isLt
      have h0' : (j' 0).val < 1 := (j' 0).isLt
      show (j 0).val = (j' 0).val
      omega
  exact scatter_set_apply (padVecDims M wf) x idx upd (fun _ => ix1 m)
    (resultIdx?_padVec wf idx m hidx) hinj (ix1 (0 : Fin 1))

/-- The same at the zero scatter index: entry 0 of the result is the entry written. -/
theorem padVec_set_zero {M : Nat} [NeZero M]
    (wf : ScatterDims.WF ⟨1, ![M]⟩ ⟨1, ![1]⟩ ⟨1, ![1]⟩ [0] [] [0] 0)
    (x : (⟨1, ![M]⟩ : Shape).Idx → α) (upd : (⟨1, ![1]⟩ : Shape).Idx → α) :
    Host.scatter (padVecDims M wf) (fun _ b => b) x (fun _ => 0#32) upd (ix1 (0 : Fin M)) =
      upd (ix1 (0 : Fin 1)) :=
  padVec_set_apply wf x (fun _ => 0#32) upd (0 : Fin M) (by simp)

end Pad

end Cert.ScatterRows

end
-- ==== Proof.RefMean.lean ====
/-
  THE REFERENCE PROGRAM'S RESULT IS THE SPECIFICATION'S ARRAY.

  Read index by index, outermost stage first: the result at (s, c, a, b) is projection s at (0, c, a, b); a
  projection is the transposed maximum, over one spatial axis, of the grid; the grid at (0, h, w, z, c) is the mean at
  row h * 65536 + w * 256 + z and column c; the mean is the sum over the count taken at least one; the sum at a row
  and column is zero plus the features of the points whose voxel number is that row, and the count at a row is zero
  plus a one for each such point.
-/
import proofs.«135331_j13778255086206_2_alg».proof.Proof.RefStages
import proofs.«135331_j13778255086206_2_alg».proof.Proof.LibScatterRows
import Idealize.ShloMosaic.Lib.Pipeline.Value
import Idealize.ShloMosaic.Lib.ValueIdx

noncomputable section

open scoped BigOperators

namespace Cert.RefSide

open Cert.ReferenceIdeal Cert.ReferenceIdeal.Gen Idealize.ShloMosaic Idealize.ShloMosaic.ValueIdx Cert.Spec

/-! ## Sums and counts -/

/-- The per-voxel sum of feature `k` at voxel number `r`. -/
theorem refSums_apply (a0 a1 : FVec Ideal S262144x4 .f32) (r : Fin 16777216) (k : Fin 4) :
    refSums a0 a1 (ix2 r k) = vsum (refIdx a0) (fun e => a1 (ix2 e k)) r := by
  unfold refSums vsum
  show Ideal.hostScatterAdd (Cert.ScatterRows.rowScatterDims 16777216 4 262144
      scatter_S16777216x4_S262144x1_S262144x4_1_0_0_1_wf) _ (refIdx a0) a1 (ix2 r k) = _
  rw [Cert.ScatterRows.hostScatterAdd_row_apply]
  congr 1

/-- The per-voxel count at voxel number `r`. -/
theorem refCnt_apply (a0 : FVec Ideal S262144x4 .f32) (r : Fin 16777216) :
    refCnt a0 (ix2 r (0 : Fin 1)) = vsum (refIdx a0) (fun _ => fone) r := by
  unfold refCnt vsum
  show Ideal.hostScatterAdd (Cert.ScatterRows.rowScatterDims 16777216 1 262144
      scatter_S16777216x1_S262144x1_S262144x1_1_0_0_1_wf) _ (refIdx a0) _ (ix2 r (0 : Fin 1)) = _
  rw [Cert.ScatterRows.hostScatterAdd_row_apply]
  congr 1

/-! ## The mean and the grid -/

/-- A word broadcast to every index of a shape reads, at any index, as that word. -/
theorem bcast_word_apply {t : Shape} (hb : S_.BroadcastsInDim t (![] : Fin 0 → Fin t.rank)) (w : BitVec 32) (j : t.Idx) :
    broadcastInDim t ![] hb (constant (F := Ideal) S_ .f32 w) j = Ideal.ofBits .f32 w :=
  broadcastInDim_apply _ hb _ j ix0 (fun a => a.elim0)

/-- The count column broadcast over the four feature columns reads, at (r, k), the count of row `r`. -/
theorem bcast_col_apply (y : FVec Ideal S16777216x1 .f32) (r : Fin 16777216) (k : Fin 4) :
    broadcastInDim S16777216x4 ![0, 1] bcast_S16777216x1_S16777216x4_0_1 y (ix2 r k) = y (ix2 r (0 : Fin 1)) :=
  broadcastInDim_apply _ bcast_S16777216x1_S16777216x4_0_1 y (ix2 r k) (ix2 r (0 : Fin 1)) (fun a => match a with
    | ⟨0, _⟩ => by show r.val = if (16777216 : Nat) = 1 then 0 else r.val; rw [if_neg (by decide)]
    | ⟨1, _⟩ => by show 0 = if (1 : Nat) = 1 then 0 else k.val; rw [if_pos rfl])

/-- The mean of feature `k` at voxel number `r`. -/
theorem refMean_apply (a0 a1 : FVec Ideal S262144x4 .f32) (r : Fin 16777216) (k : Fin 4) :
    refMean a0 a1 (ix2 r k) =
      Ideal.div (vsum (refIdx a0) (fun e => a1 (ix2 e k)) r) (max (vsum (refIdx a0) (fun _ => fone) r) fone) := by
  have e1 : refMean a0 a1 (ix2 r k) = FloatOps.hostDivf (refSums a0 a1 (ix2 r k))
      (broadcastInDim S16777216x4 ![0, 1] bcast_S16777216x1_S16777216x4_0_1
        (maximumf (refCnt a0) (broadcastInDim S16777216x1 ![] bcast_S_S16777216x1 (constant (F := Ideal) S_ .f32 0x3F800000#32)))
        (ix2 r k)) := rfl
  have e2 : (maximumf (refCnt a0) (broadcastInDim S16777216x1 ![] bcast_S_S16777216x1 (constant (F := Ideal) S_ .f32 0x3F800000#32)))
        (ix2 r (0 : Fin 1))
      = FloatOps.maximumf (refCnt a0 (ix2 r (0 : Fin 1)))
          (broadcastInDim S16777216x1 ![] bcast_S_S16777216x1 (constant (F := Ideal) S_ .f32 0x3F800000#32) (ix2 r (0 : Fin 1))) := rfl
  rw [e1, bcast_col_apply, e2, refSums_apply, refCnt_apply, bcast_word_apply, Ideal.hostDivf_def, Ideal.maximumf_def]

/-- The grid at (0, h, w, z, c) is the specification's mean of channel `c` in voxel (h, w, z). -/
theorem refGrid_apply (a0 a1 : FVec Ideal S262144x4 .f32) (c : Fin 4) (h w z : Fin 256) :
    refGrid a0 a1 (ix5 (0 : Fin 1) h w z c) = mean (refIdx a0) a1 c h w z := by
  unfold refGrid mean
  rw [shapeCast_apply (refMean a0 a1) shapeCasts_S16777216x4_S1x256x256x256x4 (ix5 (0 : Fin 1) h w z c) (ix2 (vox h w z) c)
    (by rewrite [Shape.rowMajor_val_two, Shape.rowMajor_val_five]
        have h1 : h.val < 256 := h.isLt
        have h2 : w.val < 256 := w.isLt
        have h3 : z.val < 256 := z.isLt
        have h4 : c.val < 4 := c.isLt
        show (h.val * 65536 + w.val * 256 + z.val) * 4 + c.val = (((0 * 256 + h.val) * 256 + w.val) * 256 + z.val) * 4 + c.val
        omega)]
  exact refMean_apply a0 a1 (vox h w z) c

end Cert.RefSide

end
-- ==== Proof.RefRun.lean ====
/-
  THE REFERENCE PROGRAM RUNS TO ITS END, AND WHAT ITS RESULT BUFFER THEN HOLDS.

  The program is a straight line of 61 array operations. From any memory with zero counters every weakly fair
  execution terminates; each buffer then holds the fold of the operations' results over the launch contents. The last
  operation stacks three buffers; what each of the three holds after the first sixty operations is one projection
  stage applied to the two argument arrays, so the result buffer holds the stages' composition; the argument buffers
  are written by no operation and end as they started.
-/
import proofs.«135331_j13778255086206_2_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 61 operations, in order; the clipping function's six operations stand where it is called, over the call's buffers. -/
abbrev ops : List (HloOp τ sig (Elt F)) :=
  [ unary main_arg0 main_v0 ((extractStridedSlice S262144x3 ![0, 0] · slices_S262144x4_S262144x3_0_0) : (⟨S262144x4, .f32⟩ : BufTy).Contents (Elt F) → (⟨S262144x3, .f32⟩ : BufTy).Contents (Elt F)),
    nullary main_cst (constant S_ .f32 0x43800000#32),
    unary main_cst main_v1 (broadcastInDim S262144x3 ![] bcast_S_S262144x3 : (⟨S_, .f32⟩ : BufTy).Contents (Elt F) → (⟨S262144x3, .f32⟩ : BufTy).Contents (Elt F)),
    binary main_v0 main_v1 main_v2 (mulf : (⟨S262144x3, .f32⟩ : BufTy).Contents (Elt F) → (⟨S262144x3, .f32⟩ : BufTy).Contents (Elt F) → (⟨S262144x3, .f32⟩ : BufTy).Contents (Elt F)),
    unary main_v2 main_v3 (Host.floor : (⟨S262144x3, .f32⟩ : BufTy).Contents (Elt F) → (⟨S262144x3, .f32⟩ : BufTy).Contents (Elt F)),
    unary main_v3 main_v4 (fptosi 32 : (⟨S262144x3, .f32⟩ : BufTy).Contents (Elt F) → (⟨S262144x3, .i32⟩ : BufTy).Contents (Elt F)),
    nullary main_c (constantI S_ 32 0#32),
    nullary main_c_0 (constantI S_ 32 255#32),
    TRef.unary (TRef.of (T := ⟨S_, .i32⟩) main_c) (TRef.of (T := ⟨S_, .i32⟩) main_call0_v0) id,
    TRef.unary (TRef.of (T := ⟨S_, .i32⟩) main_call0_v0) (TRef.of (T := ⟨S262144x3, .i32⟩) main_call0_v1) (broadcastInDim S262144x3 ![] bcast_S_S262144x3),
    TRef.binary (TRef.of (T := ⟨S262144x3, .i32⟩) main_call0_v1) (TRef.of (T := ⟨S262144x3, .i32⟩) main_v4) (TRef.of (T := ⟨S262144x3, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S262144x3, .i32⟩) main_call0_v4) (broadcastInDim S262144x3 ![] bcast_S_S262144x3),
    TRef.binary (TRef.of (T := ⟨S262144x3, .i32⟩) main_call0_v4) (TRef.of (T := ⟨S262144x3, .i32⟩) main_call0_v2) (TRef.of (T := ⟨S262144x3, .i32⟩) main_v5) minsi,
    unary main_arg0 main_v6 ((extractStridedSlice S262144x1 ![0, 3] · slices_S262144x4_S262144x1_0_3) : (⟨S262144x4, .f32⟩ : BufTy).Contents (Elt F) → (⟨S262144x1, .f32⟩ : BufTy).Contents (Elt F)),
    reshape main_v6 main_v7 rfl shapeCasts_S262144x1_S262144,
    unary main_v7 main_v8 (fptosi 32 : (⟨S262144, .f32⟩ : BufTy).Contents (Elt F) → (⟨S262144, .i32⟩ : BufTy).Contents (Elt F)),
    nullary main_c_1 (constantI S_ 32 256#32),
    unary main_c_1 main_v9 (broadcastInDim S262144 ![] bcast_S_S262144 : (⟨S_, .i32⟩ : BufTy).Contents (Elt F) → (⟨S262144, .i32⟩ : BufTy).Contents (Elt F)),
    binary main_v8 main_v9 main_v10 (muli : (⟨S262144, .i32⟩ : BufTy).Contents (Elt F) → (⟨S262144, .i32⟩ : BufTy).Contents (Elt F) → (⟨S262144, .i32⟩ : BufTy).Contents (Elt F)),
    unary main_v5 main_v11 ((extractStridedSlice S262144x1 ![0, 0] · slices_S262144x3_S262144x1_0_0) : (⟨S262144x3, .i32⟩ : BufTy).Contents (Elt F) → (⟨S262144x1, .i32⟩ : BufTy).Contents (Elt F)),
    reshape main_v11 main_v12 rfl shapeCasts_S262144x1_S262144,
    binary main_v10 main_v12 main_v13 (addi : (⟨S262144, .i32⟩ : BufTy).Contents (Elt F) → (⟨S262144, .i32⟩ : BufTy).Contents (Elt F) → (⟨S262144, .i32⟩ : BufTy).Contents (Elt F)),
    nullary main_c_2 (constantI S_ 32 256#32),
    unary main_c_2 main_v14 (broadcastInDim S262144 ![] bcast_S_S262144 : (⟨S_, .i32⟩ : BufTy).Contents (Elt F) → (⟨S262144, .i32⟩ : BufTy).Contents (Elt F)),
    binary main_v13 main_v14 main_v15 (muli : (⟨S262144, .i32⟩ : BufTy).Contents (Elt F) → (⟨S262144, .i32⟩ : BufTy).Contents (Elt F) → (⟨S262144, .i32⟩ : BufTy).Contents (Elt F)),
    unary main_v5 main_v16 ((extractStridedSlice S262144x1 ![0, 1] · slices_S262144x3_S262144x1_0_1) : (⟨S262144x3, .i32⟩ : BufTy).Contents (Elt F) → (⟨S262144x1, .i32⟩ : BufTy).Contents (Elt F)),
    reshape main_v16 main_v17 rfl shapeCasts_S262144x1_S262144,
    binary main_v15 main_v17 main_v18 (addi : (⟨S262144, .i32⟩ : BufTy).Contents (Elt F) → (⟨S262144, .i32⟩ : BufTy).Contents (Elt F) → (⟨S262144, .i32⟩ : BufTy).Contents (Elt F)),
    nullary main_c_3 (constantI S_ 32 256#32),
    unary main_c_3 main_v19 (broadcastInDim S262144 ![] bcast_S_S262144 : (⟨S_, .i32⟩ : BufTy).Contents (Elt F) → (⟨S262144, .i32⟩ : BufTy).Contents (Elt F)),
    binary main_v18 main_v19 main_v20 (muli : (⟨S262144, .i32⟩ : BufTy).Contents (Elt F) → (⟨S262144, .i32⟩ : BufTy).Contents (Elt F) → (⟨S262144, .i32⟩ : BufTy).Contents (Elt F)),
    unary main_v5 main_v21 ((extractStridedSlice S262144x1 ![0, 2] · slices_S262144x3_S262144x1_0_2) : (⟨S262144x3, .i32⟩ : BufTy).Contents (Elt F) → (⟨S262144x1, .i32⟩ : BufTy).Contents (Elt F)),
    reshape main_v21 main_v22 rfl shapeCasts_S262144x1_S262144,
    binary main_v20 main_v22 main_v23 (addi : (⟨S262144, .i32⟩ : BufTy).Contents (Elt F) → (⟨S262144, .i32⟩ : BufTy).Contents (Elt F) → (⟨S262144, .i32⟩ : BufTy).Contents (Elt F)),
    nullary main_cst_4 (constant S_ .f32 0x00000000#32),
    unary main_cst_4 main_v24 (broadcastInDim S16777216x4 ![] bcast_S_S16777216x4 : (⟨S_, .f32⟩ : BufTy).Contents (Elt F) → (⟨S16777216x4, .f32⟩ : BufTy).Contents (Elt F)),
    unary main_v23 main_v25 (broadcastInDim S262144x1 ![0] bcast_S262144_S262144x1_0 : (⟨S262144, .i32⟩ : BufTy).Contents (Elt F) → (⟨S262144x1, .i32⟩ : BufTy).Contents (Elt F)),
    ternary main_v24 main_v25 main_arg1 main_v26 ((fun x i u => Host.scatterAdd scatter_S16777216x4_S262144x1_S262144x4_1_0_0_1 x i u) : (⟨S16777216x4, .f32⟩ : BufTy).Contents (Elt F) → (⟨S262144x1, .i32⟩ : BufTy).Contents (Elt F) → (⟨S262144x4, .f32⟩ : BufTy).Contents (Elt F) → (⟨S16777216x4, .f32⟩ : BufTy).Contents (Elt F)),
    nullary main_cst_5 (constant S_ .f32 0x3F800000#32),
    unary main_cst_5 main_v27 (broadcastInDim S262144x1 ![] bcast_S_S262144x1 : (⟨S_, .f32⟩ : BufTy).Contents (Elt F) → (⟨S262144x1, .f32⟩ : BufTy).Contents (Elt F)),
    nullary main_cst_6 (constant S_ .f32 0x00000000#32),
    unary main_cst_6 main_v28 (broadcastInDim S16777216x1 ![] bcast_S_S16777216x1 : (⟨S_, .f32⟩ : BufTy).Contents (Elt F) → (⟨S16777216x1, .f32⟩ : BufTy).Contents (Elt F)),
    unary main_v23 main_v29 (broadcastInDim S262144x1 ![0] bcast_S262144_S262144x1_0 : (⟨S262144, .i32⟩ : BufTy).Contents (Elt F) → (⟨S262144x1, .i32⟩ : BufTy).Contents (Elt F)),
    ternary main_v28 main_v29 main_v27 main_v30 ((fun x i u => Host.scatterAdd scatter_S16777216x1_S262144x1_S262144x1_1_0_0_1 x i u) : (⟨S16777216x1, .f32⟩ : BufTy).Contents (Elt F) → (⟨S262144x1, .i32⟩ : BufTy).Contents (Elt F) → (⟨S262144x1, .f32⟩ : BufTy).Contents (Elt F) → (⟨S16777216x1, .f32⟩ : BufTy).Contents (Elt F)),
    nullary main_cst_7 (constant S_ .f32 0x3F800000#32),
    unary main_cst_7 main_v31 (broadcastInDim S16777216x1 ![] bcast_S_S16777216x1 : (⟨S_, .f32⟩ : BufTy).Contents (Elt F) → (⟨S16777216x1, .f32⟩ : BufTy).Contents (Elt F)),
    binary main_v30 main_v31 main_v32 (maximumf : (⟨S16777216x1, .f32⟩ : BufTy).Contents (Elt F) → (⟨S16777216x1, .f32⟩ : BufTy).Contents (Elt F) → (⟨S16777216x1, .f32⟩ : BufTy).Contents (Elt F)),
    unary main_v32 main_v33 (broadcastInDim S16777216x4 ![0, 1] bcast_S16777216x1_S16777216x4_0_1 : (⟨S16777216x1, .f32⟩ : BufTy).Contents (Elt F) → (⟨S16777216x4, .f32⟩ : BufTy).Contents (Elt F)),
    binary main_v26 main_v33 main_v34 (Host.divf : (⟨S16777216x4, .f32⟩ : BufTy).Contents (Elt F) → (⟨S16777216x4, .f32⟩ : BufTy).Contents (Elt F) → (⟨S16777216x4, .f32⟩ : BufTy).Contents (Elt F)),
    reshape main_v34 main_v35 rfl shapeCasts_S16777216x4_S1x256x256x256x4,
    nullary main_cst_8 (constant S_ .f32 0xFF800000#32),
    binary main_v35 main_cst_8 main_v36 ((fun x v => Host.reduce FloatOps.maximumf x v reducesTo_S1x256x256x256x4_S1x256x256x4_d1 h_S_) : (⟨S1x256x256x256x4, .f32⟩ : BufTy).Contents (Elt F) → (⟨S_, .f32⟩ : BufTy).Contents (Elt F) → (⟨S1x256x256x4, .f32⟩ : BufTy).Contents (Elt F)),
    nullary main_cst_9 (constant S_ .f32 0xFF800000#32),
    binary main_v35 main_cst_9 main_v37 ((fun x v => Host.reduce FloatOps.maximumf x v reducesTo_S1x256x256x256x4_S1x256x256x4_d2 h_S_) : (⟨S1x256x256x256x4, .f32⟩ : BufTy).Contents (Elt F) → (⟨S_, .f32⟩ : BufTy).Contents (Elt F) → (⟨S1x256x256x4, .f32⟩ : BufTy).Contents (Elt F)),
    nullary main_cst_10 (constant S_ .f32 0xFF800000#32),
    binary main_v35 main_cst_10 main_v38 ((fun x v => Host.reduce FloatOps.maximumf x v reducesTo_S1x256x256x256x4_S1x256x256x4_d3 h_S_) : (⟨S1x256x256x256x4, .f32⟩ : BufTy).Contents (Elt F) → (⟨S_, .f32⟩ : BufTy).Contents (Elt F) → (⟨S1x256x256x4, .f32⟩ : BufTy).Contents (Elt F)),
    unary main_v36 main_v39 ((transpose S1x4x256x256 [0, 3, 1, 2] · transposes_S1x256x256x4_S1x4x256x256_0_3_1_2) : (⟨S1x256x256x4, .f32⟩ : BufTy).Contents (Elt F) → (⟨S1x4x256x256, .f32⟩ : BufTy).Contents (Elt F)),
    unary main_v37 main_v40 ((transpose S1x4x256x256 [0, 3, 1, 2] · transposes_S1x256x256x4_S1x4x256x256_0_3_1_2) : (⟨S1x256x256x4, .f32⟩ : BufTy).Contents (Elt F) → (⟨S1x4x256x256, .f32⟩ : BufTy).Contents (Elt F)),
    unary main_v38 main_v41 ((transpose S1x4x256x256 [0, 3, 1, 2] · transposes_S1x256x256x4_S1x4x256x256_0_3_1_2) : (⟨S1x256x256x4, .f32⟩ : BufTy).Contents (Elt F) → (⟨S1x4x256x256, .f32⟩ : BufTy).Contents (Elt F)),
    nary ![main_v39, main_v40, main_v41] main_v42 (fun u => concatenate S3x4x256x256 0 [⟨S1x4x256x256, u 0⟩, ⟨S1x4x256x256, u 1⟩, ⟨S1x4x256x256, u 2⟩] concatenates_S1x4x256x256_S1x4x256x256_S1x4x256x256_S3x4x256x256_d0) ]

/-- The first sixty operations: everything before the stacking. -/
abbrev ops60 : List (HloOp τ sig (Elt F)) :=
  [ unary main_arg0 main_v0 ((extractStridedSlice S262144x3 ![0, 0] · slices_S262144x4_S262144x3_0_0) : (⟨S262144x4, .f32⟩ : BufTy).Contents (Elt F) → (⟨S262144x3, .f32⟩ : BufTy).Contents (Elt F)),
    nullary main_cst (constant S_ .f32 0x43800000#32),
    unary main_cst main_v1 (broadcastInDim S262144x3 ![] bcast_S_S262144x3 : (⟨S_, .f32⟩ : BufTy).Contents (Elt F) → (⟨S262144x3, .f32⟩ : BufTy).Contents (Elt F)),
    binary main_v0 main_v1 main_v2 (mulf : (⟨S262144x3, .f32⟩ : BufTy).Contents (Elt F) → (⟨S262144x3, .f32⟩ : BufTy).Contents (Elt F) → (⟨S262144x3, .f32⟩ : BufTy).Contents (Elt F)),
    unary main_v2 main_v3 (Host.floor : (⟨S262144x3, .f32⟩ : BufTy).Contents (Elt F) → (⟨S262144x3, .f32⟩ : BufTy).Contents (Elt F)),
    unary main_v3 main_v4 (fptosi 32 : (⟨S262144x3, .f32⟩ : BufTy).Contents (Elt F) → (⟨S262144x3, .i32⟩ : BufTy).Contents (Elt F)),
    nullary main_c (constantI S_ 32 0#32),
    nullary main_c_0 (constantI S_ 32 255#32),
    TRef.unary (TRef.of (T := ⟨S_, .i32⟩) main_c) (TRef.of (T := ⟨S_, .i32⟩) main_call0_v0) id,
    TRef.unary (TRef.of (T := ⟨S_, .i32⟩) main_call0_v0) (TRef.of (T := ⟨S262144x3, .i32⟩) main_call0_v1) (broadcastInDim S262144x3 ![] bcast_S_S262144x3),
    TRef.binary (TRef.of (T := ⟨S262144x3, .i32⟩) main_call0_v1) (TRef.of (T := ⟨S262144x3, .i32⟩) main_v4) (TRef.of (T := ⟨S262144x3, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S262144x3, .i32⟩) main_call0_v4) (broadcastInDim S262144x3 ![] bcast_S_S262144x3),
    TRef.binary (TRef.of (T := ⟨S262144x3, .i32⟩) main_call0_v4) (TRef.of (T := ⟨S262144x3, .i32⟩) main_call0_v2) (TRef.of (T := ⟨S262144x3, .i32⟩) main_v5) minsi,
    unary main_arg0 main_v6 ((extractStridedSlice S262144x1 ![0, 3] · slices_S262144x4_S262144x1_0_3) : (⟨S262144x4, .f32⟩ : BufTy).Contents (Elt F) → (⟨S262144x1, .f32⟩ : BufTy).Contents (Elt F)),
    reshape main_v6 main_v7 rfl shapeCasts_S262144x1_S262144,
    unary main_v7 main_v8 (fptosi 32 : (⟨S262144, .f32⟩ : BufTy).Contents (Elt F) → (⟨S262144, .i32⟩ : BufTy).Contents (Elt F)),
    nullary main_c_1 (constantI S_ 32 256#32),
    unary main_c_1 main_v9 (broadcastInDim S262144 ![] bcast_S_S262144 : (⟨S_, .i32⟩ : BufTy).Contents (Elt F) → (⟨S262144, .i32⟩ : BufTy).Contents (Elt F)),
    binary main_v8 main_v9 main_v10 (muli : (⟨S262144, .i32⟩ : BufTy).Contents (Elt F) → (⟨S262144, .i32⟩ : BufTy).Contents (Elt F) → (⟨S262144, .i32⟩ : BufTy).Contents (Elt F)),
    unary main_v5 main_v11 ((extractStridedSlice S262144x1 ![0, 0] · slices_S262144x3_S262144x1_0_0) : (⟨S262144x3, .i32⟩ : BufTy).Contents (Elt F) → (⟨S262144x1, .i32⟩ : BufTy).Contents (Elt F)),
    reshape main_v11 main_v12 rfl shapeCasts_S262144x1_S262144,
    binary main_v10 main_v12 main_v13 (addi : (⟨S262144, .i32⟩ : BufTy).Contents (Elt F) → (⟨S262144, .i32⟩ : BufTy).Contents (Elt F) → (⟨S262144, .i32⟩ : BufTy).Contents (Elt F)),
    nullary main_c_2 (constantI S_ 32 256#32),
    unary main_c_2 main_v14 (broadcastInDim S262144 ![] bcast_S_S262144 : (⟨S_, .i32⟩ : BufTy).Contents (Elt F) → (⟨S262144, .i32⟩ : BufTy).Contents (Elt F)),
    binary main_v13 main_v14 main_v15 (muli : (⟨S262144, .i32⟩ : BufTy).Contents (Elt F) → (⟨S262144, .i32⟩ : BufTy).Contents (Elt F) → (⟨S262144, .i32⟩ : BufTy).Contents (Elt F)),
    unary main_v5 main_v16 ((extractStridedSlice S262144x1 ![0, 1] · slices_S262144x3_S262144x1_0_1) : (⟨S262144x3, .i32⟩ : BufTy).Contents (Elt F) → (⟨S262144x1, .i32⟩ : BufTy).Contents (Elt F)),
    reshape main_v16 main_v17 rfl shapeCasts_S262144x1_S262144,
    binary main_v15 main_v17 main_v18 (addi : (⟨S262144, .i32⟩ : BufTy).Contents (Elt F) → (⟨S262144, .i32⟩ : BufTy).Contents (Elt F) → (⟨S262144, .i32⟩ : BufTy).Contents (Elt F)),
    nullary main_c_3 (constantI S_ 32 256#32),
    unary main_c_3 main_v19 (broadcastInDim S262144 ![] bcast_S_S262144 : (⟨S_, .i32⟩ : BufTy).Contents (Elt F) → (⟨S262144, .i32⟩ : BufTy).Contents (Elt F)),
    binary main_v18 main_v19 main_v20 (muli : (⟨S262144, .i32⟩ : BufTy).Contents (Elt F) → (⟨S262144, .i32⟩ : BufTy).Contents (Elt F) → (⟨S262144, .i32⟩ : BufTy).Contents (Elt F)),
    unary main_v5 main_v21 ((extractStridedSlice S262144x1 ![0, 2] · slices_S262144x3_S262144x1_0_2) : (⟨S262144x3, .i32⟩ : BufTy).Contents (Elt F) → (⟨S262144x1, .i32⟩ : BufTy).Contents (Elt F)),
    reshape main_v21 main_v22 rfl shapeCasts_S262144x1_S262144,
    binary main_v20 main_v22 main_v23 (addi : (⟨S262144, .i32⟩ : BufTy).Contents (Elt F) → (⟨S262144, .i32⟩ : BufTy).Contents (Elt F) → (⟨S262144, .i32⟩ : BufTy).Contents (Elt F)),
    nullary main_cst_4 (constant S_ .f32 0x00000000#32),
    unary main_cst_4 main_v24 (broadcastInDim S16777216x4 ![] bcast_S_S16777216x4 : (⟨S_, .f32⟩ : BufTy).Contents (Elt F) → (⟨S16777216x4, .f32⟩ : BufTy).Contents (Elt F)),
    unary main_v23 main_v25 (broadcastInDim S262144x1 ![0] bcast_S262144_S262144x1_0 : (⟨S262144, .i32⟩ : BufTy).Contents (Elt F) → (⟨S262144x1, .i32⟩ : BufTy).Contents (Elt F)),
    ternary main_v24 main_v25 main_arg1 main_v26 ((fun x i u => Host.scatterAdd scatter_S16777216x4_S262144x1_S262144x4_1_0_0_1 x i u) : (⟨S16777216x4, .f32⟩ : BufTy).Contents (Elt F) → (⟨S262144x1, .i32⟩ : BufTy).Contents (Elt F) → (⟨S262144x4, .f32⟩ : BufTy).Contents (Elt F) → (⟨S16777216x4, .f32⟩ : BufTy).Contents (Elt F)),
    nullary main_cst_5 (constant S_ .f32 0x3F800000#32),
    unary main_cst_5 main_v27 (broadcastInDim S262144x1 ![] bcast_S_S262144x1 : (⟨S_, .f32⟩ : BufTy).Contents (Elt F) → (⟨S262144x1, .f32⟩ : BufTy).Contents (Elt F)),
    nullary main_cst_6 (constant S_ .f32 0x00000000#32),
    unary main_cst_6 main_v28 (broadcastInDim S16777216x1 ![] bcast_S_S16777216x1 : (⟨S_, .f32⟩ : BufTy).Contents (Elt F) → (⟨S16777216x1, .f32⟩ : BufTy).Contents (Elt F)),
    unary main_v23 main_v29 (broadcastInDim S262144x1 ![0] bcast_S262144_S262144x1_0 : (⟨S262144, .i32⟩ : BufTy).Contents (Elt F) → (⟨S262144x1, .i32⟩ : BufTy).Contents (Elt F)),
    ternary main_v28 main_v29 main_v27 main_v30 ((fun x i u => Host.scatterAdd scatter_S16777216x1_S262144x1_S262144x1_1_0_0_1 x i u) : (⟨S16777216x1, .f32⟩ : BufTy).Contents (Elt F) → (⟨S262144x1, .i32⟩ : BufTy).Contents (Elt F) → (⟨S262144x1, .f32⟩ : BufTy).Contents (Elt F) → (⟨S16777216x1, .f32⟩ : BufTy).Contents (Elt F)),
    nullary main_cst_7 (constant S_ .f32 0x3F800000#32),
    unary main_cst_7 main_v31 (broadcastInDim S16777216x1 ![] bcast_S_S16777216x1 : (⟨S_, .f32⟩ : BufTy).Contents (Elt F) → (⟨S16777216x1, .f32⟩ : BufTy).Contents (Elt F)),
    binary main_v30 main_v31 main_v32 (maximumf : (⟨S16777216x1, .f32⟩ : BufTy).Contents (Elt F) → (⟨S16777216x1, .f32⟩ : BufTy).Contents (Elt F) → (⟨S16777216x1, .f32⟩ : BufTy).Contents (Elt F)),
    unary main_v32 main_v33 (broadcastInDim S16777216x4 ![0, 1] bcast_S16777216x1_S16777216x4_0_1 : (⟨S16777216x1, .f32⟩ : BufTy).Contents (Elt F) → (⟨S16777216x4, .f32⟩ : BufTy).Contents (Elt F)),
    binary main_v26 main_v33 main_v34 (Host.divf : (⟨S16777216x4, .f32⟩ : BufTy).Contents (Elt F) → (⟨S16777216x4, .f32⟩ : BufTy).Contents (Elt F) → (⟨S16777216x4, .f32⟩ : BufTy).Contents (Elt F)),
    reshape main_v34 main_v35 rfl shapeCasts_S16777216x4_S1x256x256x256x4,
    nullary main_cst_8 (constant S_ .f32 0xFF800000#32),
    binary main_v35 main_cst_8 main_v36 ((fun x v => Host.reduce FloatOps.maximumf x v reducesTo_S1x256x256x256x4_S1x256x256x4_d1 h_S_) : (⟨S1x256x256x256x4, .f32⟩ : BufTy).Contents (Elt F) → (⟨S_, .f32⟩ : BufTy).Contents (Elt F) → (⟨S1x256x256x4, .f32⟩ : BufTy).Contents (Elt F)),
    nullary main_cst_9 (constant S_ .f32 0xFF800000#32),
    binary main_v35 main_cst_9 main_v37 ((fun x v => Host.reduce FloatOps.maximumf x v reducesTo_S1x256x256x256x4_S1x256x256x4_d2 h_S_) : (⟨S1x256x256x256x4, .f32⟩ : BufTy).Contents (Elt F) → (⟨S_, .f32⟩ : BufTy).Contents (Elt F) → (⟨S1x256x256x4, .f32⟩ : BufTy).Contents (Elt F)),
    nullary main_cst_10 (constant S_ .f32 0xFF800000#32),
    binary main_v35 main_cst_10 main_v38 ((fun x v => Host.reduce FloatOps.maximumf x v reducesTo_S1x256x256x256x4_S1x256x256x4_d3 h_S_) : (⟨S1x256x256x256x4, .f32⟩ : BufTy).Contents (Elt F) → (⟨S_, .f32⟩ : BufTy).Contents (Elt F) → (⟨S1x256x256x4, .f32⟩ : BufTy).Contents (Elt F)),
    unary main_v36 main_v39 ((transpose S1x4x256x256 [0, 3, 1, 2] · transposes_S1x256x256x4_S1x4x256x256_0_3_1_2) : (⟨S1x256x256x4, .f32⟩ : BufTy).Contents (Elt F) → (⟨S1x4x256x256, .f32⟩ : BufTy).Contents (Elt F)),
    unary main_v37 main_v40 ((transpose S1x4x256x256 [0, 3, 1, 2] · transposes_S1x256x256x4_S1x4x256x256_0_3_1_2) : (⟨S1x256x256x4, .f32⟩ : BufTy).Contents (Elt F) → (⟨S1x4x256x256, .f32⟩ : BufTy).Contents (Elt F)),
    unary main_v38 main_v41 ((transpose S1x4x256x256 [0, 3, 1, 2] · transposes_S1x256x256x4_S1x4x256x256_0_3_1_2) : (⟨S1x256x256x4, .f32⟩ : BufTy).Contents (Elt F) → (⟨S1x4x256x256, .f32⟩ : BufTy).Contents (Elt F)) ]

/-- The last operation: the three projections stacked along axis 0. -/
abbrev opLast : HloOp τ sig (Elt F) :=
  nary ![main_v39, main_v40, main_v41] main_v42 (fun u => concatenate S3x4x256x256 0 [⟨S1x4x256x256, u 0⟩, ⟨S1x4x256x256, u 1⟩, ⟨S1x4x256x256, u 2⟩] concatenates_S1x4x256x256_S1x4x256x256_S1x4x256x256_S3x4x256x256_d0)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., reshape_bufs_sub .., nullary_bufs_sub .., binary_bufs_sub .., nullary_bufs_sub .., binary_bufs_sub .., nullary_bufs_sub .., binary_bufs_sub .., unary_bufs_sub .., unary_bufs_sub .., unary_bufs_sub .., nary_bufs_sub ..⟩

/-- The whole fold is the last operation's result over the fold of the first sixty. -/
theorem after_ops (V : Valuation τ sig (Elt F)) : after (ops (F := F)) V = (opLast (F := F)).result (after ops60 V) := rfl

set_option maxRecDepth 16384 in
set_option maxHeartbeats 24400000 in
/-- After the first sixty operations the first stacked buffer holds the first projection of the arguments. -/
theorem after60_v39 (m : (ℓ : Loc nD τ sig) → Buf (Elt Ideal) ℓ) (c : Dev nD) :
    after (ops60 (F := Ideal)) (launchContents m c) (Proc.devRef .tc main_v39)
      = Cert.RefSide.refProj1 (m ((c.tc : Thread nD τ).loc main_arg0)) (m ((c.tc : Thread nD τ).loc main_arg1)) := by
  after_results_simp <;> rfl

set_option maxRecDepth 16384 in
set_option maxHeartbeats 24400000 in
/-- After the first sixty operations the second stacked buffer holds the second projection of the arguments. -/
theorem after60_v40 (m : (ℓ : Loc nD τ sig) → Buf (Elt Ideal) ℓ) (c : Dev nD) :
    after (ops60 (F := Ideal)) (launchContents m c) (Proc.devRef .tc main_v40)
      = Cert.RefSide.refProj2 (m ((c.tc : Thread nD τ).loc main_arg0)) (m ((c.tc : Thread nD τ).loc main_arg1)) := by
  after_results_simp <;> rfl

set_option maxRecDepth 16384 in
set_option maxHeartbeats 24400000 in
/-- After the first sixty operations the third stacked buffer holds the third projection of the arguments. -/
theorem after60_v41 (m : (ℓ : Loc nD τ sig) → Buf (Elt Ideal) ℓ) (c : Dev nD) :
    after (ops60 (F := Ideal)) (launchContents m c) (Proc.devRef .tc main_v41)
      = Cert.RefSide.refProj3 (m ((c.tc : Thread nD τ).loc main_arg0)) (m ((c.tc : Thread nD τ).loc main_arg1)) := by
  after_results_simp <;> rfl

/-- After all the operations the result buffer holds the stack of the three projections. -/
theorem after_v42 (m : (ℓ : Loc nD τ sig) → Buf (Elt Ideal) ℓ) (c : Dev nD) :
    after (ops (F := Ideal)) (launchContents m c) (Proc.devRef .tc main_v42)
      = Cert.RefSide.refOut (m ((c.tc : Thread nD τ).loc main_arg0)) (m ((c.tc : Thread nD τ).loc main_arg1)) := by
  rw [after_ops]
  unfold opLast
  rw [nary_result]
  show concatenate S3x4x256x256 0
      [⟨S1x4x256x256, after (ops60 (F := Ideal)) (launchContents m c) (Proc.devRef .tc main_v39)⟩,
       ⟨S1x4x256x256, after (ops60 (F := Ideal)) (launchContents m c) (Proc.devRef .tc main_v40)⟩,
       ⟨S1x4x256x256, after (ops60 (F := Ideal)) (launchContents m c) (Proc.devRef .tc main_v41)⟩]
      concatenates_S1x4x256x256_S1x4x256x256_S1x4x256x256_S3x4x256x256_d0 = _
  rw [after60_v39, after60_v40, after60_v41]
  rfl

set_option maxRecDepth 16384 in
set_option maxHeartbeats 24400000 in
/-- On every device, from any memory with zero counters: every weakly fair execution of the program terminates with
    the result buffer at the stages' composition applied to the argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = Cert.RefSide.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (after_v42 m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.RefRun

end
-- ==== Proof.RefSide.lean ====
/-
  THE REFERENCE PROGRAM'S RESULT IS THE SPECIFICATION'S ARRAY, AND THE PROGRAM RUNS TO IT.

  The result at (s, c, a, b) is projection s at (0, c, a, b) (the stack is along axis 0, each piece of extent one);
  a projection at (0, c, a, b) is the transposed maximum at (0, a, b, c); the maximum over one spatial axis of the grid
  is the fold of `max` from minus infinity over that axis's 256 coordinates, the other coordinates kept; and the grid at
  (0, h, w, z, c) is the specification's mean of channel c in voxel (h, w, z).
-/
import proofs.«135331_j13778255086206_2_alg».proof.Proof.RefMean
import proofs.«135331_j13778255086206_2_alg».proof.Proof.RefRun
import Idealize.ShloMosaic.PureOps.Reduce
import Idealize.ShloMosaic.PureOps.Ideal.Laws
import Idealize.ShloMosaic.Lib.Pipeline.Value
import Idealize.ShloMosaic.Lib.ValueIdx

noncomputable section

open scoped BigOperators

namespace Cert.RefSide

open Cert.ReferenceIdeal Cert.ReferenceIdeal.Gen Idealize.ShloMosaic Idealize.ShloMosaic.ValueIdx Cert.Spec

/-! ## The three maxima -/

theorem reduces1 : S1x256x256x256x4.Reduces [1] S1x256x256x4 := by decide
theorem reduces2 : S1x256x256x256x4.Reduces [2] S1x256x256x4 := by decide
theorem reduces3 : S1x256x256x256x4.Reduces [3] S1x256x256x4 := by decide

/-- The kept index (0, a, b, c) with `k` inserted on axis 1 is (0, k, a, b, c). -/
theorem lift1 (a b : Fin 256) (c : Fin 4) (k : Fin 256) :
    reduces1.lift (ix4 (0 : Fin 1) a b c) k = ix5 (0 : Fin 1) k a b c := by
  funext d; apply Fin.ext
  match d with
  | ⟨0, _⟩ => rfl
  | ⟨1, _⟩ => rfl
  | ⟨2, _⟩ => rfl
  | ⟨3, _⟩ => rfl
  | ⟨4, _⟩ => rfl

/-- The kept index (0, a, b, c) with `k` inserted on axis 2 is (0, a, k, b, c). -/
theorem lift2 (a b : Fin 256) (c : Fin 4) (k : Fin 256) :
    reduces2.lift (ix4 (0 : Fin 1) a b c) k = ix5 (0 : Fin 1) a k b c := by
  funext d; apply Fin.ext
  match d with
  | ⟨0, _⟩ => rfl
  | ⟨1, _⟩ => rfl
  | ⟨2, _⟩ => rfl
  | ⟨3, _⟩ => rfl
  | ⟨4, _⟩ => rfl

/-- The kept index (0, a, b, c) with `k` inserted on axis 3 is (0, a, b, k, c). -/
theorem lift3 (a b : Fin 256) (c : Fin 4) (k : Fin 256) :
    reduces3.lift (ix4 (0 : Fin 1) a b c) k = ix5 (0 : Fin 1) a b k c := by
  funext d; apply Fin.ext
  match d with
  | ⟨0, _⟩ => rfl
  | ⟨1, _⟩ => rfl
  | ⟨2, _⟩ => rfl
  | ⟨3, _⟩ => rfl
  | ⟨4, _⟩ => rfl

/-- The transposed array at (0, c, a, b) is the array at (0, a, b, c). -/
theorem transpose_apply4 (y : FVec Ideal S1x256x256x4 .f32) (c : Fin 4) (a b : Fin 256) :
    transpose S1x4x256x256 [0, 3, 1, 2] y transposes_S1x256x256x4_S1x4x256x256_0_3_1_2 (ix4 (0 : Fin 1) c a b)
      = y (ix4 (0 : Fin 1) a b c) :=
  transpose_apply [0, 3, 1, 2] y transposes_S1x256x256x4_S1x4x256x256_0_3_1_2 (ix4 (0 : Fin 1) c a b) (ix4 (0 : Fin 1) a b c)
    (fun d => match d with
      | ⟨0, _⟩ => rfl
      | ⟨1, _⟩ => rfl
      | ⟨2, _⟩ => rfl
      | ⟨3, _⟩ => rfl)

/-- The first projection: the maximum over `h`. -/
theorem refProj1_apply (a0 a1 : FVec Ideal S262144x4 .f32) (c : Fin 4) (a b : Fin 256) :
    refProj1 a0 a1 (ix4 (0 : Fin 1) c a b) = fmax fun h : Fin 256 => mean (refIdx a0) a1 c h a b := by
  unfold refProj1
  rw [transpose_apply4,
    Host.reduce_eq_fold_single FloatOps.maximumf (refGrid a0 a1) _ reducesTo_S1x256x256x256x4_S1x256x256x4_d1 reduces1 h_S_]
  have hf : (refGrid a0 a1 ∘ reduces1.lift (ix4 (0 : Fin 1) a b c)) = fun h : Fin 256 => mean (refIdx a0) a1 c h a b :=
    funext fun h => (congrArg (refGrid a0 a1) (lift1 a b c h)).trans (refGrid_apply a0 a1 c h a b)
  rw [hf]
  rfl

/-- The second projection: the maximum over `w`. -/
theorem refProj2_apply (a0 a1 : FVec Ideal S262144x4 .f32) (c : Fin 4) (a b : Fin 256) :
    refProj2 a0 a1 (ix4 (0 : Fin 1) c a b) = fmax fun w : Fin 256 => mean (refIdx a0) a1 c a w b := by
  unfold refProj2
  rw [transpose_apply4,
    Host.reduce_eq_fold_single FloatOps.maximumf (refGrid a0 a1) _ reducesTo_S1x256x256x256x4_S1x256x256x4_d2 reduces2 h_S_]
  have hf : (refGrid a0 a1 ∘ reduces2.lift (ix4 (0 : Fin 1) a b c)) = fun w : Fin 256 => mean (refIdx a0) a1 c a w b :=
    funext fun w => (congrArg (refGrid a0 a1) (lift2 a b c w)).trans (refGrid_apply a0 a1 c a w b)
  rw [hf]
  rfl

/-- The third projection: the maximum over `z`. -/
theorem refProj3_apply (a0 a1 : FVec Ideal S262144x4 .f32) (c : Fin 4) (a b : Fin 256) :
    refProj3 a0 a1 (ix4 (0 : Fin 1) c a b) = fmax fun z : Fin 256 => mean (refIdx a0) a1 c a b z := by
  unfold refProj3
  rw [transpose_apply4,
    Host.reduce_eq_fold_single FloatOps.maximumf (refGrid a0 a1) _ reducesTo_S1x256x256x256x4_S1x256x256x4_d3 reduces3 h_S_]
  have hf : (refGrid a0 a1 ∘ reduces3.lift (ix4 (0 : Fin 1) a b c)) = fun z : Fin 256 => mean (refIdx a0) a1 c a b z :=
    funext fun z => (congrArg (refGrid a0 a1) (lift3 a b c z)).trans (refGrid_apply a0 a1 c a b z)
  rw [hf]
  rfl

/-! ## The stack -/

/-- Slab `n` of the stack of three arrays of extent one along axis 0 is array `n`. -/
theorem stack3_apply (x0 x1 x2 : FVec Ideal S1x4x256x256 .f32) (n : Nat) (hn : n < 3) (xn : FVec Ideal S1x4x256x256 .f32)
    (hxn : [(⟨S1x4x256x256, x0⟩ : (s : Shape) × (s.Idx → Ideal .f32)), ⟨S1x4x256x256, x1⟩, ⟨S1x4x256x256, x2⟩][n]'hn = ⟨S1x4x256x256, xn⟩)
    (c : Fin 4) (a b : Fin 256) :
    concatenate S3x4x256x256 0 [⟨S1x4x256x256, x0⟩, ⟨S1x4x256x256, x1⟩, ⟨S1x4x256x256, x2⟩]
        concatenates_S1x4x256x256_S1x4x256x256_S1x4x256x256_S3x4x256x256_d0 (ix4 (⟨n, hn⟩ : Fin 3) c a b)
      = xn (ix4 (0 : Fin 1) c a b) := by
  refine concatenate_apply_piece (t := S3x4x256x256) (0 : Fin S3x4x256x256.rank)
    [(⟨S1x4x256x256, x0⟩ : (s : Shape) × (s.Idx → Ideal .f32)), ⟨S1x4x256x256, x1⟩, ⟨S1x4x256x256, x2⟩]
    concatenates_S1x4x256x256_S1x4x256x256_S1x4x256x256_S3x4x256x256_d0
    (ix4 (⟨n, hn⟩ : Fin 3) c a b) n hn S1x4x256x256 xn hxn rfl n ?_ (ix4 (0 : Fin 1) c a b) ?_ ?_
  · match n, hn with
    | 0, _ => rfl
    | 1, _ => rfl
    | 2, _ => rfl
  · intro d hd
    match d, hd with
    | ⟨0, _⟩, hd => exact (hd (Fin.ext rfl)).elim
    | ⟨1, _⟩, _ => rfl
    | ⟨2, _⟩, _ => rfl
    | ⟨3, _⟩, _ => rfl
  · show n + 0 = n
    rfl

/-! ## The value -/

/-- The reference's result, as a function of its two arguments, is the specification's array at the voxel numbers
    the reference computes and the features. -/
theorem ref_value (a0 a1 : FVec Ideal S262144x4 .f32) : refOut a0 a1 = Cert.Spec.out (refIdx a0) a1 := by
  funext i
  obtain ⟨s, c, a, b, rfl⟩ : ∃ (s : Fin 3) (c : Fin 4) (a b : Fin 256), i = ix4 s c a b := ⟨i 0, i 1, i 2, i 3, eq_ix4 i⟩
  rw [out_ix4]
  unfold refOut
  match s with
  | ⟨0, hs⟩ =>
    exact (stack3_apply (refProj1 a0 a1) (refProj2 a0 a1) (refProj3 a0 a1) 0 hs (refProj1 a0 a1) rfl c a b).trans
      (refProj1_apply a0 a1 c a b)
  | ⟨1, hs⟩ =>
    exact (stack3_apply (refProj1 a0 a1) (refProj2 a0 a1) (refProj3 a0 a1) 1 hs (refProj2 a0 a1) rfl c a b).trans
      (refProj2_apply a0 a1 c a b)
  | ⟨2, hs⟩ =>
    exact (stack3_apply (refProj1 a0 a1) (refProj2 a0 a1) (refProj3 a0 a1) 2 hs (refProj3 a0 a1) rfl c a b).trans
      (refProj3_apply a0 a1 c a b)

/-! ## The run -/

/-- On every device, from any memory with zero counters: every weakly fair execution of the reference terminates
    with its result buffer at the specification's array — at the voxel numbers computed from the first argument and the
    features in the second — and both argument arrays unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v42)
            = Cert.Spec.out (refIdx (m ((c.tc : Thread Cert.ReferenceIdeal.nD Cert.ReferenceIdeal.τ).loc Cert.ReferenceIdeal.main_arg0)))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono (fun _ h c => ⟨(h c).1.trans (ref_value _ _), (h c).2.1, (h c).2.2⟩) (Cert.RefRun.run m ρ)

end Cert.RefSide

end
-- ==== Proof.IdxEq.lean ====
/-
  THE TWO PROGRAMS COMPUTE THE SAME VOXEL NUMBERS.

  Both turn the first argument into voxel numbers by the same operations in the same order — scale by 256, round
  down, convert, clip to [0, 255], combine with the batch word as ((b·256 + x)·256 + y)·256 + z —; the two texts
  differ only in the proofs of their shape facts.
-/
import proofs.«135331_j13778255086206_2_alg».proof.Proof.PreMath
import proofs.«135331_j13778255086206_2_alg».proof.Proof.RefStages

noncomputable section

namespace Cert.IdxEq

open Idealize.ShloMosaic

/-- The clipped coordinates agree. -/
theorem kClip_eq_refClip (a0 : FVec Ideal Cert.KernelIdeal.S262144x4 .f32) :
    Cert.PreMath.kClip a0 = Cert.RefSide.refClip a0 := rfl

/-- THE VOXEL NUMBERS AGREE. -/
theorem kIdx_eq_refIdx (a0 : FVec Ideal Cert.KernelIdeal.S262144x4 .f32) :
    Cert.PreMath.kIdx a0 = Cert.RefSide.refIdx a0 := by
  unfold Cert.PreMath.kIdx Cert.PreMath.kFlat Cert.RefSide.refIdx
  rw [kClip_eq_refClip]

end Cert.IdxEq

end
-- ==== Proof.lean ====
/-
  Two programs voxelize a cloud of 262144 points into a 256 × 256 × 256 grid (each point lands in the voxel its three
  clipped, floored coordinates name; out-of-grid points are dropped), take per voxel and channel the mean feature — the sum
  over the voxel's points divided by the number of points, the number taken at least one — and return the maximum of
  the mean along each of the three axes, stacked.

  The reference sums all four channels in one scatter, divides, and reduces the 5-axis grid along each axis in turn. The kernel
  sums each channel and the count in five separate scatters; a region over a 2 × 8 grid of points reads 16 rows of the five grids
  per point, divides, takes the three maxima of the block, writes the maxima over w and over z straight to their rows, and folds the
  maximum over h into a buffer that lives through the 8 points of a half; the two halves are joined by one more maximum after the
  region. Over the extended reals, where sums may be regrouped and a maximum over 256 rows is the maximum of the maxima of any
  partition of the rows, the two results are the same function of the arguments, index by index (`Cert.Spec.out`).

  The kernel's frame (it runs to the end, faults nowhere, leaves its arguments unchanged) is proved once for any float
  instance and read at the word-level instance and at the exact one; the exact run is then read as a value. Nothing in the
  argument needs the inputs to be finite.
-/
import proofs.«135331_j13778255086206_2_alg».proof.Defs
import proofs.«135331_j13778255086206_2_alg».proof.Proof.Gen.Kernel
import proofs.«135331_j13778255086206_2_alg».proof.Proof.Gen.KernelIdeal
import proofs.«135331_j13778255086206_2_alg».proof.Proof.Gen.ReferenceIdeal
import proofs.«135331_j13778255086206_2_alg».proof.Proof.Gen.Pre_finite_inputs
import proofs.«135331_j13778255086206_2_alg».proof.Proof.KernelFrame
import proofs.«135331_j13778255086206_2_alg».proof.Proof.KernelIdealValueD
import proofs.«135331_j13778255086206_2_alg».proof.Proof.RefSide
import proofs.«135331_j13778255086206_2_alg».proof.Proof.IdxEq
import Idealize.ShloMosaic.Adequacy
import Idealize.ShloMosaic.Init

noncomputable section

namespace Cert.Proof

open Idealize.ShloMosaic Idealize.SL.Sem

theorem frame_p : Cert.frame_Kernel := fun m ρ _ => Cert.Kernel.Frame.frame m ρ

theorem frame_pi : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.RefSide.ref_run m ρ)

/-- The idealized kernel is the kernel's own text read at the exact instance: nothing was rewritten. -/
theorem preserves : Cert.preserves_Kernel_KernelIdeal := trivial

/-- Both runs end with the result array at the common function of the arguments; the two programs compute the voxel
    numbers by the same operations. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.RefSide.ref_run m' ρ')
  rw [(hagree c).1, (hagree c).2, ← Cert.IdxEq.kIdx_eq_refIdx]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
